-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3000x2 : Shape := ⟨3, ![4, 3000, 2]⟩
abbrev S_ : Shape := ⟨0, ![]⟩

class Facts : Prop where
  bcast_S_S4x3000x2 : S_.BroadcastsInDim S4x3000x2 (![] : Fin 0 → Fin S4x3000x2.rank)
  reducesTo_S4x3000x2_S_d0_1_2 : S4x3000x2.ReducesTo [0, 1, 2] S_
  h_S_ : 0 < S_.numel

variable [Facts]

def fn {F : FTy → Type} [FloatOps F] (main_arg0 : FVec F S4x3000x2 .f32) (main_arg1 : FVec F S4x3000x2 .f32) : IVec S_ 1 :=
  let main_v0 : FVec F S4x3000x2 .f32 := Host.absf main_arg0
  let main_cst : FVec F S_ .f32 := constant S_ .f32 0x7F800000#32
  let main_v1 : FVec F S4x3000x2 .f32 := broadcastInDim S4x3000x2 ![] bcast_S_S4x3000x2 main_cst
  let main_v2 : IVec S4x3000x2 1 := cmpf .olt main_v0 main_v1
  let main_c : IVec S_ 1 := constantI S_ 1 1#1
  let main_v3 : IVec S_ 1 := (fun x v => Host.reduce IntOp.andi x v reducesTo_S4x3000x2_S_d0_1_2 h_S_) main_v2 main_c
  let main_v4 : FVec F S4x3000x2 .f32 := Host.absf main_arg1
  let main_cst_0 : FVec F S_ .f32 := constant S_ .f32 0x7F800000#32
  let main_v5 : FVec F S4x3000x2 .f32 := broadcastInDim S4x3000x2 ![] bcast_S_S4x3000x2 main_cst_0
  let main_v6 : IVec S4x3000x2 1 := cmpf .olt main_v4 main_v5
  let main_c_1 : IVec S_ 1 := constantI S_ 1 1#1
  let main_v7 : IVec S_ 1 := (fun x v => Host.reduce IntOp.andi x v reducesTo_S4x3000x2_S_d0_1_2 h_S_) main_v6 main_c_1
  let main_v8 : IVec S_ 1 := andi main_v3 main_v7
  main_v8
-- ==== Kernel.lean ====
abbrev S4x3000x2 : Shape := ⟨3, ![4, 3000, 2]⟩
abbrev S1x1000x2 : Shape := ⟨3, ![1, 1000, 2]⟩
abbrev S1x3000x2 : Shape := ⟨3, ![1, 3000, 2]⟩
abbrev S1000x2 : Shape := ⟨2, ![1000, 2]⟩
abbrev S3000x2 : Shape := ⟨2, ![3000, 2]⟩
abbrev S1000x1000 : Shape := ⟨2, ![1000, 1000]⟩
abbrev S1000 : Shape := ⟨1, ![1000]⟩
abbrev S1000x1 : Shape := ⟨2, ![1000, 1]⟩
abbrev S1x1000 : Shape := ⟨2, ![1, 1000]⟩

abbrev nBuf : Space → Nat
  | .hbm => 4
  | .vmem => 12
  | .smem => 0
  | _ => 0

abbrev bufTy : (tb : Table) → Fin (tcTables nBuf tb) → BufTy
  | .hbm, ⟨0, _⟩ => ⟨S4x3000x2, .f32⟩
  | .hbm, ⟨1, _⟩ => ⟨S4x3000x2, .f32⟩
  | .hbm, ⟨2, _⟩ => ⟨S4x3000x2, .f32⟩
  | .hbm, ⟨3, _⟩ => ⟨S4x3000x2, .f32⟩
  | .local _ .vmem, ⟨0, _⟩ => ⟨S1x1000x2, .f32⟩
  | .local _ .vmem, ⟨1, _⟩ => ⟨S1x1000x2, .f32⟩
  | .local _ .vmem, ⟨2, _⟩ => ⟨S1x1000x2, .f32⟩
  | .local _ .vmem, ⟨3, _⟩ => ⟨S1x1000x2, .f32⟩
  | .local _ .vmem, ⟨4, _⟩ => ⟨S1x3000x2, .f32⟩
  | .local _ .vmem, ⟨5, _⟩ => ⟨S1x3000x2, .f32⟩
  | .local _ .vmem, ⟨6, _⟩ => ⟨S1x1000x2, .f32⟩
  | .local _ .vmem, ⟨7, _⟩ => ⟨S1x1000x2, .f32⟩
  | .local _ .vmem, ⟨8, _⟩ => ⟨S1x3000x2, .f32⟩
  | .local _ .vmem, ⟨9, _⟩ => ⟨S1x3000x2, .f32⟩
  | .local _ .vmem, ⟨10, _⟩ => ⟨S1000x2, .f32⟩
  | .local _ .vmem, ⟨11, _⟩ => ⟨S3000x2, .f32⟩
  | _, _ => ⟨S4x3000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 3, 3], ![false, false, false]⟩

def k0_mult1 (i : grid0.Coords) : BitVec 32 :=
  let arg2 : BitVec 32 := BitVec.ofNat 32 (i 2).val
  let c1000_i32 : BitVec 32 := 1000#32
  let v42 : BitVec 32 := Scalar.muli arg2 c1000_i32
  v42
def k0_off1 (i : grid0.Coords) : Fin 2 → Nat :=
  let arg2 : BitVec 32 := BitVec.ofNat 32 (i 2).val
  let c1000_i32 : BitVec 32 := 1000#32
  let v42 : BitVec 32 := Scalar.muli arg2 c1000_i32
  let v43 : BitVec 32 := v42
  let v44 : Index := Scalar.indexCast v43
  let c0_23 : Index := 0#32
  ![v44.toNat, 0]
def k0_off2 (i : grid0.Coords) : Fin 2 → Nat :=
  let arg2 : BitVec 32 := BitVec.ofNat 32 (i 2).val
  let c1000_i32 : BitVec 32 := 1000#32
  let v42 : BitVec 32 := Scalar.muli arg2 c1000_i32
  let v43 : BitVec 32 := v42
  let v51 : Index := Scalar.indexCast v43
  let c1_25 : Index := 1#32
  ![v51.toNat, 1]
def k0_cond3 (i : grid0.Coords) : BitVec 1 :=
  let arg2 : BitVec 32 := BitVec.ofNat 32 (i 2).val
  let c2_i32 : BitVec 32 := 2#32
  let v58 : BitVec 1 := Scalar.cmpi .eq arg2 c2_i32
  let v59 : BitVec 32 := Scalar.extui v58
  let c0_i32_27 : BitVec 32 := 0#32
  let v60 : BitVec 1 := Scalar.cmpi .ne v59 c0_i32_27
  v60

def k0_cond4 (i : grid0.Coords) : BitVec 1 :=
  let arg1 : BitVec 32 := BitVec.ofNat 32 (i 1).val
  let c2_i32_28 : BitVec 32 := 2#32
  let v61 : BitVec 1 := Scalar.cmpi .eq arg1 c2_i32_28
  let arg2 : BitVec 32 := BitVec.ofNat 32 (i 2).val
  let c2_i32_29 : BitVec 32 := 2#32
  let v62 : BitVec 1 := Scalar.cmpi .eq arg2 c2_i32_29
  let v63 : BitVec 1 := Scalar.andi v61 v62
  let v64 : BitVec 32 := Scalar.extui v63
  let c0_i32_30 : BitVec 32 := 0#32
  let v65 : BitVec 1 := Scalar.cmpi .ne v64 c0_i32_30
  v65

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x3000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x3000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  inb_S3000x2_S3000x2_0_0 : ∀ a, (![0, 0] : Fin 2 → Nat) a + S3000x2.size a ≤ S3000x2.size a
  h_S3000x2 : 0 < S3000x2.numel
  shapeCasts_S3000x2_S3000x2 : S3000x2.ShapeCasts S3000x2
  inb_S1000x2_S1000x2_0_0 : ∀ a, (![0, 0] : Fin 2 → Nat) a + S1000x2.size a ≤ S1000x2.size a
  h_S1000x2 : 0 < S1000x2.numel
  shapeCasts_S1000x2_S1000x2 : S1000x2.ShapeCasts S1000x2
  inb_S1x1000x2_S1x1000x2_0_0_0 : ∀ a, (![0, 0, 0] : Fin 3 → Nat) a + S1x1000x2.size a ≤ S1x1000x2.size a
  h_S1x1000x2 : 0 < S1x1000x2.numel
  shapeCasts_S1x1000x2_S1000x2 : S1x1000x2.ShapeCasts S1000x2
  reduces_S1000x1000_S1000 : S1000x1000.Reduces [1] S1000
  shapeCasts_S1000_S1000x1 : S1000.ShapeCasts S1000x1
  inb_S1000x2_S1000x1_0_0 : ∀ a, (![0, 0] : Fin 2 → Nat) a + S1000x1.size a ≤ S1000x2.size a
  h_S1000x1 : 0 < S1000x1.numel
  shapeCasts_S1000x1_S1000x1 : S1000x1.ShapeCasts S1000x1
  inb_S1000x2_S1000x1_0_1 : ∀ a, (![0, 1] : Fin 2 → Nat) a + S1000x1.size a ≤ S1000x2.size a
  reduces_S1000x1000_S1000_2 : S1000x1000.Reduces [0] S1000
  shapeCasts_S1000_S1x1000 : S1000.ShapeCasts S1x1000
  transposes_S1x1000_p1_0_S1000x1 : S1x1000.Transposes [1, 0] S1000x1
  shapeCasts_S1000x2_S1x1000x2 : S1000x2.ShapeCasts S1x1000x2
  inb_S1x3000x2_S1x3000x2_0_0_0 : ∀ a, (![0, 0, 0] : Fin 3 → Nat) a + S1x3000x2.size a ≤ S1x3000x2.size a
  h_S1x3000x2 : 0 < S1x3000x2.numel
  shapeCasts_S1x3000x2_S3000x2 : S1x3000x2.ShapeCasts S3000x2
  shapeCasts_S3000x2_S1x3000x2 : S3000x2.ShapeCasts S1x3000x2
  dot_S1000x2_S1000x2_S1000x1000_1_1_0_0_n_n_wf : DotDims.WF S1000x2 S1000x2 S1000x1000 [1] [1] [0] [0] [] []
  hrank0 : 0 < grid0.rank
  k0_mult1_dvd : ∀ i : grid0.Coords, 1000 ∣ (k0_mult1 i).toNat
  k0_off1_inb : ∀ i : grid0.Coords, ∀ a, (k0_off1 i) a + S1000x1.size a ≤ S3000x2.size a
  k0_off2_inb : ∀ i : grid0.Coords, ∀ a, (k0_off2 i) a + S1000x1.size a ≤ S3000x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x2.size a ≤ S4x3000x2.size a
  hwx0_0 : ∀ i : grid0.Coords, EltTy.bits .f32 = 32 ∨ (Rect.block (s := S4x3000x2) S1x1000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x2.size a ≤ S4x3000x2.size a
  hwx0_1 : ∀ i : grid0.Coords, EltTy.bits .f32 = 32 ∨ (Rect.block (s := S4x3000x2) S1x1000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3000x2.size a ≤ S4x3000x2.size a
  hwx0_2 : ∀ i : grid0.Coords, EltTy.bits .f32 = 32 ∨ (Rect.block (s := S4x3000x2) S1x3000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x2.size a ≤ S4x3000x2.size a
  hwx0_3 : ∀ i : grid0.Coords, EltTy.bits .f32 = 32 ∨ (Rect.block (s := S4x3000x2) S1x1000x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3000x2.size a ≤ S4x3000x2.size a
  hwx0_4 : ∀ i : grid0.Coords, EltTy.bits .f32 = 32 ∨ (Rect.block (s := S4x3000x2) S1x3000x2.size (cc0_transform_4 i) (hinb0_4 i)).WholeWords (EltTy.packing .f32)

variable [Facts₀]

def dot_S1000x2_S1000x2_S1000x1000_1_1_0_0_n_n : DotDims S1000x2 S1000x2 S1000x1000 where
  lhsContracting := [1]
  rhsContracting := [1]
  lhsNonContracting := [0]
  rhsNonContracting := [0]
  lhsBatch := []
  rhsBatch := []
  wf := dot_S1000x2_S1000x2_S1000x1000_1_1_0_0_n_n_wf

abbrev win0_0 : Pipeline.Window sig grid0 :=
  Pipeline.Window.ofSpec (Memref.whole main_arg0) S1x1000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x3000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1000x2.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x3000x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun i => !(k0_cond4 i == 1#1) | ⟨_ + 5, h⟩ => absurd h (Nat.not_lt.2 (Nat.le_add_left _ _))

class Facts : Prop extends Facts₀ where

variable [Facts]
-- ==== ReferenceIdeal.lean ====
abbrev S4x3000x2 : Shape := ⟨3, ![4, 3000, 2]⟩
abbrev S4x3000x3000 : Shape := ⟨3, ![4, 3000, 3000]⟩
abbrev S_ : Shape := ⟨0, ![]⟩
abbrev S4x3000x3000x1 : Shape := ⟨4, ![4, 3000, 3000, 1]⟩
abbrev S4x3000x3000x2 : Shape := ⟨4, ![4, 3000, 3000, 2]⟩

abbrev nBuf : Space → Nat
  | .hbm => 28
  | .vmem => 0
  | .smem => 0
  | _ => 0

abbrev bufTy : (tb : Table) → Fin (tcTables nBuf tb) → BufTy
  | .hbm, ⟨0, _⟩ => ⟨S4x3000x2, .f32⟩
  | .hbm, ⟨1, _⟩ => ⟨S4x3000x2, .f32⟩
  | .hbm, ⟨2, _⟩ => ⟨S4x3000x3000, .f32⟩
  | .hbm, ⟨3, _⟩ => ⟨S_, .f32⟩
  | .hbm, ⟨4, _⟩ => ⟨S4x3000x3000, .f32⟩
  | .hbm, ⟨5, _⟩ => ⟨S4x3000x3000, .f32⟩
  | .hbm, ⟨6, _⟩ => ⟨S_, .f32⟩
  | .hbm, ⟨7, _⟩ => ⟨S4x3000x3000, .f32⟩
  | .hbm, ⟨8, _⟩ => ⟨S4x3000x3000, .f32⟩
  | .hbm, ⟨9, _⟩ => ⟨S_, .f32⟩
  | .hbm, ⟨10, _⟩ => ⟨S_, .f32⟩
  | .hbm, ⟨11, _⟩ => ⟨S4x3000x3000, .f32⟩
  | .hbm, ⟨12, _⟩ => ⟨S4x3000x3000, .f32⟩
  | .hbm, ⟨13, _⟩ => ⟨S4x3000x3000, .f32⟩
  | .hbm, ⟨14, _⟩ => ⟨S_, .f32⟩
  | .hbm, ⟨15, _⟩ => ⟨S4x3000x3000, .f32⟩
  | .hbm, ⟨16, _⟩ => ⟨S4x3000x3000, .f32⟩
  | .hbm, ⟨17, _⟩ => ⟨S4x3000x3000, .f32⟩
  | .hbm, ⟨18, _⟩ => ⟨S4x3000x3000, .f32⟩
  | .hbm, ⟨19, _⟩ => ⟨S4x3000x3000x1, .f32⟩
  | .hbm, ⟨20, _⟩ => ⟨S4x3000x3000x1, .f32⟩
  | .hbm, ⟨21, _⟩ => ⟨S4x3000x3000x2, .f32⟩
  | .hbm, ⟨22, _⟩ => ⟨S_, .f32⟩
  | .hbm, ⟨23, _⟩ => ⟨S4x3000x2, .f32⟩
  | .hbm, ⟨24, _⟩ => ⟨S4x3000x2, .f32⟩
  | .hbm, ⟨25, _⟩ => ⟨S_, .f32⟩
  | .hbm, ⟨26, _⟩ => ⟨S4x3000x2, .f32⟩
  | .hbm, ⟨27, _⟩ => ⟨S4x3000x2, .f32⟩
  | _, _ => ⟨S4x3000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S4x3000x3000 : S_.BroadcastsInDim S4x3000x3000 (![] : Fin 0 → Fin S4x3000x3000.rank)
  bcast_S4x3000x3000_S4x3000x3000x1_0_1_2 : S4x3000x3000.BroadcastsInDim S4x3000x3000x1 (![0, 1, 2] : Fin 3 → Fin S4x3000x3000x1.rank)
  concatenates_S4x3000x3000x1_S4x3000x3000x1_S4x3000x3000x2_d3 : Shape.Concatenates [S4x3000x3000x1, S4x3000x3000x1] S4x3000x3000x2 3
  reducesTo_S4x3000x3000x2_S4x3000x2_d2 : S4x3000x3000x2.ReducesTo [2] S4x3000x2
  h_S_ : 0 < S_.numel
  reducesTo_S4x3000x3000x2_S4x3000x2_d1 : S4x3000x3000x2.ReducesTo [1] S4x3000x2
  dot_S4x3000x2_S4x3000x2_S4x3000x3000_2_2_1_1_0_0_wf : DotDims.WF S4x3000x2 S4x3000x2 S4x3000x3000 [2] [2] [1] [1] [0] [0]

variable [Facts₀]

def dot_S4x3000x2_S4x3000x2_S4x3000x3000_2_2_1_1_0_0 : DotDims S4x3000x2 S4x3000x2 S4x3000x3000 where
  lhsContracting := [2]
  rhsContracting := [2]
  lhsNonContracting := [1]
  rhsNonContracting := [1]
  lhsBatch := [0]
  rhsBatch := [0]
  wf := dot_S4x3000x2_S4x3000x2_S4x3000x3000_2_2_1_1_0_0_wf

class Facts : Prop extends Facts₀ where

variable [Facts]
-- ==== Proof.K.Runs.lean ====
/-
  What the per-case runs of the kernel body share.  The grid is 4 x 3 x 3 (batch b, row tile na, column tile nb),
  a point t = 9 b + 3 na + nb.  The body zeroes the column-sum scratch when na = nb = 0, zeroes the row-sum scratch when
  nb = 0, always adds the tile's row sums and column sums of sin d and cos d into the two scratches, writes the first
  output's block when nb = 2 and the second output's block when na = nb = 2.  Here: the arrays as the region finds
  them, each window's block at a point, the four branch conditions in closed form over the point's number, where the
  two output windows are idle, and the names of the staging and scratch memrefs.
-/
import proofs.«125605_j47287589929003_2_alg».proof.Proof.Gen.Kernel.Launch
import proofs.«125605_j47287589929003_2_alg».proof.Proof.Gen.Kernel.Skeleton
import proofs.«125605_j47287589929003_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry and the windows' blocks -/

/-- The program is the region alone, so the region finds every buffer at its launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the index map has
    not moved since the last fetch), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's four branch conditions -/

/-- "na = 0 and nb = 0": the column-sum scratch is zeroed. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)
/-- "nb = 0": the row-sum scratch is zeroed. -/
abbrev cond0_1 (i : grid0.Coords) : Prop :=
  (Scalar.cmpi .ne (Scalar.extui (Scalar.cmpi .eq (BitVec.ofNat 32 (i 2).val) 0#32)) 0#32) = 1#1
theorem hcond0_1 : ∀ t : Fin cfg0.N, cond0_1 (grid0.coords t) ↔ t.val % 3 = 0 :=
  (by decide +kernel : ∀ t : Fin grid0.N, cond0_1 (grid0.coords t) ↔ t.val % 3 = 0)
/-- "nb = 2": the first output's block is written. -/
abbrev cond0_2 (i : grid0.Coords) : Prop := k0_cond3 i = 1#1
theorem hcond0_2 : ∀ t : Fin cfg0.N, cond0_2 (grid0.coords t) ↔ t.val % 3 = 2 :=
  (by decide +kernel : ∀ t : Fin grid0.N, cond0_2 (grid0.coords t) ↔ t.val % 3 = 2)
/-- "na = 2 and nb = 2": the second output's block is written. -/
abbrev cond0_3 (i : grid0.Coords) : Prop := k0_cond4 i = 1#1
theorem hcond0_3 : ∀ t : Fin cfg0.N, cond0_3 (grid0.coords t) ↔ t.val % 9 = 8 :=
  (by decide +kernel : ∀ t : Fin grid0.N, cond0_3 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from nb = 2 the first output is idle and is not written back. -/
theorem idleAt0_3 : ∀ t : Fin cfg0.N, ¬t.val % 3 = 2 → cfg0.idle 3 (grid0.coords t) = true := by decide +kernel
theorem noFlush0_3 : ∀ t : Fin cfg0.N, ¬t.val % 3 = 2 → (cfg0.win 3).flush t = false := by decide +kernel
theorem liveAt0_3 : ∀ t : Fin cfg0.N, t.val % 3 = 2 → cfg0.idle 3 (grid0.coords t) = false := by decide +kernel
/-- Away from na = nb = 2 the second output is idle and is not written back. -/
theorem idleAt0_4 : ∀ t : Fin cfg0.N, ¬t.val % 9 = 8 → cfg0.idle 4 (grid0.coords t) = true := by decide +kernel
theorem noFlush0_4 : ∀ t : Fin cfg0.N, ¬t.val % 9 = 8 → (cfg0.win 4).flush t = false := by decide +kernel
theorem liveAt0_4 : ∀ t : Fin cfg0.N, t.val % 9 = 8 → cfg0.idle 4 (grid0.coords t) = false := by decide +kernel

/-! ## The memrefs the body is called with -/

abbrev ms0_0 (t : Fin cfg0.N) : Memref sig .tc .vmem S1x1000x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1000x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3000x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1000x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3000x2 .f32 := win0_4.stage (cfg0.slots t 4)
abbrev hs0_4 (t : Fin cfg0.N) : (ms0_4 t).IsWhole := hstage0_4 ((cfg0.slots t 4).cast nbuf0_4)
/-- One staging buffer of each output window, through which its contents are stated. -/
abbrev VO0_3 : View sig .tc .vmem S1x1000x2 .f32 := (Memref.whole cc0_stg3_0 : Memref sig .tc .vmem S1x1000x2 .f32).view
abbrev VO0_4 : View sig .tc .vmem S1x3000x2 .f32 := (Memref.whole cc0_stg4_0 : Memref sig .tc .vmem S1x3000x2 .f32).view
/-- The row-sum scratch [1000, 2] and the column-sum scratch [3000, 2]. -/
abbrev scM0_0 : Memref sig .tc .vmem S1000x2 .f32 := Memref.whole cc0_scratch0
abbrev scM0_1 : Memref sig .tc .vmem S3000x2 .f32 := Memref.whole cc0_scratch1
abbrev hsc0_0 : (scM0_0).IsWhole := Memref.isWhole_whole _
abbrev hsc0_1 : (scM0_1).IsWhole := Memref.isWhole_whole _
abbrev VS0_0 : View sig .tc .vmem S1000x2 .f32 := scM0_0.view
abbrev VS0_1 : View sig .tc .vmem S3000x2 .f32 := scM0_1.view

/-- The class invariant with the two scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frm

end
-- ==== Proof.K.RunA.lean ====
/-
  The body at a point with na = nb = 0: both scratches are zeroed, then the tile's row sums and column sums
  are added in; the two output windows are handed back untouched.  Both scratches end covered by their pieces.
-/
import proofs.«125605_j47287589929003_2_alg».proof.Proof.K.Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Frm
variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : cond0_0 i) (hc1 : cond0_1 i) (hc2 : ¬cond0_2 i) (hc3 : ¬cond0_3 i)
    (x0 : Vec F S1x1000x2 .f32) (x1 : Vec F S1x1000x2 .f32) (x2 : Vec F S1x3000x2 .f32) :
    Σ' (LS0 : List (View.Piece (Elt F) S1000x2 .f32)), { LS1 : List (View.Piece (Elt F) S3000x2 .f32) //
      ∀ (xi3 : Vec F S1x1000x2 .f32) (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, fun xi3 xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3
    obtain rfl := harg7.eq_unread hf4
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Frm

end
-- ==== Proof.K.RunB.lean ====
/-
  The body at a point with nb = 0 and na > 0: the row-sum scratch is zeroed, the column-sum scratch is read and
  added to on the rows of the point's column tile; the two output windows are handed back untouched.
-/
import proofs.«125605_j47287589929003_2_alg».proof.Proof.K.RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Frm
variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : cond0_1 i) (hc2 : ¬cond0_2 i) (hc3 : ¬cond0_3 i)
    (x0 : Vec F S1x1000x2 .f32) (x1 : Vec F S1x1000x2 .f32) (x2 : Vec F S1x3000x2 .f32) (xs1 : Vec F S3000x2 .f32) :
    Σ' (LS0 : List (View.Piece (Elt F) S1000x2 .f32)), { LS1 : List (View.Piece (Elt F) S3000x2 .f32) //
      ∀ (xi3 : Vec F S1x1000x2 .f32) (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ d, owns (c : Thread nD τ) arg8 fullShare d) ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, fun xi3 xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg3.eq_unread hf0; obtain rfl := harg4.eq_unread hf1; obtain rfl := harg5.eq_unread hf2
    obtain rfl := harg6.eq_unread hf3
    obtain rfl := harg7.eq_unread hf4
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexact HS1

end Cert.Kernel.Frm

end
-- ==== Proof.K.RunC.lean ====
/-
  The body at a point with nb = 1: no branch is taken.  Both scratches are read and added to; the row-sum scratch
  is rewritten column by column, the column-sum scratch only on the rows of the point's column tile; the two output
  windows are handed back untouched.
-/
import proofs.«125605_j47287589929003_2_alg».proof.Proof.K.RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Frm
variable (m : (ℓ : Loc nD τ sig) → Buf (Elt F) ℓ) (ρ : Dev nD → PrngReg)

set_option maxHeartbeats 4000000 in
noncomputable def kernelRun0_C (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : ¬cond0_1 i) (hc2 : ¬cond0_2 i) (hc3 : ¬cond0_3 i)
    (x0 : Vec F S1x1000x2 .f32) (x1 : Vec F S1x1000x2 .f32) (x2 : Vec F S1x3000x2 .f32) (xs0 : Vec F S1000x2 .f32) (xs1 : Vec F S3000x2 .f32) :
    Σ' (LS0 : List (View.Piece (Elt F) S1000x2 .f32)), { LS1 : List (View.Piece (Elt F) S3000x2 .f32) //
      ∀ (xi3 : Vec F S1x1000x2 .f32) (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, fun xi3 xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3
    obtain rfl := harg7.eq_unread hf4
    obtain rfl := harg8.eq_unread hfs0
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexact HS1

end Cert.Kernel.Frm

end
-- ==== Proof.K.RunD.lean ====
/-
  The body at a point with nb = 2 and na < 2: both scratches are read and added to, and the first output's block
  is written as the first cloud's block times the row-sum scratch; the second output window is handed back untouched.
-/
import proofs.«125605_j47287589929003_2_alg».proof.Proof.K.RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Frm
variable (m : (ℓ : Loc nD τ sig) → Buf (Elt F) ℓ) (ρ : Dev nD → PrngReg)

set_option maxHeartbeats 4000000 in
noncomputable def kernelRun0_D (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : ¬cond0_1 i) (hc2 : cond0_2 i) (hc3 : ¬cond0_3 i)
    (x0 : Vec F S1x1000x2 .f32) (x1 : Vec F S1x1000x2 .f32) (x2 : Vec F S1x3000x2 .f32) (xs0 : Vec F S1000x2 .f32) (xs1 : Vec F S3000x2 .f32) :
    Σ' (L3 : List (View.Piece (Elt F) S1x1000x2 .f32)), Σ' (LS0 : List (View.Piece (Elt F) S1000x2 .f32)), { LS1 : List (View.Piece (Elt F) S3000x2 .f32) //
      ∀ (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, ?_, fun xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hf4
    obtain rfl := harg8.eq_unread hfs0
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    isplitl [HS0]; · iexists _; iexact HS0
    iexact HS1

end Cert.Kernel.Frm

end
-- ==== Proof.K.RunE.lean ====
/-
  The body at a point with na = nb = 2: both scratches are read and added to, the first output's block is written as
  the first cloud's block times the row-sum scratch, and the second output's block as the second cloud's whole batch
  times the column-sum scratch.
-/
import proofs.«125605_j47287589929003_2_alg».proof.Proof.K.RunD

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Frm
variable (m : (ℓ : Loc nD τ sig) → Buf (Elt F) ℓ) (ρ : Dev nD → PrngReg)

set_option maxHeartbeats 4000000 in
noncomputable def kernelRun0_E (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : ¬cond0_1 i) (hc2 : cond0_2 i) (hc3 : cond0_3 i)
    (x0 : Vec F S1x1000x2 .f32) (x1 : Vec F S1x1000x2 .f32) (x2 : Vec F S1x3000x2 .f32) (xs0 : Vec F S1000x2 .f32) (xs1 : Vec F S3000x2 .f32) :
    Σ' (L3 : List (View.Piece (Elt F) S1x1000x2 .f32)), Σ' (L4 : List (View.Piece (Elt F) S1x3000x2 .f32)), Σ' (LS0 : List (View.Piece (Elt F) S1000x2 .f32)), { LS1 : List (View.Piece (Elt F) S3000x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, ?_, ?_, fun  E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]; · iexists _; iexact HS0
    iexact HS1

end Cert.Kernel.Frm

end
-- ==== Proof.K.Split.lean ====
/-
  How the buffers behind the five windows' arrays make the proof data's arrays at the region's entry.

  The windows' arrays are four distinct buffers: windows 1 and 2 both read the second operand. Each buffer is held
  whole at the full share at its entry contents. Windows 0, 3 and 4 take their buffer as it is (an input at the
  full share, the outputs at the full share by definition); the second operand's full share is split into its left
  and right halves, one for each of the two windows that read it, both at the same contents.
-/
import proofs.«125605_j47287589929003_2_alg».proof.Proof.Gen.Kernel.Launch

noncomputable section

namespace Cert.Kernel.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The four buffers behind the five windows' arrays, each whole at the full share at its entry contents, make
    the proof data's arrays at point 0, given that the data's entry arrays are those contents (`hA`), that window 0
    holds its array at the full share (`hq0`), and that windows 1 and 2, which read one array, hold it at the left
    and the right half of the full share (`hq1`, `hq2`). -/
theorem arrays_split0 {c : Dev nD} (Vc : (b : Ref sig .tc) → Buf (Elt F) ((c.tc : Thread nD τ).loc b))
    (dat : Pipeline.Dat τ (Elt F) Unit ℕ (UR sig nD τ) ℕ cfg0 c)
    (hA : ∀ w, dat.A w = Vc (Pipeline.arrRef spec0 w))
    (hq0 : dat.q 0 = fullShare) (hq1 : dat.q 1 = fullShare.left) (hq2 : dat.q 2 = fullShare.right) :
    (Pipeline.arrBufs (Ix := Unit) (Name := ℕ) (U := UR sig nD τ) (Lvl := ℕ) spec0 c Vc : sProp 𝕄)
      ⊢ dat.arrays (dat.arrAt · 0) := by
  classical
  -- every window's array is a whole buffer, at the entry contents
  have key : dat.arrays (dat.arrAt · 0)
      = bigSep Finset.univ fun w : Fin 5 =>
          (((c.tc : Thread nD τ).loc (Pipeline.arrRef spec0 w)) ↦{dat.share w} Vc (Pipeline.arrRef spec0 w) : sProp 𝕄) := by
    unfold Pipeline.Dat.arrays
    exact bigSep_congr fun w _ => by
      rw [(arr_whole0 w).set_eq_univ]
      exact congrArg (fun f => (((c.tc : Thread nD τ).loc (Pipeline.arrRef spec0 w)) ↦{dat.share w} f : sProp 𝕄)) (hA w)
  -- the shares: an input's own, an output's full
  have hs0 : dat.share 0 = fullShare := (show dat.share 0 = dat.q 0 from rfl).trans hq0
  have hs1 : dat.share 1 = fullShare.left := (show dat.share 1 = dat.q 1 from rfl).trans hq1
  have hs2 : dat.share 2 = fullShare.right := (show dat.share 2 = dat.q 2 from rfl).trans hq2
  have hs3 : dat.share 3 = fullShare := rfl
  have hs4 : dat.share 4 = fullShare := rfl
  rw [key, bigSep_W0, hs0, hs1, hs2, hs3, hs4]
  unfold Pipeline.arrBufs
  rw [bigSep_eq_bigSepL_of_eq [main_arg0, main_arg1, main_v0_0, main_v0_1] (by decide) (by decide)]
  show iprop((((c.tc : Thread nD τ).loc main_arg0) ↦{fullShare} Vc main_arg0)
        ∗ (((c.tc : Thread nD τ).loc main_arg1) ↦{fullShare} Vc main_arg1)
        ∗ (((c.tc : Thread nD τ).loc main_v0_0) ↦{fullShare} Vc main_v0_0)
        ∗ (((c.tc : Thread nD τ).loc main_v0_1) ↦{fullShare} Vc main_v0_1))
      ⊢ (iprop((((c.tc : Thread nD τ).loc main_arg0) ↦{fullShare} Vc main_arg0)
        ∗ (((c.tc : Thread nD τ).loc main_arg1) ↦{fullShare.left} Vc main_arg1)
        ∗ (((c.tc : Thread nD τ).loc main_arg1) ↦{fullShare.right} Vc main_arg1)
        ∗ (((c.tc : Thread nD τ).loc main_v0_0) ↦{fullShare} Vc main_v0_0)
        ∗ (((c.tc : Thread nD τ).loc main_v0_1) ↦{fullShare} Vc main_v0_1)) : sProp 𝕄)
  -- the second operand's full share, split between the two windows that read it
  have hsh : ((((c.tc : Thread nD τ).loc main_arg1) ↦{fullShare} Vc main_arg1) : sProp 𝕄)
      ⊢ iprop((((c.tc : Thread nD τ).loc main_arg1) ↦{fullShare.left} Vc main_arg1)
          ∗ (((c.tc : Thread nD τ).loc main_arg1) ↦{fullShare.right} Vc main_arg1)) :=
    (pointsTo_share (PosShare.mem_left_op_right fullShare)).1
  iintro ⟨H0, H1, H3, H4⟩
  ihave H1' := hsh $$ H1
  icases H1' with ⟨H1a, H1b⟩
  isplitl [H0]; · iexact H0
  isplitl [H1a]; · iexact H1a
  isplitl [H1b]; · iexact H1b
  isplitl [H3]; · iexact H3
  iexact H4

end Cert.Kernel.Frm

end
-- ==== Proof.LibSharedFrame.lean ====
import Idealize.ShloMosaic.Lib.Pipeline.Frame

/-!
  A frame run for a pipeline whose windows may SHARE an array.

  The library's frame runs take the windows' arrays pairwise distinct, and from that derive how the buffers
  behind the arrays make the proof data's arrays at the region's entry. When one array is handed to two input
  windows that derivation is not available, but the region launch underneath asks only for the split itself.
  The theorem here is the frame run with a tracking invariant stated over that split: every other
  ingredient (the generator register and the scoped rest routed into the class invariant at entry and out of
  it at exit, the bypassing buffers read back at the end) is as for distinct arrays.
-/

noncomputable section

namespace Cert.Lib.SharedFrame

open Idealize.ShloMosaic Idealize.ShloMosaic.Pipeline Idealize.ShloMosaic.Rounds
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run with a tracking invariant, for a pipeline whose windows may share arrays (`WinFacts₀`: the
    arrays need not be distinct). In place of "every window lends the full share and its entry contents are
    the array's", the caller says how the buffers behind the arrays, each whole at the entry contents `V c`,
    make the proof data's arrays at point 0 (`hsplit`). The proof data's invariant `Φ` is any the caller states
    point by point, entered from the class invariant `ΦA` before point 0 (`hin`) and returned to it after the
    last point (`hout`). Concludes `FramePost`: every window's array holds `arrAt w N`, every unscoped buffer
    that is no window's array what it held at the region's entry. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (Ix := Unit) (Name := ℕ) (U := UR sig nD τ) (Lvl := ℕ) (cfgs p).spec c (V c)
      ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end Cert.Lib.SharedFrame

end
-- ==== Proof.K.Frame.lean ====
/-
  The frame of the kernel: what the two outputs' staging buffers and the two scratches hold after each point (one
  step per point, over what the point before left), the proof data of the pipeline (the two input windows on the
  second cloud's array hold half of it each), the body's obligation case by case, and the run with every array
  named after it.
-/
import proofs.«125605_j47287589929003_2_alg».proof.Proof.K.RunE
import proofs.«125605_j47287589929003_2_alg».proof.Proof.K.Split
import proofs.«125605_j47287589929003_2_alg».proof.Proof.LibSharedFrame

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Frm
variable (m : (ℓ : Loc nD τ sig) → Buf (Elt F) ℓ) (ρ : Dev nD → PrngReg)

/-! ## Case A -/

theorem scover0_A_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) (y : S1000x2.Idx) :
    ∃ pc ∈ (kernelRun0_A c i arg3 harg3 arg4 harg4 arg5 harg5 arg6 harg6 arg7 harg7 arg8 harg8 arg9 harg9 hc0 hc1 hc2 hc3 x0 x1 x2).1, y ∈ pc.1.set :=
  View.cover_of_tiledL (kernelRun0_A c i arg3 harg3 arg4 harg4 arg5 harg5 arg6 harg6 arg7 harg7 arg8 harg8 arg9 harg9 hc0 hc1 hc2 hc3 x0 x1 x2).1 S1000x2.size (by sl_kernel_rfl) y

/-- What case A leaves in the row-sum scratch: its pieces read back. -/
def sout0_A_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) : Vec F S1000x2 .f32 :=
  VS0_0.read (Elt F) (VS0_0.writes (Elt F) VS0_0.junk (kernelRun0_A c i arg3 harg3 arg4 harg4 arg5 harg5 arg6 harg6 arg7 harg7 arg8 harg8 arg9 harg9 hc0 hc1 hc2 hc3 x0 x1 x2).1)

theorem scover0_A_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) (y : S3000x2.Idx) :
    ∃ pc ∈ (kernelRun0_A c i arg3 harg3 arg4 harg4 arg5 harg5 arg6 harg6 arg7 harg7 arg8 harg8 arg9 harg9 hc0 hc1 hc2 hc3 x0 x1 x2).2.1, y ∈ pc.1.set :=
  View.cover_of_tiledL (kernelRun0_A c i arg3 harg3 arg4 harg4 arg5 harg5 arg6 harg6 arg7 harg7 arg8 harg8 arg9 harg9 hc0 hc1 hc2 hc3 x0 x1 x2).2.1 S3000x2.size (by sl_kernel_rfl) y

/-- What case A leaves in the column-sum scratch: its pieces read back. -/
def sout0_A_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) : Vec F S3000x2 .f32 :=
  VS0_1.read (Elt F) (VS0_1.writes (Elt F) VS0_1.junk (kernelRun0_A c i arg3 harg3 arg4 harg4 arg5 harg5 arg6 harg6 arg7 harg7 arg8 harg8 arg9 harg9 hc0 hc1 hc2 hc3 x0 x1 x2).2.1)

/-! ## Case B -/

theorem scover0_B_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 : Vec F S1x1000x2 .f32) (x1 : Vec F S1x1000x2 .f32) (x2 : Vec F S1x3000x2 .f32) (xs1 : Vec F S3000x2 .f32) (y : S1000x2.Idx) :
    ∃ pc ∈ (kernelRun0_B c i arg3 harg3 arg4 harg4 arg5 harg5 arg6 harg6 arg7 harg7 arg8 harg8 arg9 harg9 hc0 hc1 hc2 hc3 x0 x1 x2 xs1).1, y ∈ pc.1.set :=
  View.cover_of_tiledL (kernelRun0_B c i arg3 harg3 arg4 harg4 arg5 harg5 arg6 harg6 arg7 harg7 arg8 harg8 arg9 harg9 hc0 hc1 hc2 hc3 x0 x1 x2 xs1).1 S1000x2.size (by sl_kernel_rfl) y

/-- What case B leaves in the row-sum scratch: its pieces read back. -/
def sout0_B_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 : Vec F S1x1000x2 .f32) (x1 : Vec F S1x1000x2 .f32) (x2 : Vec F S1x3000x2 .f32) (xs1 : Vec F S3000x2 .f32) : Vec F S1000x2 .f32 :=
  VS0_0.read (Elt F) (VS0_0.writes (Elt F) VS0_0.junk (kernelRun0_B c i arg3 harg3 arg4 harg4 arg5 harg5 arg6 harg6 arg7 harg7 arg8 harg8 arg9 harg9 hc0 hc1 hc2 hc3 x0 x1 x2 xs1).1)

/-- What case B leaves in the column-sum scratch: its pieces written over what the point before left. -/
def sout0_B_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 : Vec F S1x1000x2 .f32) (x1 : Vec F S1x1000x2 .f32) (x2 : Vec F S1x3000x2 .f32) (xs1 : Vec F S3000x2 .f32) : Vec F S3000x2 .f32 :=
  arg9.view.read (Elt F) (arg9.view.writes (Elt F) (harg9.unread xs1) (kernelRun0_B c i arg3 harg3 arg4 harg4 arg5 harg5 arg6 harg6 arg7 harg7 arg8 harg8 arg9 harg9 hc0 hc1 hc2 hc3 x0 x1 x2 xs1).2.1)

/-! ## Case C -/

theorem scover0_C_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) (y : S1000x2.Idx) :
    ∃ pc ∈ (kernelRun0_C c i arg3 harg3 arg4 harg4 arg5 harg5 arg6 harg6 arg7 harg7 arg8 harg8 arg9 harg9 hc0 hc1 hc2 hc3 x0 x1 x2 xs0 xs1).1, y ∈ pc.1.set :=
  View.cover_of_tiledL (kernelRun0_C c i arg3 harg3 arg4 harg4 arg5 harg5 arg6 harg6 arg7 harg7 arg8 harg8 arg9 harg9 hc0 hc1 hc2 hc3 x0 x1 x2 xs0 xs1).1 S1000x1.size (by sl_kernel_rfl) y

/-- What case C leaves in the row-sum scratch: its pieces read back. -/
def sout0_C_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S1000x2 .f32 :=
  VS0_0.read (Elt F) (VS0_0.writes (Elt F) VS0_0.junk (kernelRun0_C c i arg3 harg3 arg4 harg4 arg5 harg5 arg6 harg6 arg7 harg7 arg8 harg8 arg9 harg9 hc0 hc1 hc2 hc3 x0 x1 x2 xs0 xs1).1)

/-- What case C leaves in the column-sum scratch: its pieces written over what the point before left. -/
def sout0_C_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S3000x2 .f32 :=
  arg9.view.read (Elt F) (arg9.view.writes (Elt F) (harg9.unread xs1) (kernelRun0_C c i arg3 harg3 arg4 harg4 arg5 harg5 arg6 harg6 arg7 harg7 arg8 harg8 arg9 harg9 hc0 hc1 hc2 hc3 x0 x1 x2 xs0 xs1).2.1)

/-! ## Case D -/

theorem scover0_D_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) (y : S1000x2.Idx) :
    ∃ pc ∈ (kernelRun0_D c i arg3 harg3 arg4 harg4 arg5 harg5 arg6 harg6 arg7 harg7 arg8 harg8 arg9 harg9 hc0 hc1 hc2 hc3 x0 x1 x2 xs0 xs1).2.1, y ∈ pc.1.set :=
  View.cover_of_tiledL (kernelRun0_D c i arg3 harg3 arg4 harg4 arg5 harg5 arg6 harg6 arg7 harg7 arg8 harg8 arg9 harg9 hc0 hc1 hc2 hc3 x0 x1 x2 xs0 xs1).2.1 S1000x1.size (by sl_kernel_rfl) y

/-- What case D leaves in the row-sum scratch: its pieces read back. -/
def sout0_D_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S1000x2 .f32 :=
  VS0_0.read (Elt F) (VS0_0.writes (Elt F) VS0_0.junk (kernelRun0_D c i arg3 harg3 arg4 harg4 arg5 harg5 arg6 harg6 arg7 harg7 arg8 harg8 arg9 harg9 hc0 hc1 hc2 hc3 x0 x1 x2 xs0 xs1).2.1)

/-- What case D leaves in the column-sum scratch: its pieces written over what the point before left. -/
def sout0_D_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S3000x2 .f32 :=
  arg9.view.read (Elt F) (arg9.view.writes (Elt F) (harg9.unread xs1) (kernelRun0_D c i arg3 harg3 arg4 harg4 arg5 harg5 arg6 harg6 arg7 harg7 arg8 harg8 arg9 harg9 hc0 hc1 hc2 hc3 x0 x1 x2 xs0 xs1).2.2.1)

theorem cover0_D_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) (y : S1x1000x2.Idx) :
    ∃ pc ∈ (kernelRun0_D c i arg3 harg3 arg4 harg4 arg5 harg5 arg6 harg6 arg7 harg7 arg8 harg8 arg9 harg9 hc0 hc1 hc2 hc3 x0 x1 x2 xs0 xs1).1, y ∈ pc.1.set :=
  View.cover_of_tiledL (kernelRun0_D c i arg3 harg3 arg4 harg4 arg5 harg5 arg6 harg6 arg7 harg7 arg8 harg8 arg9 harg9 hc0 hc1 hc2 hc3 x0 x1 x2 xs0 xs1).1 S1x1000x2.size (by sl_kernel_rfl) y

/-- What case D leaves in the first output's staging buffer. -/
def out0_D_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S1x1000x2 .f32 :=
  VO0_3.read (Elt F) (VO0_3.writes (Elt F) VO0_3.junk (kernelRun0_D c i arg3 harg3 arg4 harg4 arg5 harg5 arg6 harg6 arg7 harg7 arg8 harg8 arg9 harg9 hc0 hc1 hc2 hc3 x0 x1 x2 xs0 xs1).1)

/-! ## Case E -/

theorem scover0_E_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) (y : S1000x2.Idx) :
    ∃ pc ∈ (kernelRun0_E c i arg3 harg3 arg4 harg4 arg5 harg5 arg6 harg6 arg7 harg7 arg8 harg8 arg9 harg9 hc0 hc1 hc2 hc3 x0 x1 x2 xs0 xs1).2.2.1, y ∈ pc.1.set :=
  View.cover_of_tiledL (kernelRun0_E c i arg3 harg3 arg4 harg4 arg5 harg5 arg6 harg6 arg7 harg7 arg8 harg8 arg9 harg9 hc0 hc1 hc2 hc3 x0 x1 x2 xs0 xs1).2.2.1 S1000x1.size (by sl_kernel_rfl) y

/-- What case E leaves in the row-sum scratch: its pieces read back. -/
def sout0_E_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S1000x2 .f32 :=
  VS0_0.read (Elt F) (VS0_0.writes (Elt F) VS0_0.junk (kernelRun0_E c i arg3 harg3 arg4 harg4 arg5 harg5 arg6 harg6 arg7 harg7 arg8 harg8 arg9 harg9 hc0 hc1 hc2 hc3 x0 x1 x2 xs0 xs1).2.2.1)

/-- What case E leaves in the column-sum scratch: its pieces written over what the point before left. -/
def sout0_E_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S3000x2 .f32 :=
  arg9.view.read (Elt F) (arg9.view.writes (Elt F) (harg9.unread xs1) (kernelRun0_E c i arg3 harg3 arg4 harg4 arg5 harg5 arg6 harg6 arg7 harg7 arg8 harg8 arg9 harg9 hc0 hc1 hc2 hc3 x0 x1 x2 xs0 xs1).2.2.2.1)

theorem cover0_E_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) (y : S1x1000x2.Idx) :
    ∃ pc ∈ (kernelRun0_E c i arg3 harg3 arg4 harg4 arg5 harg5 arg6 harg6 arg7 harg7 arg8 harg8 arg9 harg9 hc0 hc1 hc2 hc3 x0 x1 x2 xs0 xs1).1, y ∈ pc.1.set :=
  View.cover_of_tiledL (kernelRun0_E c i arg3 harg3 arg4 harg4 arg5 harg5 arg6 harg6 arg7 harg7 arg8 harg8 arg9 harg9 hc0 hc1 hc2 hc3 x0 x1 x2 xs0 xs1).1 S1x1000x2.size (by sl_kernel_rfl) y

/-- What case E leaves in the first output's staging buffer. -/
def out0_E_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S1x1000x2 .f32 :=
  VO0_3.read (Elt F) (VO0_3.writes (Elt F) VO0_3.junk (kernelRun0_E c i arg3 harg3 arg4 harg4 arg5 harg5 arg6 harg6 arg7 harg7 arg8 harg8 arg9 harg9 hc0 hc1 hc2 hc3 x0 x1 x2 xs0 xs1).1)

theorem cover0_E_4 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) (y : S1x3000x2.Idx) :
    ∃ pc ∈ (kernelRun0_E c i arg3 harg3 arg4 harg4 arg5 harg5 arg6 harg6 arg7 harg7 arg8 harg8 arg9 harg9 hc0 hc1 hc2 hc3 x0 x1 x2 xs0 xs1).2.1, y ∈ pc.1.set :=
  View.cover_of_tiledL (kernelRun0_E c i arg3 harg3 arg4 harg4 arg5 harg5 arg6 harg6 arg7 harg7 arg8 harg8 arg9 harg9 hc0 hc1 hc2 hc3 x0 x1 x2 xs0 xs1).2.1 S1x3000x2.size (by sl_kernel_rfl) y

/-- What case E leaves in the second output's staging buffer. -/
def out0_E_4 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S1x3000x2 .f32 :=
  VO0_4.read (Elt F) (VO0_4.writes (Elt F) VO0_4.junk (kernelRun0_E c i arg3 harg3 arg4 harg4 arg5 harg5 arg6 harg6 arg7 harg7 arg8 harg8 arg9 harg9 hc0 hc1 hc2 hc3 x0 x1 x2 xs0 xs1).2.1)

/-! ## One point's step -/

/-- What the body leaves at point `t` — the two outputs' staging buffers (junk where the window is idle, which nothing
    consults) and the two scratches — given what the point before left in the scratches: the case the point's number
    selects, run at the point's memrefs and input blocks. -/
def stepAt (c : Dev nD) (t : Fin cfg0.N) (xs0 : Vec F S1000x2 .f32) (xs1 : Vec F S3000x2 .f32) : Vec F S1x1000x2 .f32 × Vec F S1x3000x2 .f32 × Vec F S1000x2 .f32 × Vec F S3000x2 .f32 :=
  if hA : t.val % 9 = 0 then ((VO0_3.read (Elt F) VO0_3.junk), (VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t))
  else if hB : t.val % 3 = 0 then ((VO0_3.read (Elt F) VO0_3.junk), (VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1, sout0_B_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1)
  else if hC : t.val % 3 = 1 then ((VO0_3.read (Elt F) VO0_3.junk), (VO0_4.read (Elt F) VO0_4.junk), sout0_C_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1)
  else if hE : t.val % 9 = 8 then (out0_E_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, out0_E_4 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1)
  else (out0_D_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, (VO0_4.read (Elt F) VO0_4.junk), sout0_D_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, sout0_D_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1)

theorem stepAt_A (c : Dev nD) (t : Fin cfg0.N) (xs0 : Vec F S1000x2 .f32) (xs1 : Vec F S3000x2 .f32) (hA : t.val % 9 = 0) :
    stepAt m c t xs0 xs1 = ((VO0_3.read (Elt F) VO0_3.junk), (VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t)) := by
  unfold stepAt; rw [dif_pos hA]
theorem stepAt_B (c : Dev nD) (t : Fin cfg0.N) (xs0 : Vec F S1000x2 .f32) (xs1 : Vec F S3000x2 .f32) (hA : ¬t.val % 9 = 0) (hB : t.val % 3 = 0) :
    stepAt m c t xs0 xs1 = ((VO0_3.read (Elt F) VO0_3.junk), (VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1, sout0_B_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1) := by
  unfold stepAt; rw [dif_neg hA, dif_pos hB]
theorem stepAt_C (c : Dev nD) (t : Fin cfg0.N) (xs0 : Vec F S1000x2 .f32) (xs1 : Vec F S3000x2 .f32) (hA : ¬t.val % 9 = 0) (hB : ¬t.val % 3 = 0) (hC : t.val % 3 = 1) :
    stepAt m c t xs0 xs1 = ((VO0_3.read (Elt F) VO0_3.junk), (VO0_4.read (Elt F) VO0_4.junk), sout0_C_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1) := by
  unfold stepAt; rw [dif_neg hA, dif_neg hB, dif_pos hC]
theorem stepAt_E (c : Dev nD) (t : Fin cfg0.N) (xs0 : Vec F S1000x2 .f32) (xs1 : Vec F S3000x2 .f32) (hA : ¬t.val % 9 = 0) (hB : ¬t.val % 3 = 0) (hC : ¬t.val % 3 = 1) (hE : t.val % 9 = 8) :
    stepAt m c t xs0 xs1 = (out0_E_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, out0_E_4 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1) := by
  unfold stepAt; rw [dif_neg hA, dif_neg hB, dif_neg hC, dif_pos hE]
theorem stepAt_D (c : Dev nD) (t : Fin cfg0.N) (xs0 : Vec F S1000x2 .f32) (xs1 : Vec F S3000x2 .f32) (hA : ¬t.val % 9 = 0) (hB : ¬t.val % 3 = 0) (hC : ¬t.val % 3 = 1) (hE : ¬t.val % 9 = 8) :
    stepAt m c t xs0 xs1 = (out0_D_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, (VO0_4.read (Elt F) VO0_4.junk), sout0_D_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, sout0_D_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1) := by
  unfold stepAt; rw [dif_neg hA, dif_neg hB, dif_neg hC, dif_neg hE]

/-- What the outputs' staging buffers and the two scratches hold after the body at point `n`: the step at `n` over
    what point `n - 1` left in the scratches (at the first point, over anything: the step there zeroes both). -/
def outsAt0 (c : Dev nD) : (n : ℕ) → n < cfg0.N → Vec F S1x1000x2 .f32 × Vec F S1x3000x2 .f32 × Vec F S1000x2 .f32 × Vec F S3000x2 .f32
  | 0, hn => stepAt m c ⟨0, hn⟩ (VS0_0.read (Elt F) VS0_0.junk) (VS0_1.read (Elt F) VS0_1.junk)
  | n + 1, hn => stepAt m c ⟨n + 1, hn⟩ (outsAt0 c n (Nat.lt_of_succ_lt hn)).2.2.1 (outsAt0 c n (Nat.lt_of_succ_lt hn)).2.2.2

theorem outsAt0_succ (c : Dev nD) (n : ℕ) (hn : n + 1 < cfg0.N) :
    outsAt0 m c (n + 1) hn = stepAt m c ⟨n + 1, hn⟩ (outsAt0 m c n (Nat.lt_of_succ_lt hn)).2.2.1 (outsAt0 m c n (Nat.lt_of_succ_lt hn)).2.2.2 := rfl

/-- At a point that is not the first, `outsAt0` is the step over what the point before left. -/
theorem outsAt0_pos (c : Dev nD) (t : Fin cfg0.N) (hz : t.val ≠ 0) :
    outsAt0 m c t.val t.isLt = stepAt m c t (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact absurd rfl hz
  | succ n => rfl

theorem outsAt0_zero (c : Dev nD) (t : Fin cfg0.N) (hz : t.val = 0) :
    outsAt0 m c t.val t.isLt = stepAt m c t (VS0_0.read (Elt F) VS0_0.junk) (VS0_1.read (Elt F) VS0_1.junk) := by
  obtain ⟨n, hn⟩ := t
  cases n with
  | zero => rfl
  | succ n => exact absurd hz (Nat.succ_ne_zero n)

/-! ## The invariant and the proof data -/

/-- The region invariant before point `n`: before the first point the class's (both scratches at anything); afterwards
    both scratches at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-- The proof data: the arrays as the region finds them; after the body each input's buffer at its block, the outputs'
    at the step's; the invariant above; nothing owed; the first cloud's array held whole, the second cloud's array — read
    through two windows — half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a point of case A: the run applies; the invariant hands over the scratches and takes them back at this
    point's contents. -/
theorem sound_A (c : Dev nD) (t : Fin cfg0.N) (hA : t.val % 9 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases hz : t.val = 0
  · rw [Dat.leavesExact_idle (dats m 0 c) 3 t (idleAt0_3 t (by omega)) (noFlush0_3 t (by omega))]
    rw [Dat.leavesExact_idle (dats m 0 c) 4 t (idleAt0_4 t (by omega)) (noFlush0_4 t (by omega))]
    rw [outsAt0_zero m c t hz, stepAt_A m c t _ _ hA]
    unfold sout0_A_0 sout0_A_1; (try dsimp only)
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    iexists _; iexact H4
  · rw [Dat.leavesExact_idle (dats m 0 c) 3 t (idleAt0_3 t (by omega)) (noFlush0_3 t (by omega))]
    rw [Dat.leavesExact_idle (dats m 0 c) 4 t (idleAt0_4 t (by omega)) (noFlush0_4 t (by omega))]
    rw [outsAt0_pos m c t hz, stepAt_A m c t _ _ hA]
    unfold sout0_A_0 sout0_A_1; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t)).2.2 _ _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    iexists _; iexact H4

set_option maxHeartbeats 4800000 in
/-- The body at a point of case B: the run applies; the invariant hands over the scratches and takes them back at this
    point's contents. -/
theorem sound_B (c : Dev nD) (t : Fin cfg0.N) (hA : ¬t.val % 9 = 0) (hB : t.val % 3 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [Dat.leavesExact_idle (dats m 0 c) 3 t (idleAt0_3 t (by omega)) (noFlush0_3 t (by omega))]
  rw [Dat.leavesExact_idle (dats m 0 c) 4 t (idleAt0_4 t (by omega)) (noFlush0_4 t (by omega))]
  rw [outsAt0_pos m c t hz, stepAt_B m c t _ _ hA hB]
  unfold sout0_B_0 sout0_B_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_B c (grid0.coords t) _ _ _ _ _ _ _ _ _ _ _ _ _ _ (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) _).2.2 _ _ Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexact HS1
  iintro ⟨H0, H1, H2, H3, H4, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a point of case C: the run applies; the invariant hands over the scratches and takes them back at this
    point's contents. -/
theorem sound_C (c : Dev nD) (t : Fin cfg0.N) (hA : ¬t.val % 9 = 0) (hB : ¬t.val % 3 = 0) (hC : t.val % 3 = 1) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [Dat.leavesExact_idle (dats m 0 c) 3 t (idleAt0_3 t (by omega)) (noFlush0_3 t (by omega))]
  rw [Dat.leavesExact_idle (dats m 0 c) 4 t (idleAt0_4 t (by omega)) (noFlush0_4 t (by omega))]
  rw [outsAt0_pos m c t hz, stepAt_C m c t _ _ hA hB hC]
  unfold sout0_C_0 sout0_C_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_C c (grid0.coords t) _ _ _ _ _ _ _ _ _ _ _ _ _ _ (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) _ _).2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a point of case D: the run applies; the invariant hands over the scratches and takes them back at this
    point's contents. -/
theorem sound_D (c : Dev nD) (t : Fin cfg0.N) (hA : ¬t.val % 9 = 0) (hB : ¬t.val % 3 = 0) (hC : ¬t.val % 3 = 1) (hE : ¬t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [show (dats m 0 c).leavesExact 3 t = owns (c : Thread nD τ) (ms0_3 t) fullShare ((dats m 0 c).after 3 t) from by
        unfold Dat.leavesExact; rw [liveAt0_3 t (by omega)], after0_3]
  rw [Dat.leavesExact_idle (dats m 0 c) 4 t (idleAt0_4 t (by omega)) (noFlush0_4 t (by omega))]
  rw [outsAt0_pos m c t hz, stepAt_D m c t _ _ hA hB hC hE]
  unfold sout0_D_0 sout0_D_1 out0_D_3; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_D c (grid0.coords t) _ _ _ _ _ _ _ _ _ _ _ _ _ _ (fun h => hA ((hcond0_0 t).mp h)) (fun h => hB ((hcond0_1 t).mp h)) ((hcond0_2 t).mpr (by omega)) (fun h => hE ((hcond0_3 t).mp h)) (iblk m c 0 t) (iblk m c 1 t) (iblk m c 2 t) _ _).2.2.2 _ Set.univ _)
  isplitl [H0]; · iexact H0
  isplitl [H1]; · iexact H1
  isplitl [H2]; · iexact H2
  isplitl [H3]; · iexists _; iexact H3
  isplitl [H4]; · iexact H4
  isplitl [HS0]; · iexact HS0
  isplitl [HS1]; · iexact HS1
  iintro ⟨H0, H1, H2, ⟨%e3, H3⟩, H4, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_D_0 c _ _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_D_3 c _ _ _ _ _ _ _ _ _ _ _ _ _ _ _ _ _ _ _ _ _ _ _ _)
  iexists _; iexact H4

set_option maxHeartbeats 4800000 in
/-- The body at a point of case E: the run applies; the invariant hands over the scratches and takes them back at this
    point's contents. -/
theorem sound_E (c : Dev nD) (t : Fin cfg0.N) (hA : ¬t.val % 9 = 0) (hB : ¬t.val % 3 = 0) (hC : ¬t.val % 3 = 1) (hE : t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [show (dats m 0 c).leavesExact 3 t = owns (c : Thread nD τ) (ms0_3 t) fullShare ((dats m 0 c).after 3 t) from by
        unfold Dat.leavesExact; rw [liveAt0_3 t (by omega)], after0_3]
  rw [show (dats m 0 c).leavesExact 4 t = owns (c : Thread nD τ) (ms0_4 t) fullShare ((dats m 0 c).after 4 t) from by
        unfold Dat.leavesExact; rw [liveAt0_4 t (by omega)], after0_4]
  rw [outsAt0_pos m c t hz, stepAt_E m c t _ _ hA hB hC hE]
  unfold sout0_E_0 sout0_E_1 out0_E_3 out0_E_4; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_E c (grid0.coords t) _ _ _ _ _ _ _ _ _ _ _ _ _ _ (fun h => hA ((hcond0_0 t).mp h)) (fun h => hB ((hcond0_1 t).mp h)) ((hcond0_2 t).mpr (by omega)) ((hcond0_3 t).mpr hE) (iblk m c 0 t) (iblk m c 1 t) (iblk m c 2 t) _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_E_0 c _ _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_E_3 c _ _ _ _ _ _ _ _ _ _ _ _ _ _ _ _ _ _ _ _ _ _ _ _)
  unfold owns; iexists _; isplitr
  swap; · iexact H4
  ipureintro; exact View.read_writes_of_cover _ _ _ _ _ (cover0_E_4 c _ _ _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases hA : t.val % 9 = 0
  · exact sound_A m c t hA
  by_cases hB : t.val % 3 = 0
  · exact sound_B m c t hA hB
  by_cases hC : t.val % 3 = 1
  · exact sound_C m c t hA hB hC
  by_cases hE : t.val % 9 = 8
  · exact sound_E m c t hA hB hC hE
  · exact sound_D m c t hA hB hC hE

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 36 := N_0; omega)

/-! ## The run -/

/-- The program is the region and the return. -/
theorem main_eq (c : Dev nD) : main (F := F) c = (.op (.customCall (Pipeline.entry 0) ()) fun _ => .ret ⟨⟩) := rfl

set_option backward.isDefEq.respectTransparency.types false in
/-- Every weakly fair execution of the program terminates, and every final state has every array of the pipeline at
    what the proof data compute: the inputs unchanged, each output overwritten block by block by what the body left at
    each write-back. -/
theorem run_main : θ_run defs (onTc (τ := τ) (main (F := F))) (s₀ m ρ) (Pipeline.FramePost cfgs (dats m) 0 (V m)) :=
  Cert.Lib.SharedFrame.θ_run_frame_track_shared cfgs (dats m) (0 : Fin 1) cellOf_inj winFacts₀0 block_pos0 arr_whole0 stage_whole0
    defs₀ Variants.none m ρ main
    (fun c => (body_obligation m c).loose) (fun _ _ => rfl) (V m)
    (Pipeline.hmain_region cfgs 0 defs₀ Variants.none m main main_eq)
    (fun c => arrays_split0 (V m c) (dats m 0 c) (A_eq m c) rfl rfl rfl)
    (hin m) (hout m)

end Cert.Kernel.Frm

end
-- ==== Proof.K.FrameClaim.lean ====
/-
  The frame: the program runs to the end, faults nowhere, and both clouds end as they were — read off the run, whose
  post has every input window's array at its entry contents.
-/
import proofs.«125605_j47287589929003_2_alg».proof.Proof.K.Frame

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Frm
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans ((dats m 0 c).arrAt_in 0 rfl _), ((h c).1 1).trans ((dats m 0 c).arrAt_in 1 rfl _)⟩)
    (run_main m ρ)

end Cert.Kernel.Frm

end
-- ==== Proof.KI.Runs.lean ====
/-
  What the per-case runs of the kernel body share.  The grid is 4 x 3 x 3 (batch b, row tile na, column tile nb),
  a point t = 9 b + 3 na + nb.  The body zeroes the column-sum scratch when na = nb = 0, zeroes the row-sum scratch when
  nb = 0, always adds the tile's row sums and column sums of sin d and cos d into the two scratches, writes the first
  output's block when nb = 2 and the second output's block when na = nb = 2.  Here: the arrays as the region finds
  them, each window's block at a point, the four branch conditions in closed form over the point's number, where the
  two output windows are idle, and the names of the staging and scratch memrefs.
-/
import proofs.«125605_j47287589929003_2_alg».proof.Proof.Gen.KernelIdeal.Launch
import proofs.«125605_j47287589929003_2_alg».proof.Proof.Gen.KernelIdeal.Skeleton
import proofs.«125605_j47287589929003_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry and the windows' blocks -/

/-- The program is the region alone, so the region finds every buffer at its launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the index map has
    not moved since the last fetch), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's four branch conditions -/

/-- "na = 0 and nb = 0": the column-sum scratch is zeroed. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)
/-- "nb = 0": the row-sum scratch is zeroed. -/
abbrev cond0_1 (i : grid0.Coords) : Prop :=
  (Scalar.cmpi .ne (Scalar.extui (Scalar.cmpi .eq (BitVec.ofNat 32 (i 2).val) 0#32)) 0#32) = 1#1
theorem hcond0_1 : ∀ t : Fin cfg0.N, cond0_1 (grid0.coords t) ↔ t.val % 3 = 0 :=
  (by decide +kernel : ∀ t : Fin grid0.N, cond0_1 (grid0.coords t) ↔ t.val % 3 = 0)
/-- "nb = 2": the first output's block is written. -/
abbrev cond0_2 (i : grid0.Coords) : Prop := k0_cond3 i = 1#1
theorem hcond0_2 : ∀ t : Fin cfg0.N, cond0_2 (grid0.coords t) ↔ t.val % 3 = 2 :=
  (by decide +kernel : ∀ t : Fin grid0.N, cond0_2 (grid0.coords t) ↔ t.val % 3 = 2)
/-- "na = 2 and nb = 2": the second output's block is written. -/
abbrev cond0_3 (i : grid0.Coords) : Prop := k0_cond4 i = 1#1
theorem hcond0_3 : ∀ t : Fin cfg0.N, cond0_3 (grid0.coords t) ↔ t.val % 9 = 8 :=
  (by decide +kernel : ∀ t : Fin grid0.N, cond0_3 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from nb = 2 the first output is idle and is not written back. -/
theorem idleAt0_3 : ∀ t : Fin cfg0.N, ¬t.val % 3 = 2 → cfg0.idle 3 (grid0.coords t) = true := by decide +kernel
theorem noFlush0_3 : ∀ t : Fin cfg0.N, ¬t.val % 3 = 2 → (cfg0.win 3).flush t = false := by decide +kernel
theorem liveAt0_3 : ∀ t : Fin cfg0.N, t.val % 3 = 2 → cfg0.idle 3 (grid0.coords t) = false := by decide +kernel
/-- Away from na = nb = 2 the second output is idle and is not written back. -/
theorem idleAt0_4 : ∀ t : Fin cfg0.N, ¬t.val % 9 = 8 → cfg0.idle 4 (grid0.coords t) = true := by decide +kernel
theorem noFlush0_4 : ∀ t : Fin cfg0.N, ¬t.val % 9 = 8 → (cfg0.win 4).flush t = false := by decide +kernel
theorem liveAt0_4 : ∀ t : Fin cfg0.N, t.val % 9 = 8 → cfg0.idle 4 (grid0.coords t) = false := by decide +kernel

/-! ## The memrefs the body is called with -/

abbrev ms0_0 (t : Fin cfg0.N) : Memref sig .tc .vmem S1x1000x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1000x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3000x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1000x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3000x2 .f32 := win0_4.stage (cfg0.slots t 4)
abbrev hs0_4 (t : Fin cfg0.N) : (ms0_4 t).IsWhole := hstage0_4 ((cfg0.slots t 4).cast nbuf0_4)
/-- One staging buffer of each output window, through which its contents are stated. -/
abbrev VO0_3 : View sig .tc .vmem S1x1000x2 .f32 := (Memref.whole cc0_stg3_0 : Memref sig .tc .vmem S1x1000x2 .f32).view
abbrev VO0_4 : View sig .tc .vmem S1x3000x2 .f32 := (Memref.whole cc0_stg4_0 : Memref sig .tc .vmem S1x3000x2 .f32).view
/-- The row-sum scratch [1000, 2] and the column-sum scratch [3000, 2]. -/
abbrev scM0_0 : Memref sig .tc .vmem S1000x2 .f32 := Memref.whole cc0_scratch0
abbrev scM0_1 : Memref sig .tc .vmem S3000x2 .f32 := Memref.whole cc0_scratch1
abbrev hsc0_0 : (scM0_0).IsWhole := Memref.isWhole_whole _
abbrev hsc0_1 : (scM0_1).IsWhole := Memref.isWhole_whole _
abbrev VS0_0 : View sig .tc .vmem S1000x2 .f32 := scM0_0.view
abbrev VS0_1 : View sig .tc .vmem S3000x2 .f32 := scM0_1.view

/-- The class invariant with the two scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frm

end
-- ==== Proof.KI.RunA.lean ====
/-
  The body at a point with na = nb = 0: both scratches are zeroed, then the tile's row sums and column sums
  are added in; the two output windows are handed back untouched.  Both scratches end covered by their pieces.
-/
import proofs.«125605_j47287589929003_2_alg».proof.Proof.KI.Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frm
variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : cond0_0 i) (hc1 : cond0_1 i) (hc2 : ¬cond0_2 i) (hc3 : ¬cond0_3 i)
    (x0 : Vec F S1x1000x2 .f32) (x1 : Vec F S1x1000x2 .f32) (x2 : Vec F S1x3000x2 .f32) :
    Σ' (LS0 : List (View.Piece (Elt F) S1000x2 .f32)), { LS1 : List (View.Piece (Elt F) S3000x2 .f32) //
      ∀ (xi3 : Vec F S1x1000x2 .f32) (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, fun xi3 xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3
    obtain rfl := harg7.eq_unread hf4
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Frm

end
-- ==== Proof.KI.RunB.lean ====
/-
  The body at a point with nb = 0 and na > 0: the row-sum scratch is zeroed, the column-sum scratch is read and
  added to on the rows of the point's column tile; the two output windows are handed back untouched.
-/
import proofs.«125605_j47287589929003_2_alg».proof.Proof.KI.RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frm
variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : cond0_1 i) (hc2 : ¬cond0_2 i) (hc3 : ¬cond0_3 i)
    (x0 : Vec F S1x1000x2 .f32) (x1 : Vec F S1x1000x2 .f32) (x2 : Vec F S1x3000x2 .f32) (xs1 : Vec F S3000x2 .f32) :
    Σ' (LS0 : List (View.Piece (Elt F) S1000x2 .f32)), { LS1 : List (View.Piece (Elt F) S3000x2 .f32) //
      ∀ (xi3 : Vec F S1x1000x2 .f32) (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ d, owns (c : Thread nD τ) arg8 fullShare d) ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, fun xi3 xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg3.eq_unread hf0; obtain rfl := harg4.eq_unread hf1; obtain rfl := harg5.eq_unread hf2
    obtain rfl := harg6.eq_unread hf3
    obtain rfl := harg7.eq_unread hf4
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexact HS1

end Cert.KernelIdeal.Frm

end
-- ==== Proof.KI.RunC.lean ====
/-
  The body at a point with nb = 1: no branch is taken.  Both scratches are read and added to; the row-sum scratch
  is rewritten column by column, the column-sum scratch only on the rows of the point's column tile; the two output
  windows are handed back untouched.
-/
import proofs.«125605_j47287589929003_2_alg».proof.Proof.KI.RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frm
variable (m : (ℓ : Loc nD τ sig) → Buf (Elt F) ℓ) (ρ : Dev nD → PrngReg)

set_option maxHeartbeats 4000000 in
noncomputable def kernelRun0_C (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : ¬cond0_1 i) (hc2 : ¬cond0_2 i) (hc3 : ¬cond0_3 i)
    (x0 : Vec F S1x1000x2 .f32) (x1 : Vec F S1x1000x2 .f32) (x2 : Vec F S1x3000x2 .f32) (xs0 : Vec F S1000x2 .f32) (xs1 : Vec F S3000x2 .f32) :
    Σ' (LS0 : List (View.Piece (Elt F) S1000x2 .f32)), { LS1 : List (View.Piece (Elt F) S3000x2 .f32) //
      ∀ (xi3 : Vec F S1x1000x2 .f32) (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, fun xi3 xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3
    obtain rfl := harg7.eq_unread hf4
    obtain rfl := harg8.eq_unread hfs0
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexact HS1

end Cert.KernelIdeal.Frm

end
-- ==== Proof.KI.RunD.lean ====
/-
  The body at a point with nb = 2 and na < 2: both scratches are read and added to, and the first output's block
  is written as the first cloud's block times the row-sum scratch; the second output window is handed back untouched.
-/
import proofs.«125605_j47287589929003_2_alg».proof.Proof.KI.RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frm
variable (m : (ℓ : Loc nD τ sig) → Buf (Elt F) ℓ) (ρ : Dev nD → PrngReg)

set_option maxHeartbeats 4000000 in
noncomputable def kernelRun0_D (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : ¬cond0_1 i) (hc2 : cond0_2 i) (hc3 : ¬cond0_3 i)
    (x0 : Vec F S1x1000x2 .f32) (x1 : Vec F S1x1000x2 .f32) (x2 : Vec F S1x3000x2 .f32) (xs0 : Vec F S1000x2 .f32) (xs1 : Vec F S3000x2 .f32) :
    Σ' (L3 : List (View.Piece (Elt F) S1x1000x2 .f32)), Σ' (LS0 : List (View.Piece (Elt F) S1000x2 .f32)), { LS1 : List (View.Piece (Elt F) S3000x2 .f32) //
      ∀ (xi4 : Vec F S1x3000x2 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, ?_, fun xi4 E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hf4
    obtain rfl := harg8.eq_unread hfs0
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    isplitl [HS0]; · iexists _; iexact HS0
    iexact HS1

end Cert.KernelIdeal.Frm

end
-- ==== Proof.KI.RunE.lean ====
/-
  The body at a point with na = nb = 2: both scratches are read and added to, the first output's block is written as
  the first cloud's block times the row-sum scratch, and the second output's block as the second cloud's whole batch
  times the column-sum scratch.
-/
import proofs.«125605_j47287589929003_2_alg».proof.Proof.KI.RunD

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frm
variable (m : (ℓ : Loc nD τ sig) → Buf (Elt F) ℓ) (ρ : Dev nD → PrngReg)

set_option maxHeartbeats 4000000 in
noncomputable def kernelRun0_E (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole)
    (hc0 : ¬cond0_0 i) (hc1 : ¬cond0_1 i) (hc2 : cond0_2 i) (hc3 : cond0_3 i)
    (x0 : Vec F S1x1000x2 .f32) (x1 : Vec F S1x1000x2 .f32) (x2 : Vec F S1x3000x2 .f32) (xs0 : Vec F S1000x2 .f32) (xs1 : Vec F S3000x2 .f32) :
    Σ' (L3 : List (View.Piece (Elt F) S1x1000x2 .f32)), Σ' (L4 : List (View.Piece (Elt F) S1x3000x2 .f32)), Σ' (LS0 : List (View.Piece (Elt F) S1000x2 .f32)), { LS1 : List (View.Piece (Elt F) S3000x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__geo_embed_fused_kernel i arg3 harg3 arg4 harg4 arg5 harg5 arg6 harg6 arg7 harg7 arg8 harg8 arg9 harg9) K } := by
  refine ⟨?_, ?_, ?_, ?_, fun  E K => ?run⟩
  case run =>
    simp only [cc0__geo_embed_fused_kernel_eq_skeleton]; unfold cc0__geo_embed_fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0
    obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]; · iexists _; iexact HS0
    iexact HS1

end Cert.KernelIdeal.Frm

end
-- ==== Proof.KI.Split.lean ====
/-
  How the buffers behind the five windows' arrays make the proof data's arrays at the region's entry.

  The windows' arrays are four distinct buffers: windows 1 and 2 both read the second operand. Each buffer is held
  whole at the full share at its entry contents. Windows 0, 3 and 4 take their buffer as it is (an input at the
  full share, the outputs at the full share by definition); the second operand's full share is split into its left
  and right halves, one for each of the two windows that read it, both at the same contents.
-/
import proofs.«125605_j47287589929003_2_alg».proof.Proof.Gen.KernelIdeal.Launch

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The four buffers behind the five windows' arrays, each whole at the full share at its entry contents, make
    the proof data's arrays at point 0, given that the data's entry arrays are those contents (`hA`), that window 0
    holds its array at the full share (`hq0`), and that windows 1 and 2, which read one array, hold it at the left
    and the right half of the full share (`hq1`, `hq2`). -/
theorem arrays_split0 {c : Dev nD} (Vc : (b : Ref sig .tc) → Buf (Elt F) ((c.tc : Thread nD τ).loc b))
    (dat : Pipeline.Dat τ (Elt F) Unit ℕ (UR sig nD τ) ℕ cfg0 c)
    (hA : ∀ w, dat.A w = Vc (Pipeline.arrRef spec0 w))
    (hq0 : dat.q 0 = fullShare) (hq1 : dat.q 1 = fullShare.left) (hq2 : dat.q 2 = fullShare.right) :
    (Pipeline.arrBufs (Ix := Unit) (Name := ℕ) (U := UR sig nD τ) (Lvl := ℕ) spec0 c Vc : sProp 𝕄)
      ⊢ dat.arrays (dat.arrAt · 0) := by
  classical
  -- every window's array is a whole buffer, at the entry contents
  have key : dat.arrays (dat.arrAt · 0)
      = bigSep Finset.univ fun w : Fin 5 =>
          (((c.tc : Thread nD τ).loc (Pipeline.arrRef spec0 w)) ↦{dat.share w} Vc (Pipeline.arrRef spec0 w) : sProp 𝕄) := by
    unfold Pipeline.Dat.arrays
    exact bigSep_congr fun w _ => by
      rw [(arr_whole0 w).set_eq_univ]
      exact congrArg (fun f => (((c.tc : Thread nD τ).loc (Pipeline.arrRef spec0 w)) ↦{dat.share w} f : sProp 𝕄)) (hA w)
  -- the shares: an input's own, an output's full
  have hs0 : dat.share 0 = fullShare := (show dat.share 0 = dat.q 0 from rfl).trans hq0
  have hs1 : dat.share 1 = fullShare.left := (show dat.share 1 = dat.q 1 from rfl).trans hq1
  have hs2 : dat.share 2 = fullShare.right := (show dat.share 2 = dat.q 2 from rfl).trans hq2
  have hs3 : dat.share 3 = fullShare := rfl
  have hs4 : dat.share 4 = fullShare := rfl
  rw [key, bigSep_W0, hs0, hs1, hs2, hs3, hs4]
  unfold Pipeline.arrBufs
  rw [bigSep_eq_bigSepL_of_eq [main_arg0, main_arg1, main_v0_0, main_v0_1] (by decide) (by decide)]
  show iprop((((c.tc : Thread nD τ).loc main_arg0) ↦{fullShare} Vc main_arg0)
        ∗ (((c.tc : Thread nD τ).loc main_arg1) ↦{fullShare} Vc main_arg1)
        ∗ (((c.tc : Thread nD τ).loc main_v0_0) ↦{fullShare} Vc main_v0_0)
        ∗ (((c.tc : Thread nD τ).loc main_v0_1) ↦{fullShare} Vc main_v0_1))
      ⊢ (iprop((((c.tc : Thread nD τ).loc main_arg0) ↦{fullShare} Vc main_arg0)
        ∗ (((c.tc : Thread nD τ).loc main_arg1) ↦{fullShare.left} Vc main_arg1)
        ∗ (((c.tc : Thread nD τ).loc main_arg1) ↦{fullShare.right} Vc main_arg1)
        ∗ (((c.tc : Thread nD τ).loc main_v0_0) ↦{fullShare} Vc main_v0_0)
        ∗ (((c.tc : Thread nD τ).loc main_v0_1) ↦{fullShare} Vc main_v0_1)) : sProp 𝕄)
  -- the second operand's full share, split between the two windows that read it
  have hsh : ((((c.tc : Thread nD τ).loc main_arg1) ↦{fullShare} Vc main_arg1) : sProp 𝕄)
      ⊢ iprop((((c.tc : Thread nD τ).loc main_arg1) ↦{fullShare.left} Vc main_arg1)
          ∗ (((c.tc : Thread nD τ).loc main_arg1) ↦{fullShare.right} Vc main_arg1)) :=
    (pointsTo_share (PosShare.mem_left_op_right fullShare)).1
  iintro ⟨H0, H1, H3, H4⟩
  ihave H1' := hsh $$ H1
  icases H1' with ⟨H1a, H1b⟩
  isplitl [H0]; · iexact H0
  isplitl [H1a]; · iexact H1a
  isplitl [H1b]; · iexact H1b
  isplitl [H3]; · iexact H3
  iexact H4

end Cert.KernelIdeal.Frm

end
-- ==== Proof.KI.Frame.lean ====
/-
  The frame of the kernel: what the two outputs' staging buffers and the two scratches hold after each point (one
  step per point, over what the point before left), the proof data of the pipeline (the two input windows on the
  second cloud's array hold half of it each), the body's obligation case by case, and the run with every array
  named after it.
-/
import proofs.«125605_j47287589929003_2_alg».proof.Proof.KI.RunE
import proofs.«125605_j47287589929003_2_alg».proof.Proof.KI.Split
import proofs.«125605_j47287589929003_2_alg».proof.Proof.LibSharedFrame

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frm
variable (m : (ℓ : Loc nD τ sig) → Buf (Elt F) ℓ) (ρ : Dev nD → PrngReg)

/-! ## Case A -/

theorem scover0_A_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) (y : S1000x2.Idx) :
    ∃ pc ∈ (kernelRun0_A c i arg3 harg3 arg4 harg4 arg5 harg5 arg6 harg6 arg7 harg7 arg8 harg8 arg9 harg9 hc0 hc1 hc2 hc3 x0 x1 x2).1, y ∈ pc.1.set :=
  View.cover_of_tiledL (kernelRun0_A c i arg3 harg3 arg4 harg4 arg5 harg5 arg6 harg6 arg7 harg7 arg8 harg8 arg9 harg9 hc0 hc1 hc2 hc3 x0 x1 x2).1 S1000x2.size (by sl_kernel_rfl) y

/-- What case A leaves in the row-sum scratch: its pieces read back. -/
def sout0_A_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) : Vec F S1000x2 .f32 :=
  VS0_0.read (Elt F) (VS0_0.writes (Elt F) VS0_0.junk (kernelRun0_A c i arg3 harg3 arg4 harg4 arg5 harg5 arg6 harg6 arg7 harg7 arg8 harg8 arg9 harg9 hc0 hc1 hc2 hc3 x0 x1 x2).1)

theorem scover0_A_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) (y : S3000x2.Idx) :
    ∃ pc ∈ (kernelRun0_A c i arg3 harg3 arg4 harg4 arg5 harg5 arg6 harg6 arg7 harg7 arg8 harg8 arg9 harg9 hc0 hc1 hc2 hc3 x0 x1 x2).2.1, y ∈ pc.1.set :=
  View.cover_of_tiledL (kernelRun0_A c i arg3 harg3 arg4 harg4 arg5 harg5 arg6 harg6 arg7 harg7 arg8 harg8 arg9 harg9 hc0 hc1 hc2 hc3 x0 x1 x2).2.1 S3000x2.size (by sl_kernel_rfl) y

/-- What case A leaves in the column-sum scratch: its pieces read back. -/
def sout0_A_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec F S1x1000x2 .f32) (x1 : Vec F S1x1000x2 .f32) (x2 : Vec F S1x3000x2 .f32) : Vec F S3000x2 .f32 :=
  VS0_1.read (Elt F) (VS0_1.writes (Elt F) VS0_1.junk (kernelRun0_A c i arg3 harg3 arg4 harg4 arg5 harg5 arg6 harg6 arg7 harg7 arg8 harg8 arg9 harg9 hc0 hc1 hc2 hc3 x0 x1 x2).2.1)

/-! ## Case B -/

theorem scover0_B_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 : Vec F S1x1000x2 .f32) (x1 : Vec F S1x1000x2 .f32) (x2 : Vec F S1x3000x2 .f32) (xs1 : Vec F S3000x2 .f32) (y : S1000x2.Idx) :
    ∃ pc ∈ (kernelRun0_B c i arg3 harg3 arg4 harg4 arg5 harg5 arg6 harg6 arg7 harg7 arg8 harg8 arg9 harg9 hc0 hc1 hc2 hc3 x0 x1 x2 xs1).1, y ∈ pc.1.set :=
  View.cover_of_tiledL (kernelRun0_B c i arg3 harg3 arg4 harg4 arg5 harg5 arg6 harg6 arg7 harg7 arg8 harg8 arg9 harg9 hc0 hc1 hc2 hc3 x0 x1 x2 xs1).1 S1000x2.size (by sl_kernel_rfl) y

/-- What case B leaves in the row-sum scratch: its pieces read back. -/
def sout0_B_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 : Vec F S1x1000x2 .f32) (x1 : Vec F S1x1000x2 .f32) (x2 : Vec F S1x3000x2 .f32) (xs1 : Vec F S3000x2 .f32) : Vec F S1000x2 .f32 :=
  VS0_0.read (Elt F) (VS0_0.writes (Elt F) VS0_0.junk (kernelRun0_B c i arg3 harg3 arg4 harg4 arg5 harg5 arg6 harg6 arg7 harg7 arg8 harg8 arg9 harg9 hc0 hc1 hc2 hc3 x0 x1 x2 xs1).1)

/-- What case B leaves in the column-sum scratch: its pieces written over what the point before left. -/
def sout0_B_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 : Vec F S1x1000x2 .f32) (x1 : Vec F S1x1000x2 .f32) (x2 : Vec F S1x3000x2 .f32) (xs1 : Vec F S3000x2 .f32) : Vec F S3000x2 .f32 :=
  arg9.view.read (Elt F) (arg9.view.writes (Elt F) (harg9.unread xs1) (kernelRun0_B c i arg3 harg3 arg4 harg4 arg5 harg5 arg6 harg6 arg7 harg7 arg8 harg8 arg9 harg9 hc0 hc1 hc2 hc3 x0 x1 x2 xs1).2.1)

/-! ## Case C -/

theorem scover0_C_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) (y : S1000x2.Idx) :
    ∃ pc ∈ (kernelRun0_C c i arg3 harg3 arg4 harg4 arg5 harg5 arg6 harg6 arg7 harg7 arg8 harg8 arg9 harg9 hc0 hc1 hc2 hc3 x0 x1 x2 xs0 xs1).1, y ∈ pc.1.set :=
  View.cover_of_tiledL (kernelRun0_C c i arg3 harg3 arg4 harg4 arg5 harg5 arg6 harg6 arg7 harg7 arg8 harg8 arg9 harg9 hc0 hc1 hc2 hc3 x0 x1 x2 xs0 xs1).1 S1000x1.size (by sl_kernel_rfl) y

/-- What case C leaves in the row-sum scratch: its pieces read back. -/
def sout0_C_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S1000x2 .f32 :=
  VS0_0.read (Elt F) (VS0_0.writes (Elt F) VS0_0.junk (kernelRun0_C c i arg3 harg3 arg4 harg4 arg5 harg5 arg6 harg6 arg7 harg7 arg8 harg8 arg9 harg9 hc0 hc1 hc2 hc3 x0 x1 x2 xs0 xs1).1)

/-- What case C leaves in the column-sum scratch: its pieces written over what the point before left. -/
def sout0_C_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S3000x2 .f32 :=
  arg9.view.read (Elt F) (arg9.view.writes (Elt F) (harg9.unread xs1) (kernelRun0_C c i arg3 harg3 arg4 harg4 arg5 harg5 arg6 harg6 arg7 harg7 arg8 harg8 arg9 harg9 hc0 hc1 hc2 hc3 x0 x1 x2 xs0 xs1).2.1)

/-! ## Case D -/

theorem scover0_D_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) (y : S1000x2.Idx) :
    ∃ pc ∈ (kernelRun0_D c i arg3 harg3 arg4 harg4 arg5 harg5 arg6 harg6 arg7 harg7 arg8 harg8 arg9 harg9 hc0 hc1 hc2 hc3 x0 x1 x2 xs0 xs1).2.1, y ∈ pc.1.set :=
  View.cover_of_tiledL (kernelRun0_D c i arg3 harg3 arg4 harg4 arg5 harg5 arg6 harg6 arg7 harg7 arg8 harg8 arg9 harg9 hc0 hc1 hc2 hc3 x0 x1 x2 xs0 xs1).2.1 S1000x1.size (by sl_kernel_rfl) y

/-- What case D leaves in the row-sum scratch: its pieces read back. -/
def sout0_D_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S1000x2 .f32 :=
  VS0_0.read (Elt F) (VS0_0.writes (Elt F) VS0_0.junk (kernelRun0_D c i arg3 harg3 arg4 harg4 arg5 harg5 arg6 harg6 arg7 harg7 arg8 harg8 arg9 harg9 hc0 hc1 hc2 hc3 x0 x1 x2 xs0 xs1).2.1)

/-- What case D leaves in the column-sum scratch: its pieces written over what the point before left. -/
def sout0_D_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S3000x2 .f32 :=
  arg9.view.read (Elt F) (arg9.view.writes (Elt F) (harg9.unread xs1) (kernelRun0_D c i arg3 harg3 arg4 harg4 arg5 harg5 arg6 harg6 arg7 harg7 arg8 harg8 arg9 harg9 hc0 hc1 hc2 hc3 x0 x1 x2 xs0 xs1).2.2.1)

theorem cover0_D_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) (y : S1x1000x2.Idx) :
    ∃ pc ∈ (kernelRun0_D c i arg3 harg3 arg4 harg4 arg5 harg5 arg6 harg6 arg7 harg7 arg8 harg8 arg9 harg9 hc0 hc1 hc2 hc3 x0 x1 x2 xs0 xs1).1, y ∈ pc.1.set :=
  View.cover_of_tiledL (kernelRun0_D c i arg3 harg3 arg4 harg4 arg5 harg5 arg6 harg6 arg7 harg7 arg8 harg8 arg9 harg9 hc0 hc1 hc2 hc3 x0 x1 x2 xs0 xs1).1 S1x1000x2.size (by sl_kernel_rfl) y

/-- What case D leaves in the first output's staging buffer. -/
def out0_D_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec F S1x1000x2 .f32) (x1 : Vec F S1x1000x2 .f32) (x2 : Vec F S1x3000x2 .f32) (xs0 : Vec F S1000x2 .f32) (xs1 : Vec F S3000x2 .f32) : Vec F S1x1000x2 .f32 :=
  VO0_3.read (Elt F) (VO0_3.writes (Elt F) VO0_3.junk (kernelRun0_D c i arg3 harg3 arg4 harg4 arg5 harg5 arg6 harg6 arg7 harg7 arg8 harg8 arg9 harg9 hc0 hc1 hc2 hc3 x0 x1 x2 xs0 xs1).1)

/-! ## Case E -/

theorem scover0_E_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) (y : S1000x2.Idx) :
    ∃ pc ∈ (kernelRun0_E c i arg3 harg3 arg4 harg4 arg5 harg5 arg6 harg6 arg7 harg7 arg8 harg8 arg9 harg9 hc0 hc1 hc2 hc3 x0 x1 x2 xs0 xs1).2.2.1, y ∈ pc.1.set :=
  View.cover_of_tiledL (kernelRun0_E c i arg3 harg3 arg4 harg4 arg5 harg5 arg6 harg6 arg7 harg7 arg8 harg8 arg9 harg9 hc0 hc1 hc2 hc3 x0 x1 x2 xs0 xs1).2.2.1 S1000x1.size (by sl_kernel_rfl) y

/-- What case E leaves in the row-sum scratch: its pieces read back. -/
def sout0_E_0 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S1000x2 .f32 :=
  VS0_0.read (Elt F) (VS0_0.writes (Elt F) VS0_0.junk (kernelRun0_E c i arg3 harg3 arg4 harg4 arg5 harg5 arg6 harg6 arg7 harg7 arg8 harg8 arg9 harg9 hc0 hc1 hc2 hc3 x0 x1 x2 xs0 xs1).2.2.1)

/-- What case E leaves in the column-sum scratch: its pieces written over what the point before left. -/
def sout0_E_1 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S3000x2 .f32 :=
  arg9.view.read (Elt F) (arg9.view.writes (Elt F) (harg9.unread xs1) (kernelRun0_E c i arg3 harg3 arg4 harg4 arg5 harg5 arg6 harg6 arg7 harg7 arg8 harg8 arg9 harg9 hc0 hc1 hc2 hc3 x0 x1 x2 xs0 xs1).2.2.2.1)

theorem cover0_E_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) (y : S1x1000x2.Idx) :
    ∃ pc ∈ (kernelRun0_E c i arg3 harg3 arg4 harg4 arg5 harg5 arg6 harg6 arg7 harg7 arg8 harg8 arg9 harg9 hc0 hc1 hc2 hc3 x0 x1 x2 xs0 xs1).1, y ∈ pc.1.set :=
  View.cover_of_tiledL (kernelRun0_E c i arg3 harg3 arg4 harg4 arg5 harg5 arg6 harg6 arg7 harg7 arg8 harg8 arg9 harg9 hc0 hc1 hc2 hc3 x0 x1 x2 xs0 xs1).1 S1x1000x2.size (by sl_kernel_rfl) y

/-- What case E leaves in the first output's staging buffer. -/
def out0_E_3 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S1x1000x2 .f32 :=
  VO0_3.read (Elt F) (VO0_3.writes (Elt F) VO0_3.junk (kernelRun0_E c i arg3 harg3 arg4 harg4 arg5 harg5 arg6 harg6 arg7 harg7 arg8 harg8 arg9 harg9 hc0 hc1 hc2 hc3 x0 x1 x2 xs0 xs1).1)

theorem cover0_E_4 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) (y : S1x3000x2.Idx) :
    ∃ pc ∈ (kernelRun0_E c i arg3 harg3 arg4 harg4 arg5 harg5 arg6 harg6 arg7 harg7 arg8 harg8 arg9 harg9 hc0 hc1 hc2 hc3 x0 x1 x2 xs0 xs1).2.1, y ∈ pc.1.set :=
  View.cover_of_tiledL (kernelRun0_E c i arg3 harg3 arg4 harg4 arg5 harg5 arg6 harg6 arg7 harg7 arg8 harg8 arg9 harg9 hc0 hc1 hc2 hc3 x0 x1 x2 xs0 xs1).2.1 S1x3000x2.size (by sl_kernel_rfl) y

/-- What case E leaves in the second output's staging buffer. -/
def out0_E_4 (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec F S1x1000x2 .f32) (x1 : Vec F S1x1000x2 .f32) (x2 : Vec F S1x3000x2 .f32) (xs0 : Vec F S1000x2 .f32) (xs1 : Vec F S3000x2 .f32) : Vec F S1x3000x2 .f32 :=
  VO0_4.read (Elt F) (VO0_4.writes (Elt F) VO0_4.junk (kernelRun0_E c i arg3 harg3 arg4 harg4 arg5 harg5 arg6 harg6 arg7 harg7 arg8 harg8 arg9 harg9 hc0 hc1 hc2 hc3 x0 x1 x2 xs0 xs1).2.1)

/-! ## One point's step -/

/-- What the body leaves at point `t` — the two outputs' staging buffers (junk where the window is idle, which nothing
    consults) and the two scratches — given what the point before left in the scratches: the case the point's number
    selects, run at the point's memrefs and input blocks. -/
def stepAt (c : Dev nD) (t : Fin cfg0.N) (xs0 : Vec F S1000x2 .f32) (xs1 : Vec F S3000x2 .f32) : Vec F S1x1000x2 .f32 × Vec F S1x3000x2 .f32 × Vec F S1000x2 .f32 × Vec F S3000x2 .f32 :=
  if hA : t.val % 9 = 0 then ((VO0_3.read (Elt F) VO0_3.junk), (VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t))
  else if hB : t.val % 3 = 0 then ((VO0_3.read (Elt F) VO0_3.junk), (VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1, sout0_B_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1)
  else if hC : t.val % 3 = 1 then ((VO0_3.read (Elt F) VO0_3.junk), (VO0_4.read (Elt F) VO0_4.junk), sout0_C_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1)
  else if hE : t.val % 9 = 8 then (out0_E_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, out0_E_4 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1)
  else (out0_D_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, (VO0_4.read (Elt F) VO0_4.junk), sout0_D_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, sout0_D_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1)

theorem stepAt_A (c : Dev nD) (t : Fin cfg0.N) (xs0 : Vec F S1000x2 .f32) (xs1 : Vec F S3000x2 .f32) (hA : t.val % 9 = 0) :
    stepAt m c t xs0 xs1 = ((VO0_3.read (Elt F) VO0_3.junk), (VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t)) := by
  unfold stepAt; rw [dif_pos hA]
theorem stepAt_B (c : Dev nD) (t : Fin cfg0.N) (xs0 : Vec F S1000x2 .f32) (xs1 : Vec F S3000x2 .f32) (hA : ¬t.val % 9 = 0) (hB : t.val % 3 = 0) :
    stepAt m c t xs0 xs1 = ((VO0_3.read (Elt F) VO0_3.junk), (VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1, sout0_B_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) xs1) := by
  unfold stepAt; rw [dif_neg hA, dif_pos hB]
theorem stepAt_C (c : Dev nD) (t : Fin cfg0.N) (xs0 : Vec F S1000x2 .f32) (xs1 : Vec F S3000x2 .f32) (hA : ¬t.val % 9 = 0) (hB : ¬t.val % 3 = 0) (hC : t.val % 3 = 1) :
    stepAt m c t xs0 xs1 = ((VO0_3.read (Elt F) VO0_3.junk), (VO0_4.read (Elt F) VO0_4.junk), sout0_C_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) xs0 xs1) := by
  unfold stepAt; rw [dif_neg hA, dif_neg hB, dif_pos hC]
theorem stepAt_E (c : Dev nD) (t : Fin cfg0.N) (xs0 : Vec F S1000x2 .f32) (xs1 : Vec F S3000x2 .f32) (hA : ¬t.val % 9 = 0) (hB : ¬t.val % 3 = 0) (hC : ¬t.val % 3 = 1) (hE : t.val % 9 = 8) :
    stepAt m c t xs0 xs1 = (out0_E_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, out0_E_4 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1, sout0_E_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) ((hcond0_3 t).mpr hE) (iblk m c 0 t) (iblk m c 1 t) (iblk m c 2 t) xs0 xs1) := by
  unfold stepAt; rw [dif_neg hA, dif_neg hB, dif_neg hC, dif_pos hE]
theorem stepAt_D (c : Dev nD) (t : Fin cfg0.N) (xs0 : Vec F S1000x2 .f32) (xs1 : Vec F S3000x2 .f32) (hA : ¬t.val % 9 = 0) (hB : ¬t.val % 3 = 0) (hC : ¬t.val % 3 = 1) (hE : ¬t.val % 9 = 8) :
    stepAt m c t xs0 xs1 = (out0_D_3 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, (VO0_4.read (Elt F) VO0_4.junk), sout0_D_0 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1, sout0_D_1 c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 (fun h => hA ((hcond0_0 t).mp h)) (fun h => hB ((hcond0_1 t).mp h)) ((hcond0_2 t).mpr (by omega)) (fun h => hE ((hcond0_3 t).mp h)) (iblk m c 0 t) (iblk m c 1 t) (iblk m c 2 t) xs0 xs1) := by
  unfold stepAt; rw [dif_neg hA, dif_neg hB, dif_neg hC, dif_neg hE]

/-- What the outputs' staging buffers and the two scratches hold after the body at point `n`: the step at `n` over
    what point `n - 1` left in the scratches (at the first point, over anything: the step there zeroes both). -/
def outsAt0 (c : Dev nD) : (n : ℕ) → n < cfg0.N → Vec F S1x1000x2 .f32 × Vec F S1x3000x2 .f32 × Vec F S1000x2 .f32 × Vec F S3000x2 .f32
  | 0, hn => stepAt m c ⟨0, hn⟩ (VS0_0.read (Elt F) VS0_0.junk) (VS0_1.read (Elt F) VS0_1.junk)
  | n + 1, hn => stepAt m c ⟨n + 1, hn⟩ (outsAt0 c n (Nat.lt_of_succ_lt hn)).2.2.1 (outsAt0 c n (Nat.lt_of_succ_lt hn)).2.2.2

theorem outsAt0_succ (c : Dev nD) (n : ℕ) (hn : n + 1 < cfg0.N) :
    outsAt0 m c (n + 1) hn = stepAt m c ⟨n + 1, hn⟩ (outsAt0 m c n (Nat.lt_of_succ_lt hn)).2.2.1 (outsAt0 m c n (Nat.lt_of_succ_lt hn)).2.2.2 := rfl

/-- At a point that is not the first, `outsAt0` is the step over what the point before left. -/
theorem outsAt0_pos (c : Dev nD) (t : Fin cfg0.N) (hz : t.val ≠ 0) :
    outsAt0 m c t.val t.isLt = stepAt m c t (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact absurd rfl hz
  | succ n => rfl

theorem outsAt0_zero (c : Dev nD) (t : Fin cfg0.N) (hz : t.val = 0) :
    outsAt0 m c t.val t.isLt = stepAt m c t (VS0_0.read (Elt F) VS0_0.junk) (VS0_1.read (Elt F) VS0_1.junk) := by
  obtain ⟨n, hn⟩ := t
  cases n with
  | zero => rfl
  | succ n => exact absurd hz (Nat.succ_ne_zero n)

/-! ## The invariant and the proof data -/

/-- The region invariant before point `n`: before the first point the class's (both scratches at anything); afterwards
    both scratches at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-- The proof data: the arrays as the region finds them; after the body each input's buffer at its block, the outputs'
    at the step's; the invariant above; nothing owed; the first cloud's array held whole, the second cloud's array — read
    through two windows — half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a point of case A: the run applies; the invariant hands over the scratches and takes them back at this
    point's contents. -/
theorem sound_A (c : Dev nD) (t : Fin cfg0.N) (hA : t.val % 9 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases hz : t.val = 0
  · rw [Dat.leavesExact_idle (dats m 0 c) 3 t (idleAt0_3 t (by omega)) (noFlush0_3 t (by omega))]
    rw [Dat.leavesExact_idle (dats m 0 c) 4 t (idleAt0_4 t (by omega)) (noFlush0_4 t (by omega))]
    rw [outsAt0_zero m c t hz, stepAt_A m c t _ _ hA]
    unfold sout0_A_0 sout0_A_1; (try dsimp only)
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    iexists _; iexact H4
  · rw [Dat.leavesExact_idle (dats m 0 c) 3 t (idleAt0_3 t (by omega)) (noFlush0_3 t (by omega))]
    rw [Dat.leavesExact_idle (dats m 0 c) 4 t (idleAt0_4 t (by omega)) (noFlush0_4 t (by omega))]
    rw [outsAt0_pos m c t hz, stepAt_A m c t _ _ hA]
    unfold sout0_A_0 sout0_A_1; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr hA) ((hcond0_1 t).mpr (by omega)) (fun h => absurd ((hcond0_2 t).mp h) (by omega)) (fun h => absurd ((hcond0_3 t).mp h) (by omega)) (iblk m c 0 t) (iblk m c 1 t) (iblk m c 2 t)).2.2 _ _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    iexists _; iexact H4

set_option maxHeartbeats 4800000 in
/-- The body at a point of case B: the run applies; the invariant hands over the scratches and takes them back at this
    point's contents. -/
theorem sound_B (c : Dev nD) (t : Fin cfg0.N) (hA : ¬t.val % 9 = 0) (hB : t.val % 3 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [Dat.leavesExact_idle (dats m 0 c) 3 t (idleAt0_3 t (by omega)) (noFlush0_3 t (by omega))]
  rw [Dat.leavesExact_idle (dats m 0 c) 4 t (idleAt0_4 t (by omega)) (noFlush0_4 t (by omega))]
  rw [outsAt0_pos m c t hz, stepAt_B m c t _ _ hA hB]
  unfold sout0_B_0 sout0_B_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_B c (grid0.coords t) _ _ _ _ _ _ _ _ _ _ _ _ _ _ (fun h => hA ((hcond0_0 t).mp h)) ((hcond0_1 t).mpr hB) (fun h => absurd ((hcond0_2 t).mp h) (by omega)) (fun h => absurd ((hcond0_3 t).mp h) (by omega)) (iblk m c 0 t) (iblk m c 1 t) (iblk m c 2 t) _).2.2 _ _ Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexact HS1
  iintro ⟨H0, H1, H2, H3, H4, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a point of case C: the run applies; the invariant hands over the scratches and takes them back at this
    point's contents. -/
theorem sound_C (c : Dev nD) (t : Fin cfg0.N) (hA : ¬t.val % 9 = 0) (hB : ¬t.val % 3 = 0) (hC : t.val % 3 = 1) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [Dat.leavesExact_idle (dats m 0 c) 3 t (idleAt0_3 t (by omega)) (noFlush0_3 t (by omega))]
  rw [Dat.leavesExact_idle (dats m 0 c) 4 t (idleAt0_4 t (by omega)) (noFlush0_4 t (by omega))]
  rw [outsAt0_pos m c t hz, stepAt_C m c t _ _ hA hB hC]
  unfold sout0_C_0 sout0_C_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_C c (grid0.coords t) _ _ _ _ _ _ _ _ _ _ _ _ _ _ (fun h => hA ((hcond0_0 t).mp h)) (fun h => hB ((hcond0_1 t).mp h)) (fun h => absurd ((hcond0_2 t).mp h) (by omega)) (fun h => absurd ((hcond0_3 t).mp h) (by omega)) (iblk m c 0 t) (iblk m c 1 t) (iblk m c 2 t) _ _).2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a point of case D: the run applies; the invariant hands over the scratches and takes them back at this
    point's contents. -/
theorem sound_D (c : Dev nD) (t : Fin cfg0.N) (hA : ¬t.val % 9 = 0) (hB : ¬t.val % 3 = 0) (hC : ¬t.val % 3 = 1) (hE : ¬t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [show (dats m 0 c).leavesExact 3 t = owns (c : Thread nD τ) (ms0_3 t) fullShare ((dats m 0 c).after 3 t) from by
        unfold Dat.leavesExact; rw [liveAt0_3 t (by omega)], after0_3]
  rw [Dat.leavesExact_idle (dats m 0 c) 4 t (idleAt0_4 t (by omega)) (noFlush0_4 t (by omega))]
  rw [outsAt0_pos m c t hz, stepAt_D m c t _ _ hA hB hC hE]
  unfold sout0_D_0 sout0_D_1 out0_D_3; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_D c (grid0.coords t) _ _ _ _ _ _ _ _ _ _ _ _ _ _ (fun h => hA ((hcond0_0 t).mp h)) (fun h => hB ((hcond0_1 t).mp h)) ((hcond0_2 t).mpr (by omega)) (fun h => hE ((hcond0_3 t).mp h)) (iblk m c 0 t) (iblk m c 1 t) (iblk m c 2 t) _ _).2.2.2 _ Set.univ _)
  isplitl [H0]; · iexact H0
  isplitl [H1]; · iexact H1
  isplitl [H2]; · iexact H2
  isplitl [H3]; · iexists _; iexact H3
  isplitl [H4]; · iexact H4
  isplitl [HS0]; · iexact HS0
  isplitl [HS1]; · iexact HS1
  iintro ⟨H0, H1, H2, ⟨%e3, H3⟩, H4, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_D_0 c _ _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_D_3 c _ _ _ _ _ _ _ _ _ _ _ _ _ _ _ _ _ _ _ _ _ _ _ _)
  iexists _; iexact H4

set_option maxHeartbeats 4800000 in
/-- The body at a point of case E: the run applies; the invariant hands over the scratches and takes them back at this
    point's contents. -/
theorem sound_E (c : Dev nD) (t : Fin cfg0.N) (hA : ¬t.val % 9 = 0) (hB : ¬t.val % 3 = 0) (hC : ¬t.val % 3 = 1) (hE : t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hz : t.val ≠ 0 := by omega
  rw [show (dats m 0 c).leavesExact 3 t = owns (c : Thread nD τ) (ms0_3 t) fullShare ((dats m 0 c).after 3 t) from by
        unfold Dat.leavesExact; rw [liveAt0_3 t (by omega)], after0_3]
  rw [show (dats m 0 c).leavesExact 4 t = owns (c : Thread nD τ) (ms0_4 t) fullShare ((dats m 0 c).after 4 t) from by
        unfold Dat.leavesExact; rw [liveAt0_4 t (by omega)], after0_4]
  rw [outsAt0_pos m c t hz, stepAt_E m c t _ _ hA hB hC hE]
  unfold sout0_E_0 sout0_E_1 out0_E_3 out0_E_4; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩⟩
  iapply ((kernelRun0_E c (grid0.coords t) _ _ _ _ _ _ _ _ _ _ _ _ _ _ (fun h => hA ((hcond0_0 t).mp h)) (fun h => hB ((hcond0_1 t).mp h)) ((hcond0_2 t).mpr (by omega)) ((hcond0_3 t).mpr hE) (iblk m c 0 t) (iblk m c 1 t) (iblk m c 2 t) _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (scover0_E_0 c _ _ _ _ _ _ _ _ _ _ _ _ _ _ _ _ _ _ _ _ _ _ _ _)
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_E_3 c _ _ _ _ _ _ _ _ _ _ _ _ _ _ _ _ _ _ _ _ _ _ _ _)
  unfold owns; iexists _; isplitr
  swap; · iexact H4
  ipureintro; exact View.read_writes_of_cover _ _ _ _ _ (cover0_E_4 c _ _ _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases hA : t.val % 9 = 0
  · exact sound_A m c t hA
  by_cases hB : t.val % 3 = 0
  · exact sound_B m c t hA hB
  by_cases hC : t.val % 3 = 1
  · exact sound_C m c t hA hB hC
  by_cases hE : t.val % 9 = 8
  · exact sound_E m c t hA hB hC hE
  · exact sound_D m c t hA hB hC hE

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 36 := N_0; omega)

/-! ## The run -/

/-- The program is the region and the return. -/
theorem main_eq (c : Dev nD) : main (F := F) c = (.op (.customCall (Pipeline.entry 0) ()) fun _ => .ret ⟨⟩) := rfl

set_option backward.isDefEq.respectTransparency.types false in
/-- Every weakly fair execution of the program terminates, and every final state has every array of the pipeline at
    what the proof data compute: the inputs unchanged, each output overwritten block by block by what the body left at
    each write-back. -/
theorem run_main : θ_run defs (onTc (τ := τ) (main (F := F))) (s₀ m ρ) (Pipeline.FramePost cfgs (dats m) 0 (V m)) :=
  Cert.Lib.SharedFrame.θ_run_frame_track_shared cfgs (dats m) (0 : Fin 1) cellOf_inj winFacts₀0 block_pos0 arr_whole0 stage_whole0
    defs₀ Variants.none m ρ main
    (fun c => (body_obligation m c).loose) (fun _ _ => rfl) (V m)
    (Pipeline.hmain_region cfgs 0 defs₀ Variants.none m main main_eq)
    (fun c => arrays_split0 (V m c) (dats m 0 c) (A_eq m c) rfl rfl rfl)
    (hin m) (hout m)

end Cert.KernelIdeal.Frm

end
-- ==== Proof.KI.FrameClaim.lean ====
/-
  The frame: the program runs to the end, faults nowhere, and both clouds end as they were — read off the run, whose
  post has every input window's array at its entry contents.
-/
import proofs.«125605_j47287589929003_2_alg».proof.Proof.KI.Frame

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frm
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans ((dats m 0 c).arrAt_in 0 rfl _), ((h c).1 1).trans ((dats m 0 c).arrAt_in 1 rfl _)⟩)
    (run_main m ρ)

end Cert.KernelIdeal.Frm

end
-- ==== Proof.Spec.lean ====
/-
  The two embeddings as plain functions of the two point clouds, on the extended reals.

  For a batch b, a point n of the first cloud and a point m of the second, the distance is
  d(b,n,m) = sqrt (max (2 - 2 * <p0[b,n,:], p1[b,m,:]>) 0), the inner product over the two coordinates.
  Channel 0 carries sin d and channel 1 carries cos d.  The first embedding multiplies p0[b,n,c] by the
  sum over m of that channel's wave of d(b,n,m); the second multiplies p1[b,m,c] by the sum over n.
  Both sums start from the zero word, as both programs' reductions do.
-/
import Idealize.ShloMosaic.PureOps.Ideal
import Idealize.ShloMosaic.Lib.ValueIdx

noncomputable section

open scoped BigOperators

namespace Cert.GeoSpec

open Idealize.ShloMosaic Idealize.ShloMosaic.ValueIdx

/-- The shape of a point cloud: 4 batches of 3000 points with 2 coordinates. -/
abbrev Cloud : Shape := ⟨3, ![4, 3000, 2]⟩

/-- The float word 2.0 as an extended real (never evaluated: the same word stands on both sides). -/
def two : EReal := Ideal.ofBits .f32 0x40000000#32
/-- The float word 0.0 as an extended real. -/
def zero : EReal := Ideal.ofBits .f32 0x00000000#32

/-- The inner product of point n of the first cloud and point m of the second, in batch b. -/
def inner (p0 p1 : Cloud.Idx → EReal) (b : Fin 4) (n m : Fin 3000) : EReal :=
  ∑ k : Fin 2, p0 (ix3 b n k) * p1 (ix3 b m k)

/-- The clamped chord distance of the two points. -/
def dist (p0 p1 : Cloud.Idx → EReal) (b : Fin 4) (n m : Fin 3000) : EReal :=
  Ideal.sqrt (max (two - two * inner p0 p1 b n m) zero)

/-- Channel 0 is the sine, channel 1 the cosine. -/
def wave (c : Fin 2) (x : EReal) : EReal := if c.val = 0 then Ideal.sin x else Ideal.cos x

/-- The first embedding: each coordinate of a point of the first cloud times the sum, over the second cloud, of that
    channel's wave of the distance. -/
def emb0 (p0 p1 : Cloud.Idx → EReal) : Cloud.Idx → EReal := fun i =>
  p0 i * (zero + ∑ m : Fin 3000, wave (i 2) (dist p0 p1 (i 0) (i 1) m))

/-- The second embedding: each coordinate of a point of the second cloud times the sum, over the first cloud, of that
    channel's wave of the distance. -/
def emb1 (p0 p1 : Cloud.Idx → EReal) : Cloud.Idx → EReal := fun i =>
  p1 i * (zero + ∑ n : Fin 3000, wave (i 2) (dist p0 p1 (i 0) n (i 1)))

end Cert.GeoSpec

end
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KI.Pay.lean ====
/-
  The kernel's arithmetic, entry by entry, on the extended reals.

  One grid step sees a block of 1000 points of the first cloud and a block of 1000 points of the second, both of one
  batch.  The product of the first block with the rows of the second gives the 1000 by 1000 table of inner products
  <x0[p,:], x1[q,:]>; from it the body forms the clamped chord distance d(p,q) = sqrt (max (2 - 2 <.,.>) 0) and its
  sine and cosine tables.  Summing a table along its rows (over q) gives, for every point p of the first block, that
  block's share of the first embedding's sum; summing it along its columns (over p) gives, for every point q of the
  second block, the share of the second embedding's sum.  Each share is added to the accumulator column already in
  scratch memory.  At the end the accumulated sums are multiplied, coordinate by coordinate, with the clouds.

  Read at an index, a sum of a table along one axis from the zero word is the finite sum of the entries (the zero word
  is the extended real 0, and 0 + s = s for every extended real s), a vector of 1000 numbers recast as a column or as a
  row keeps its entries, and the transpose of a row is the column with the same entries.
-/
import proofs.«125605_j47287589929003_2_alg».proof.Proof.Gen.KernelIdeal.Skeleton
import proofs.«125605_j47287589929003_2_alg».proof.Proof.Spec
import proofs.«125605_j47287589929003_2_alg».proof.Proof.LibMatmulNT
import proofs.«125605_j47287589929003_2_alg».proof.Proof.LibKeepdims
import Idealize.ShloMosaic.PureOps.Ideal.Laws
import Idealize.ShloMosaic.Lib.ValueLayout

noncomputable section

open scoped BigOperators

namespace Cert.KernelIdeal.PayValue

open Cert.KernelIdeal Cert.KernelIdeal.Gen Idealize.ShloMosaic Idealize.ShloMosaic.ValueIdx

/-- The clamped chord distance of point p of the first block and point q of the second. -/
def Dloc (x0 x1 : S1x1000x2.Idx → EReal) (p q : Fin 1000) : EReal :=
  Ideal.sqrt (max (Cert.GeoSpec.two - Cert.GeoSpec.two * ∑ k : Fin 2, x0 (ix3 0 p k) * x1 (ix3 0 q k)) Cert.GeoSpec.zero)

/-- The zero word is the extended real zero, so a sum started from it is the sum. -/
theorem zero_add_sum (s : EReal) : Cert.GeoSpec.zero + s = s := by
  rw [Cert.GeoSpec.zero, Ideal.ofBits_zero_f32, zero_add]

/-! ## The table of inner products and the distance -/

/-- Entry (p, q) of the product of the two blocks, each with its leading unit axis dropped, is the inner product of
    point p of the first and point q of the second. -/
theorem gram_apply (l r : FVec Ideal S1x1000x2 .f32) (p q : Fin 1000) :
    matmul (F := Ideal) dot_S1000x2_S1000x2_S1000x1000_1_1_0_0_n_n (some .fp32)
        (shapeCast S1000x2 l shapeCasts_S1x1000x2_S1000x2) (shapeCast S1000x2 r shapeCasts_S1x1000x2_S1000x2)
        (constant S1000x1000 .f32 0x00000000#32) (ix2 p q)
      = ∑ k : Fin 2, l (ix3 0 p k) * r (ix3 0 q k) := by
  refine (Cert.MatOpsNT.matmul_nt_zero_apply (M := 1000) (K := 2) (N := 1000) (some .fp32)
    (shapeCast S1000x2 l shapeCasts_S1x1000x2_S1000x2) (shapeCast S1000x2 r shapeCasts_S1x1000x2_S1000x2) p q).trans ?_
  refine Finset.sum_congr rfl fun k _ => ?_
  rw [shapeCast_1ab_ab_apply, shapeCast_1ab_ab_apply]

/-- The body's distance table at (p, q). -/
theorem pay9_apply (x0 x1 : Vec Ideal S1x1000x2 .f32) (p q : Fin 1000) :
    k0_pay9 (F := Ideal) x0 x1 (ix2 p q) = Dloc x0 x1 p q := by
  unfold k0_pay9 k0_pay8
  exact congrArg (fun t : EReal => Ideal.sqrt (max (Cert.GeoSpec.two - Cert.GeoSpec.two * t) Cert.GeoSpec.zero))
    (gram_apply x0 x1 p q)

/-- The body's sine table at (p, q). -/
theorem pay10_apply (x0 x1 : Vec Ideal S1x1000x2 .f32) (p q : Fin 1000) :
    k0_pay10 (F := Ideal) x0 x1 (ix2 p q) = Ideal.sin (Dloc x0 x1 p q) :=
  congrArg Ideal.sin (pay9_apply x0 x1 p q)

/-- The body's cosine table at (p, q). -/
theorem pay11_apply (x0 x1 : Vec Ideal S1x1000x2 .f32) (p q : Fin 1000) :
    k0_pay11 (F := Ideal) x0 x1 (ix2 p q) = Ideal.cos (Dloc x0 x1 p q) :=
  congrArg Ideal.cos (pay9_apply x0 x1 p q)

/-! ## Sums of a table along one axis -/

/-- The sum of a table along its rows, read at row p. -/
theorem rowSum_apply (src : FVec Ideal S1000x1000 .f32) (h : S1000x1000.Reduces [1] S1000) (hφ : FKind.Formats .f32)
    (hacc : (0x00000000#32 : BitVec 32) = 0x00000000#32) (p : Fin 1000) :
    multiReduction (F := Ideal) .add [1] S1000 src 0x00000000#32 h hφ hacc (ix1 p) = ∑ q : Fin 1000, src (ix2 p q) := by
  refine (Ideal.multiReduction_add_single src 0x00000000#32 h hφ hacc (ix1 p)).trans ?_
  refine Finset.sum_congr rfl fun q _ => congrArg src ?_
  funext a
  refine Fin.ext ?_
  match a with
  | ⟨0, _⟩ => rfl
  | ⟨1, _⟩ => rfl

/-- The sum of a table along its columns, read at column q. -/
theorem colSum_apply (src : FVec Ideal S1000x1000 .f32) (h : S1000x1000.Reduces [0] S1000) (hφ : FKind.Formats .f32)
    (hacc : (0x00000000#32 : BitVec 32) = 0x00000000#32) (q : Fin 1000) :
    multiReduction (F := Ideal) .add [0] S1000 src 0x00000000#32 h hφ hacc (ix1 q) = ∑ p : Fin 1000, src (ix2 p q) := by
  refine (Ideal.multiReduction_add_single src 0x00000000#32 h hφ hacc (ix1 q)).trans ?_
  refine Finset.sum_congr rfl fun p _ => congrArg src ?_
  funext a
  refine Fin.ext ?_
  match a with
  | ⟨0, _⟩ => rfl
  | ⟨1, _⟩ => rfl

/-- An accumulator column plus the row sums of a table recast as a column, at row p. -/
theorem accRow_apply (src : FVec Ideal S1000x1000 .f32) (acc : Vec Ideal S1000x1 .f32) (hφ : FKind.Formats .f32)
    (hacc : (0x00000000#32 : BitVec 32) = 0x00000000#32) (p : Fin 1000) :
    shapeCast S1000x1 (addf acc (shapeCast S1000x1
        (multiReduction (F := Ideal) .add [1] S1000 src 0x00000000#32 reduces_S1000x1000_S1000 hφ hacc) shapeCasts_S1000_S1000x1))
      shapeCasts_S1000x1_S1000x1 (ix2 p (0 : Fin 1))
      = (acc (ix2 p 0) : EReal) + (Cert.GeoSpec.zero + ∑ q : Fin 1000, src (ix2 p q)) := by
  rw [shapeCast_self, addf_apply, Keepdims.shapeCast_a_a1_apply, rowSum_apply, zero_add_sum]

/-- An accumulator column plus the column sums of a table, recast as a row and transposed to a column, at row q. -/
theorem accCol_apply (src : FVec Ideal S1000x1000 .f32) (acc : Vec Ideal S1000x1 .f32) (hφ : FKind.Formats .f32)
    (hacc : (0x00000000#32 : BitVec 32) = 0x00000000#32) (q : Fin 1000) :
    shapeCast S1000x1 (addf acc (transpose S1000x1 [1, 0] (shapeCast S1x1000
        (multiReduction (F := Ideal) .add [0] S1000 src 0x00000000#32 reduces_S1000x1000_S1000_2 hφ hacc) shapeCasts_S1000_S1x1000)
        transposes_S1x1000_p1_0_S1000x1))
      shapeCasts_S1000x1_S1000x1 (ix2 q (0 : Fin 1))
      = (acc (ix2 q 0) : EReal) + (Cert.GeoSpec.zero + ∑ p : Fin 1000, src (ix2 p q)) := by
  rw [shapeCast_self, addf_apply, transpose_ix2_apply, shapeCast_a_1a_apply, colSum_apply, zero_add_sum]

/-! ## The stored columns -/

/-- The sine accumulator of the first block after this step. -/
theorem pay13_apply (x0 x1 : Vec Ideal S1x1000x2 .f32) (v26 : Vec Ideal S1000x1 .f32) (p : Fin 1000) :
    k0_pay13 (F := Ideal) x0 x1 v26 (ix2 p (0 : Fin 1))
      = (v26 (ix2 p 0) : EReal) + (Cert.GeoSpec.zero + ∑ q : Fin 1000, Ideal.sin (Dloc x0 x1 p q)) := by
  unfold k0_pay13
  refine (accRow_apply (k0_pay10 x0 x1) v26 _ _ p).trans ?_
  simp only [pay10_apply]

/-- The cosine accumulator of the first block after this step. -/
theorem pay1_12_apply (x0 x1 : Vec Ideal S1x1000x2 .f32) (v31 : Vec Ideal S1000x1 .f32) (p : Fin 1000) :
    k0_pay1 (F := Ideal) (k0_pay12 x0 x1) v31 (ix2 p (0 : Fin 1))
      = (v31 (ix2 p 0) : EReal) + (Cert.GeoSpec.zero + ∑ q : Fin 1000, Ideal.cos (Dloc x0 x1 p q)) := by
  unfold k0_pay1 k0_pay12
  refine (accRow_apply (k0_pay11 x0 x1) v31 _ _ p).trans ?_
  simp only [pay11_apply]

/-- The sine accumulator of the second block after this step. -/
theorem pay2_apply (x0 x1 : Vec Ideal S1x1000x2 .f32) (v45 : Vec Ideal S1000x1 .f32) (q : Fin 1000) :
    k0_pay2 (F := Ideal) (k0_pay10 x0 x1) v45 (ix2 q (0 : Fin 1))
      = (v45 (ix2 q 0) : EReal) + (Cert.GeoSpec.zero + ∑ p : Fin 1000, Ideal.sin (Dloc x0 x1 p q)) := by
  unfold k0_pay2
  refine (accCol_apply (k0_pay10 x0 x1) v45 _ _ q).trans ?_
  simp only [pay10_apply]

/-- The cosine accumulator of the second block after this step. -/
theorem pay3_apply (x0 x1 : Vec Ideal S1x1000x2 .f32) (v52 : Vec Ideal S1000x1 .f32) (q : Fin 1000) :
    k0_pay3 (F := Ideal) (k0_pay11 x0 x1) v52 (ix2 q (0 : Fin 1))
      = (v52 (ix2 q 0) : EReal) + (Cert.GeoSpec.zero + ∑ p : Fin 1000, Ideal.cos (Dloc x0 x1 p q)) := by
  unfold k0_pay3
  refine (accCol_apply (k0_pay11 x0 x1) v52 _ _ q).trans ?_
  simp only [pay11_apply]

/-! ## The final products and the cleared accumulators -/

/-- The first result's block: the first cloud's block times its accumulated sums. -/
theorem pay4_apply (x0 : Vec Ideal S1x1000x2 .f32) (v66 : Vec Ideal S1000x2 .f32) (p : Fin 1000) (k : Fin 2) :
    k0_pay4 (F := Ideal) (k0_pay8 x0) v66 (ix3 (0 : Fin 1) p k) = (x0 (ix3 0 p k) : EReal) * v66 (ix2 p k) := by
  unfold k0_pay4 k0_pay8
  rw [shapeCast_ab_1ab_apply, mulf_apply, shapeCast_1ab_ab_apply]

/-- The second result's block: the second cloud's block times its accumulated sums. -/
theorem pay5_apply (x2 : Vec Ideal S1x3000x2 .f32) (v68 : Vec Ideal S3000x2 .f32) (r : Fin 3000) (k : Fin 2) :
    k0_pay5 (F := Ideal) x2 v68 (ix3 (0 : Fin 1) r k) = (x2 (ix3 0 r k) : EReal) * v68 (ix2 r k) := by
  unfold k0_pay5
  rw [shapeCast_ab_1ab_apply, mulf_apply, shapeCast_1ab_ab_apply]

/-- The second block's accumulators start at the zero word. -/
theorem pay6_apply (y : S3000x2.Idx) : k0_pay6 (F := Ideal) y = Cert.GeoSpec.zero := by
  unfold k0_pay6
  rw [shapeCast_self]
  rfl

/-- The first block's accumulators start at the zero word. -/
theorem pay7_apply (y : S1000x2.Idx) : k0_pay7 (F := Ideal) y = Cert.GeoSpec.zero := by
  unfold k0_pay7
  rw [shapeCast_self]
  rfl

end Cert.KernelIdeal.PayValue

end
-- ==== Proof.KI.StepSpec.lean ====
/-
  One point's step, read at an index on the extended reals: the statements that join what the body's stores leave
  (pieces found by running it) to plain arithmetic.  With x0, x1 the point's blocks of the two clouds, the local
  distance is  D p q = sqrt (max (2 - 2 * sum_k x0[0,p,k] * x1[0,q,k]) 0);  channel ch's row sum at p is
  0 + sum_q wave ch (D p q)  and its column sum at q is  0 + sum_p wave ch (D p q).
  The row-sum scratch restarts when nb = 0 and then gains the row sums; the column-sum scratch restarts when
  na = nb = 0 and gains the column sums on the rows of the point's column tile only; the first output's block (nb = 2) is
  the first cloud's block times the row-sum scratch, the second output's (na = nb = 2) the second cloud's batch times
  the column-sum scratch.
-/
import proofs.«125605_j47287589929003_2_alg».proof.Proof.KI.Frame
import proofs.«125605_j47287589929003_2_alg».proof.Proof.Spec
import proofs.«125605_j47287589929003_2_alg».proof.Proof.KI.Pay
import Idealize.ShloMosaic.Lib.ValueIdx

noncomputable section

open scoped BigOperators

namespace Cert.KernelIdeal.StepSpec

open Idealize.ShloMosaic Idealize.ShloMosaic.TcCoe Idealize.ShloMosaic.ValueIdx Idealize.SL.Sem
open Cert.KernelIdeal Cert.KernelIdeal.Gen Cert.KernelIdeal.Frm
open Cert.KernelIdeal.PayValue (Dloc)

/-- Channel ch's sum along the second block's rows, from the zero word. -/
def rowSum (x0 x1 : Vec Ideal S1x1000x2 .f32) (ch : Fin 2) (p : Fin 1000) : EReal :=
  Cert.GeoSpec.zero + ∑ q : Fin 1000, Cert.GeoSpec.wave ch (Dloc x0 x1 p q)

/-- Channel ch's sum along the first block's rows, from the zero word. -/
def colSum (x0 x1 : Vec Ideal S1x1000x2 .f32) (ch : Fin 2) (q : Fin 1000) : EReal :=
  Cert.GeoSpec.zero + ∑ p : Fin 1000, Cert.GeoSpec.wave ch (Dloc x0 x1 p q)

variable (m : (ℓ : Loc nD τ sig) → Buf (Elt Ideal) ℓ)

/-- The four step equations, at every point and over any contents of the two scratches. -/
structure StepEqs (c : Dev nD) : Prop where
  /-- the row-sum scratch -/
  s0 : ∀ (t : Fin cfg0.N) (xs0 : Vec Ideal S1000x2 .f32) (xs1 : Vec Ideal S3000x2 .f32) (p : Fin 1000) (ch : Fin 2),
    (stepAt m c t xs0 xs1).2.2.1 (ix2 p ch)
      = (if t.val % 3 = 0 then Cert.GeoSpec.zero else xs0 (ix2 p ch)) + rowSum (iblk m c 0 t) (iblk m c 1 t) ch p
  /-- the column-sum scratch -/
  s1 : ∀ (t : Fin cfg0.N) (xs0 : Vec Ideal S1000x2 .f32) (xs1 : Vec Ideal S3000x2 .f32) (r : Fin 3000) (ch : Fin 2),
    (stepAt m c t xs0 xs1).2.2.2 (ix2 r ch)
      = if r.val / 1000 = t.val % 3
        then (if t.val % 9 = 0 then Cert.GeoSpec.zero else xs1 (ix2 r ch))
              + colSum (iblk m c 0 t) (iblk m c 1 t) ch ⟨r.val % 1000, Nat.mod_lt _ (by norm_num)⟩
        else (if t.val % 9 = 0 then Cert.GeoSpec.zero else xs1 (ix2 r ch))
  /-- the first output's block, where it is written -/
  o3 : ∀ (t : Fin cfg0.N) (xs0 : Vec Ideal S1000x2 .f32) (xs1 : Vec Ideal S3000x2 .f32), t.val % 3 = 2 → ∀ (p : Fin 1000) (ch : Fin 2),
    (stepAt m c t xs0 xs1).1 (ix3 0 p ch) = HMul.hMul (α := EReal) (β := EReal) (γ := EReal) ((iblk m c 0 t : Vec Ideal S1x1000x2 .f32) (ix3 0 p ch)) ((stepAt m c t xs0 xs1).2.2.1 (ix2 p ch))
  /-- the second output's block, where it is written -/
  o4 : ∀ (t : Fin cfg0.N) (xs0 : Vec Ideal S1000x2 .f32) (xs1 : Vec Ideal S3000x2 .f32), t.val % 9 = 8 → ∀ (r : Fin 3000) (ch : Fin 2),
    (stepAt m c t xs0 xs1).2.1 (ix3 0 r ch) = HMul.hMul (α := EReal) (β := EReal) (γ := EReal) ((iblk m c 2 t : Vec Ideal S1x3000x2 .f32) (ix3 0 r ch)) ((stepAt m c t xs0 xs1).2.2.2 (ix2 r ch))

end Cert.KernelIdeal.StepSpec

end
-- ==== Proof.KI.Blocks.lean ====
/-
  The windows' blocks and the outputs' write-backs, by coordinates.

  The grid is 4 x 3 x 3. Point t has batch t / 9, row tile (t / 3) % 3 and column tile t % 3. The first cloud's
  window reads rows [1000 na, 1000 na + 1000) of batch b; the second cloud is read twice, once by column tile
  (rows [1000 nb, 1000 nb + 1000) of batch b) and once whole (all 3000 rows of batch b). The first output's block
  is rows [1000 na, 1000 na + 1000) of batch b, written back when nb = 2; the second output's block is all of
  batch b, written back when na = nb = 2. A block's coordinate in the array is always
  (block index) x (block size) + (coordinate inside the block), axis by axis.

  From these: each input block read at an index is the array read at the corresponding index, and an output
  array ends at any function G that every written-back block agrees with, since the written-back blocks tile it.
-/
import proofs.«125605_j47287589929003_2_alg».proof.Proof.KI.Runs
import Idealize.ShloMosaic.Lib.Pipeline.Value
import Idealize.ShloMosaic.Lib.ValueIdx

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

variable (m : (ℓ : Loc nD τ sig) → Buf (Elt F) ℓ)

/-! ## A point's batch, and the rows its tiles cover -/

/-- The batch of point `t`. -/
def bOf (t : Fin cfg0.N) : Fin 4 := ⟨t.val / 9, by have := t.isLt; have : cfg0.N = 36 := N_0; omega⟩

/-- Row `p` of point `t`'s row tile, as a row of the array. -/
def rowOf (t : Fin cfg0.N) (p : Fin 1000) : Fin 3000 :=
  ⟨((t.val / 3) % 3) * 1000 + p.val, by have := p.isLt; have := Nat.mod_lt (t.val / 3) (show 0 < 3 by omega); omega⟩

/-- Row `q` of point `t`'s column tile, as a row of the array. -/
def colOf (t : Fin cfg0.N) (q : Fin 1000) : Fin 3000 :=
  ⟨(t.val % 3) * 1000 + q.val, by have := q.isLt; have := Nat.mod_lt t.val (show 0 < 3 by omega); omega⟩

theorem bOf_val (t : Fin cfg0.N) : (bOf t).val = t.val / 9 := rfl
theorem rowOf_val (t : Fin cfg0.N) (p : Fin 1000) : (rowOf t p).val = ((t.val / 3) % 3) * 1000 + p.val := rfl
theorem colOf_val (t : Fin cfg0.N) (q : Fin 1000) : (colOf t q).val = (t.val % 3) * 1000 + q.val := rfl

/-! ## The index maps, decided over the grid -/

/-- Each window's block index at point `t`: the batch on axis 0; on axis 1 the row tile (windows 0 and 3), the
    column tile (window 1) or 0 (windows 2 and 4); 0 on axis 2. -/
theorem idx_facts : ∀ t : Fin cfg0.N,
    win0_0.index t (0 : Fin 3) = t.val / 9 ∧ win0_0.index t (1 : Fin 3) = (t.val / 3) % 3 ∧ win0_0.index t (2 : Fin 3) = 0
    ∧ win0_1.index t (0 : Fin 3) = t.val / 9 ∧ win0_1.index t (1 : Fin 3) = t.val % 3 ∧ win0_1.index t (2 : Fin 3) = 0
    ∧ win0_2.index t (0 : Fin 3) = t.val / 9 ∧ win0_2.index t (1 : Fin 3) = 0 ∧ win0_2.index t (2 : Fin 3) = 0
    ∧ win0_3.index t (0 : Fin 3) = t.val / 9 ∧ win0_3.index t (1 : Fin 3) = (t.val / 3) % 3 ∧ win0_3.index t (2 : Fin 3) = 0
    ∧ win0_4.index t (0 : Fin 3) = t.val / 9 ∧ win0_4.index t (1 : Fin 3) = 0 ∧ win0_4.index t (2 : Fin 3) = 0 :=
  (by decide +kernel : ∀ t : Fin grid0.N, _)

/-! ## The input blocks, read at an index -/

/-- The first cloud's block at point `t`: row `p` of the block is row `rowOf t p` of batch `bOf t`. -/
theorem iblk0_apply (c : Dev nD) (t : Fin cfg0.N) (p : Fin 1000) (k : Fin 2) :
    (iblk m c 0 t : Vec F S1x1000x2 .f32) (ix3 (0 : Fin 1) p k)
      = (V m c main_arg0 : S4x3000x2.Idx → Elt F .f32) (ix3 (bOf t) (rowOf t p) k) := by
  obtain ⟨e0, e1, e2, -⟩ := idx_facts t
  unfold iblk
  rw [View.read_apply]
  show (V m c main_arg0 : S4x3000x2.Idx → Elt F .f32) _ = _
  refine congrArg (V m c main_arg0 : S4x3000x2.Idx → Elt F .f32) ?_
  funext a; apply Fin.ext
  match a with
  | ⟨0, _⟩ => show win0_0.index t (0 : Fin 3) * 1 + 1 * 0 = t.val / 9; omega
  | ⟨1, _⟩ => show win0_0.index t (1 : Fin 3) * 1000 + 1 * p.val = ((t.val / 3) % 3) * 1000 + p.val; omega
  | ⟨2, _⟩ => show win0_0.index t (2 : Fin 3) * 2 + 1 * k.val = k.val; omega

/-- The second cloud's block by column tile at point `t`: row `q` of the block is row `colOf t q` of batch `bOf t`. -/
theorem iblk1_apply (c : Dev nD) (t : Fin cfg0.N) (q : Fin 1000) (k : Fin 2) :
    (iblk m c 1 t : Vec F S1x1000x2 .f32) (ix3 (0 : Fin 1) q k)
      = (V m c main_arg1 : S4x3000x2.Idx → Elt F .f32) (ix3 (bOf t) (colOf t q) k) := by
  obtain ⟨-, -, -, e0, e1, e2, -⟩ := idx_facts t
  unfold iblk
  rw [View.read_apply]
  show (V m c main_arg1 : S4x3000x2.Idx → Elt F .f32) _ = _
  refine congrArg (V m c main_arg1 : S4x3000x2.Idx → Elt F .f32) ?_
  funext a; apply Fin.ext
  match a with
  | ⟨0, _⟩ => show win0_1.index t (0 : Fin 3) * 1 + 1 * 0 = t.val / 9; omega
  | ⟨1, _⟩ => show win0_1.index t (1 : Fin 3) * 1000 + 1 * q.val = (t.val % 3) * 1000 + q.val; omega
  | ⟨2, _⟩ => show win0_1.index t (2 : Fin 3) * 2 + 1 * k.val = k.val; omega

/-- The second cloud's whole-batch block at point `t`: row `r` of the block is row `r` of batch `bOf t`. -/
theorem iblk2_apply (c : Dev nD) (t : Fin cfg0.N) (r : Fin 3000) (k : Fin 2) :
    (iblk m c 2 t : Vec F S1x3000x2 .f32) (ix3 (0 : Fin 1) r k)
      = (V m c main_arg1 : S4x3000x2.Idx → Elt F .f32) (ix3 (bOf t) r k) := by
  obtain ⟨-, -, -, -, -, -, e0, e1, e2, -⟩ := idx_facts t
  unfold iblk
  rw [View.read_apply]
  show (V m c main_arg1 : S4x3000x2.Idx → Elt F .f32) _ = _
  refine congrArg (V m c main_arg1 : S4x3000x2.Idx → Elt F .f32) ?_
  funext a; apply Fin.ext
  match a with
  | ⟨0, _⟩ => show win0_2.index t (0 : Fin 3) * 1 + 1 * 0 = t.val / 9; omega
  | ⟨1, _⟩ => show win0_2.index t (1 : Fin 3) * 3000 + 1 * r.val = r.val; omega
  | ⟨2, _⟩ => show win0_2.index t (2 : Fin 3) * 2 + 1 * k.val = k.val; omega

/-! ## The output blocks: membership, and the arrays after the run -/

/-- An index of the first output's array is in point `t`'s block iff each coordinate is in the block's range. -/
theorem mem_blk3 (t : Fin cfg0.N) (i : S4x3000x2.Idx) :
    i ∈ ((cfg0.win 3).blk t).view.set ↔ ∀ a : Fin 3, win0_3.index t a * S1x1000x2.size a ≤ (i a).val ∧ (i a).val < win0_3.index t a * S1x1000x2.size a + S1x1000x2.size a := by
  show i ∈ ((View.whole main_v0_0).slice (win0_3.rect t)).set ↔ _
  rw [View.set_slice_whole, Rect.mem_set_unit]
  exact Iff.rfl

/-- An index of the second output's array is in point `t`'s block iff each coordinate is in the block's range. -/
theorem mem_blk4 (t : Fin cfg0.N) (i : S4x3000x2.Idx) :
    i ∈ ((cfg0.win 4).blk t).view.set ↔ ∀ a : Fin 3, win0_4.index t a * S1x3000x2.size a ≤ (i a).val ∧ (i a).val < win0_4.index t a * S1x3000x2.size a + S1x3000x2.size a := by
  show i ∈ ((View.whole main_v0_1).slice (win0_4.rect t)).set ↔ _
  rw [View.set_slice_whole, Rect.mem_set_unit]
  exact Iff.rfl

/-- THE FIRST OUTPUT after the run is `G`, for any proof data, when at every point that writes its block back
    (column tile 2) the body leaves, at row `p` of the block, `G` at row `rowOf t p` of batch `bOf t`: the blocks
    written back tile the array (the point covering row `r` of batch `b` is `9 b + 3 (r / 1000) + 2`). -/
theorem arrAt3_of {c : Dev nD} (dat : Dat τ (Elt F) Unit ℕ (UR sig nD τ) ℕ cfg0 c) (G : S4x3000x2.Idx → Elt F .f32)
    (h : ∀ t : Fin cfg0.N, t.val % 3 = 2 → ∀ (p : Fin 1000) (k : Fin 2),
      (dat.after 3 t : Vec F S1x1000x2 .f32) (ix3 (0 : Fin 1) p k) = G (ix3 (bOf t) (rowOf t p) k)) :
    dat.arrAt 3 cfg0.N = G := by
  have hN : cfg0.N = 36 := N_0
  refine dat.arrAt_eq_of_cover 3 G (fun t hf => ?_) (fun i => ?_)
  · have ht : t.val % 3 = 2 := (flush0_3 t).mp hf
    obtain ⟨-, -, -, -, -, -, -, -, -, e0, e1, e2, -⟩ := idx_facts t
    show (cfg0.win 3).cut (grid0.coords t) (dat.after 3 t) = _
    refine funext fun (j : S1x1000x2.Idx) => ?_
    rw [View.read_apply]
    show (dat.after 3 t : Vec F S1x1000x2 .f32) j = G (((cfg0.win 3).blk t).view.emb j)
    have hj : j = ix3 (0 : Fin 1) (j 1) (j 2) :=
      (eq_ix3 j).trans (congrArg (fun a : Fin 1 => ix3 a (j 1) (j 2)) (Subsingleton.elim (α := Fin 1) _ _))
    refine (congrArg (dat.after 3 t : Vec F S1x1000x2 .f32) hj).trans ((h t ht (j 1) (j 2)).trans (congrArg G ?_))
    funext a; apply Fin.ext
    match a with
    | ⟨0, _⟩ => show t.val / 9 = win0_3.index t (0 : Fin 3) * 1 + 1 * (j 0).val; have : (j 0).val < 1 := (j 0).isLt; omega
    | ⟨1, _⟩ => show ((t.val / 3) % 3) * 1000 + (j 1).val = win0_3.index t (1 : Fin 3) * 1000 + 1 * (j 1).val; omega
    | ⟨2, _⟩ => show (j 2).val = win0_3.index t (2 : Fin 3) * 2 + 1 * (j 2).val; omega
  · have hi0 : (i 0).val < 4 := (i 0).isLt
    have hi1 : (i 1).val < 3000 := (i 1).isLt
    have hi2 : (i 2).val < 2 := (i 2).isLt
    let t : Fin cfg0.N := ⟨9 * (i 0).val + 3 * ((i 1).val / 1000) + 2, by omega⟩
    have htv : t.val = 9 * (i 0).val + 3 * ((i 1).val / 1000) + 2 := rfl
    obtain ⟨-, -, -, -, -, -, -, -, -, e0, e1, e2, -⟩ := idx_facts t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1000 ≤ (i 1).val ∧ (i 1).val < win0_3.index t (1 : Fin 3) * 1000 + 1000; omega
    | ⟨2, _⟩ => show win0_3.index t (2 : Fin 3) * 2 ≤ (i 2).val ∧ (i 2).val < win0_3.index t (2 : Fin 3) * 2 + 2; omega

/-- THE SECOND OUTPUT after the run is `G`, for any proof data, when at every point that writes its block back
    (row tile 2 and column tile 2) the body leaves, at row `r` of the block, `G` at row `r` of batch `bOf t`: the
    blocks written back tile the array (the point covering batch `b` is `9 b + 8`). -/
theorem arrAt4_of {c : Dev nD} (dat : Dat τ (Elt F) Unit ℕ (UR sig nD τ) ℕ cfg0 c) (G : S4x3000x2.Idx → Elt F .f32)
    (h : ∀ t : Fin cfg0.N, t.val % 9 = 8 → ∀ (r : Fin 3000) (k : Fin 2),
      (dat.after 4 t : Vec F S1x3000x2 .f32) (ix3 (0 : Fin 1) r k) = G (ix3 (bOf t) r k)) :
    dat.arrAt 4 cfg0.N = G := by
  have hN : cfg0.N = 36 := N_0
  refine dat.arrAt_eq_of_cover 4 G (fun t hf => ?_) (fun i => ?_)
  · have ht : t.val % 9 = 8 := (flush0_4 t).mp hf
    obtain ⟨-, -, -, -, -, -, -, -, -, -, -, -, e0, e1, e2⟩ := idx_facts t
    show (cfg0.win 4).cut (grid0.coords t) (dat.after 4 t) = _
    refine funext fun (j : S1x3000x2.Idx) => ?_
    rw [View.read_apply]
    show (dat.after 4 t : Vec F S1x3000x2 .f32) j = G (((cfg0.win 4).blk t).view.emb j)
    have hj : j = ix3 (0 : Fin 1) (j 1) (j 2) :=
      (eq_ix3 j).trans (congrArg (fun a : Fin 1 => ix3 a (j 1) (j 2)) (Subsingleton.elim (α := Fin 1) _ _))
    refine (congrArg (dat.after 4 t : Vec F S1x3000x2 .f32) hj).trans ((h t ht (j 1) (j 2)).trans (congrArg G ?_))
    funext a; apply Fin.ext
    match a with
    | ⟨0, _⟩ => show t.val / 9 = win0_4.index t (0 : Fin 3) * 1 + 1 * (j 0).val; have : (j 0).val < 1 := (j 0).isLt; omega
    | ⟨1, _⟩ => show (j 1).val = win0_4.index t (1 : Fin 3) * 3000 + 1 * (j 1).val; omega
    | ⟨2, _⟩ => show (j 2).val = win0_4.index t (2 : Fin 3) * 2 + 1 * (j 2).val; omega
  · have hi0 : (i 0).val < 4 := (i 0).isLt
    have hi1 : (i 1).val < 3000 := (i 1).isLt
    have hi2 : (i 2).val < 2 := (i 2).isLt
    let t : Fin cfg0.N := ⟨9 * (i 0).val + 8, by omega⟩
    have htv : t.val = 9 * (i 0).val + 8 := rfl
    obtain ⟨-, -, -, -, -, -, -, -, -, -, -, -, e0, e1, e2⟩ := idx_facts t
    refine ⟨t, (flush0_4 t).mpr (by omega), ?_⟩
    rw [mem_blk4]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 3000 ≤ (i 1).val ∧ (i 1).val < win0_4.index t (1 : Fin 3) * 3000 + 3000; omega
    | ⟨2, _⟩ => show win0_4.index t (2 : Fin 3) * 2 ≤ (i 2).val ∧ (i 2).val < win0_4.index t (2 : Fin 3) * 2 + 2; omega

end Cert.KernelIdeal.Frm

end
-- ==== Proof.Part.lean ====
/-
  Sums over the first points of a cloud of 3000, tile by tile: for a function f on Fin 3000, `part f J` is the sum of f
  over the points numbered below J; it is 0 at J = 0, the whole sum at J = 3000, and grows by one tile of 1000 at a
  time.  On the extended reals, where addition is commutative and associative without any finiteness.
-/
import Mathlib.Data.EReal.Basic
import Mathlib.Algebra.BigOperators.Group.Finset.Basic
import Mathlib.Algebra.BigOperators.Fin

noncomputable section

open scoped BigOperators

namespace Cert.Part

/-- The sum of `f` over the points numbered below `J`. -/
def part (f : Fin 3000 → EReal) (J : ℕ) : EReal := ∑ j : Fin 3000, if j.val < J then f j else 0

theorem part_zero (f : Fin 3000 → EReal) : part f 0 = 0 := by
  unfold part; exact Finset.sum_eq_zero fun j _ => by simp

theorem part_full (f : Fin 3000 → EReal) : part f 3000 = ∑ j : Fin 3000, f j := by
  unfold part; exact Finset.sum_congr rfl fun j _ => by rw [if_pos j.isLt]

/-- The point numbered `1000 k + q`. -/
def pt (k : ℕ) (hk : k < 3) (q : Fin 1000) : Fin 3000 := ⟨k * 1000 + q.val, by have := q.isLt; omega⟩

/-- One more tile: the part below `1000 (k + 1)` is the part below `1000 k` and the tile's sum. -/
theorem part_succ (f : Fin 3000 → EReal) (k : ℕ) (hk : k < 3) :
    part f ((k + 1) * 1000) = part f (k * 1000) + ∑ q : Fin 1000, f (pt k hk q) := by
  unfold part
  have h1 : ∀ j : Fin 3000, (if j.val < (k + 1) * 1000 then f j else 0)
      = (if j.val < k * 1000 then f j else 0) + (if k * 1000 ≤ j.val ∧ j.val < (k + 1) * 1000 then f j else 0) := by
    intro j
    by_cases h : j.val < k * 1000
    · rw [if_pos h, if_pos (by omega), if_neg (by omega), add_zero]
    · by_cases h' : j.val < (k + 1) * 1000
      · rw [if_neg h, if_pos h', if_pos ⟨by omega, h'⟩, zero_add]
      · rw [if_neg h, if_neg h', if_neg (by omega), add_zero]
  rw [Finset.sum_congr rfl fun j _ => h1 j, Finset.sum_add_distrib]
  congr 1
  rw [← Finset.sum_filter]
  refine (Finset.sum_bij (fun (q : Fin 1000) _ => pt k hk q) ?_ ?_ ?_ ?_).symm
  · intro q _
    simp only [Finset.mem_filter, Finset.mem_univ, true_and, pt]
    have := q.isLt; constructor <;> omega
  · intro q _ q' _ h
    have := congrArg Fin.val h
    simp only [pt] at this
    exact Fin.ext (by omega)
  · intro j hj
    simp only [Finset.mem_filter, Finset.mem_univ, true_and] at hj
    exact ⟨⟨j.val - k * 1000, by omega⟩, Finset.mem_univ _, Fin.ext (by simp only [pt]; omega)⟩
  · intro q _; rfl

end Cert.Part

end
-- ==== Proof.KI.Inv.lean ====
/-
  The scratches after every point, in closed form, and from them the two outputs' written blocks.

  After the point t = 9 b + 3 na + nb the row-sum scratch holds, at row p and channel ch, the sum of
  m ↦ wave ch (dist b (1000 na + p) m) over the points m numbered below 1000 (nb + 1);  the column-sum scratch holds, at
  row r, the sum of  n ↦ wave ch (dist b n r)  over the points n below 1000 (na + 1) if r's tile is at most nb and below
  1000 na otherwise.  Both by induction on the point, one step equation each; sums of extended reals only regroup
  (addition is commutative and associative there), so no finiteness is used.  At nb = 2 the first is the whole sum, at
  na = nb = 2 the second, and the written blocks are the specification's.
-/
import proofs.«125605_j47287589929003_2_alg».proof.Proof.KI.StepSpec
import proofs.«125605_j47287589929003_2_alg».proof.Proof.KI.Blocks
import proofs.«125605_j47287589929003_2_alg».proof.Proof.Part

noncomputable section

open scoped BigOperators

namespace Cert.KernelIdeal.Inv

open Idealize.ShloMosaic Idealize.ShloMosaic.TcCoe Idealize.ShloMosaic.ValueIdx Idealize.SL.Sem
open Cert.KernelIdeal Cert.KernelIdeal.Gen Cert.KernelIdeal.Frm Cert.KernelIdeal.StepSpec
open Cert.KernelIdeal.PayValue (Dloc zero_add_sum)
open Cert.GeoSpec (Cloud wave emb0 emb1)
open Cert.Part

variable (m : (ℓ : Loc nD τ sig) → Buf (Elt Ideal) ℓ) (c : Dev nD)

/-- The two clouds as the region finds them. -/
abbrev p0 : Cloud.Idx → EReal := V m c main_arg0
abbrev p1 : Cloud.Idx → EReal := V m c main_arg1

/-! ## The point's blocks by coordinates -/

theorem Dloc_eq (t : Fin cfg0.N) (p q : Fin 1000) :
    Dloc (iblk m c 0 t) (iblk m c 1 t) p q = Cert.GeoSpec.dist (p0 m c) (p1 m c) (bOf t) (rowOf t p) (colOf t q) := by
  unfold Dloc Cert.GeoSpec.dist Cert.GeoSpec.inner
  simp only [iblk0_apply, iblk1_apply]

theorem rowSum_eq (t : Fin cfg0.N) (ch : Fin 2) (p : Fin 1000) :
    rowSum (iblk m c 0 t) (iblk m c 1 t) ch p
      = ∑ q : Fin 1000, wave ch (Cert.GeoSpec.dist (p0 m c) (p1 m c) (bOf t) (rowOf t p) (colOf t q)) := by
  unfold rowSum; rw [zero_add_sum]
  exact Finset.sum_congr rfl fun q _ => by rw [Dloc_eq]

theorem colSum_eq (t : Fin cfg0.N) (ch : Fin 2) (q : Fin 1000) :
    colSum (iblk m c 0 t) (iblk m c 1 t) ch q
      = ∑ p : Fin 1000, wave ch (Cert.GeoSpec.dist (p0 m c) (p1 m c) (bOf t) (rowOf t p) (colOf t q)) := by
  unfold colSum; rw [zero_add_sum]
  exact Finset.sum_congr rfl fun p _ => by rw [Dloc_eq]

theorem zero_eq : Cert.GeoSpec.zero = (0 : EReal) := by
  have := zero_add_sum 0; rwa [add_zero] at this

theorem hN36 : cfg0.N = 36 := N_0

/-- The row of the first cloud and the row of the second that a point's tiles start at. -/
theorem colOf_eq_pt (t : Fin cfg0.N) (q : Fin 1000) (k : ℕ) (hk : k < 3) (h : t.val % 3 = k) : colOf t q = pt k hk q :=
  Fin.ext (by show t.val % 3 * 1000 + q.val = k * 1000 + q.val; rw [h])
theorem rowOf_eq_pt (t : Fin cfg0.N) (p : Fin 1000) (k : ℕ) (hk : k < 3) (h : t.val / 3 % 3 = k) : rowOf t p = pt k hk p :=
  Fin.ext (by show t.val / 3 % 3 * 1000 + p.val = k * 1000 + p.val; rw [h])

/-! ## The row-sum scratch -/

/-- Channel ch's wave of the distance from row p of the point's row tile to the points of the second cloud. -/
def f0 (t : Fin cfg0.N) (p : Fin 1000) (ch : Fin 2) : Fin 3000 → EReal :=
  fun j => wave ch (Cert.GeoSpec.dist (p0 m c) (p1 m c) (bOf t) (rowOf t p) j)

theorem f0_succ (n : ℕ) (hn : n + 1 < cfg0.N) (h3 : ¬(n + 1) % 3 = 0) (p : Fin 1000) (ch : Fin 2) :
    f0 m c ⟨n, Nat.lt_of_succ_lt hn⟩ p ch = f0 m c ⟨n + 1, hn⟩ p ch := by
  unfold f0
  have hb : bOf (⟨n, Nat.lt_of_succ_lt hn⟩ : Fin cfg0.N) = bOf ⟨n + 1, hn⟩ := Fin.ext (by show n / 9 = (n + 1) / 9; omega)
  have hr : rowOf (⟨n, Nat.lt_of_succ_lt hn⟩ : Fin cfg0.N) p = rowOf ⟨n + 1, hn⟩ p :=
    Fin.ext (by show n / 3 % 3 * 1000 + p.val = (n + 1) / 3 % 3 * 1000 + p.val; omega)
  rw [hb, hr]

theorem tile_sum0 (t : Fin cfg0.N) (p : Fin 1000) (ch : Fin 2) (k : ℕ) (hk : k < 3) (h : t.val % 3 = k) :
    (∑ q : Fin 1000, wave ch (Cert.GeoSpec.dist (p0 m c) (p1 m c) (bOf t) (rowOf t p) (colOf t q))) = ∑ q : Fin 1000, f0 m c t p ch (pt k hk q) :=
  Finset.sum_congr rfl fun q _ => by unfold f0; rw [colOf_eq_pt t q k hk h]

/-! ## The column-sum scratch -/

/-- How many points of the first cloud have been summed into row r of the column-sum scratch after point n. -/
def cnt (n r : ℕ) : ℕ := (n / 3 % 3 + (if r / 1000 ≤ n % 3 then 1 else 0)) * 1000

theorem cnt_hit (n r : ℕ) (hr3 : r < 3000) (h9 : ¬(n + 1) % 9 = 0) (hr : r / 1000 = (n + 1) % 3) :
    cnt n r = ((n + 1) / 3 % 3) * 1000 ∧ cnt (n + 1) r = ((n + 1) / 3 % 3 + 1) * 1000 := by
  unfold cnt; constructor <;> split_ifs <;> omega
theorem cnt_miss (n r : ℕ) (hr3 : r < 3000) (h9 : ¬(n + 1) % 9 = 0) (hr : ¬r / 1000 = (n + 1) % 3) :
    cnt n r = cnt (n + 1) r := by
  unfold cnt; split_ifs <;> omega
theorem cnt_first_hit (n r : ℕ) (h9 : n % 9 = 0) (hr : r / 1000 = n % 3) : cnt n r = (0 + 1) * 1000 := by
  unfold cnt; split_ifs <;> omega
theorem cnt_first_miss (n r : ℕ) (h9 : n % 9 = 0) (hr : ¬r / 1000 = n % 3) : cnt n r = 0 := by
  unfold cnt; split_ifs <;> omega

/-- Channel ch's wave of the distance from the points of the first cloud to row r of the second. -/
def f1 (t : Fin cfg0.N) (r : Fin 3000) (ch : Fin 2) : Fin 3000 → EReal :=
  fun n' => wave ch (Cert.GeoSpec.dist (p0 m c) (p1 m c) (bOf t) n' r)

theorem f1_succ (n : ℕ) (hn : n + 1 < cfg0.N) (h9 : ¬(n + 1) % 9 = 0) (r : Fin 3000) (ch : Fin 2) :
    f1 m c ⟨n, Nat.lt_of_succ_lt hn⟩ r ch = f1 m c ⟨n + 1, hn⟩ r ch := by
  unfold f1
  have hb : bOf (⟨n, Nat.lt_of_succ_lt hn⟩ : Fin cfg0.N) = bOf ⟨n + 1, hn⟩ := Fin.ext (by show n / 9 = (n + 1) / 9; omega)
  rw [hb]

theorem tile_sum1 (t : Fin cfg0.N) (r : Fin 3000) (ch : Fin 2) (k : ℕ) (hk : k < 3) (h : t.val / 3 % 3 = k) (hr : r.val / 1000 = t.val % 3) :
    (∑ p : Fin 1000, wave ch (Cert.GeoSpec.dist (p0 m c) (p1 m c) (bOf t) (rowOf t p) (colOf t ⟨r.val % 1000, Nat.mod_lt _ (by norm_num)⟩)))
      = ∑ p : Fin 1000, f1 m c t r ch (pt k hk p) :=
  Finset.sum_congr rfl fun p _ => by
    unfold f1
    have hc : colOf t ⟨r.val % 1000, Nat.mod_lt _ (by norm_num)⟩ = r :=
      Fin.ext (by show t.val % 3 * 1000 + r.val % 1000 = r.val; omega)
    rw [rowOf_eq_pt t p k hk h, hc]

variable (H : StepEqs m c)
include H

/-! ## The two closed forms -/

theorem inv0 : ∀ (n : ℕ) (hn : n < cfg0.N) (p : Fin 1000) (ch : Fin 2),
    (outsAt0 m c n hn).2.2.1 (ix2 p ch) = part (f0 m c ⟨n, hn⟩ p ch) ((n % 3 + 1) * 1000)
  | 0, hn, p, ch => by
    rw [show outsAt0 m c 0 hn = stepAt m c ⟨0, hn⟩ _ _ from rfl, H.s0]
    rw [if_pos (show (⟨0, hn⟩ : Fin cfg0.N).val % 3 = 0 from rfl), zero_eq, zero_add, rowSum_eq,
      tile_sum0 m c ⟨0, hn⟩ p ch 0 (by omega) rfl]
    rw [show (0 % 3 + 1) * 1000 = (0 + 1) * 1000 from rfl, part_succ _ 0 (by omega), show 0 * 1000 = 0 from rfl, part_zero, zero_add]
  | n + 1, hn, p, ch => by
    rw [outsAt0_succ, H.s0]
    by_cases h3 : (n + 1) % 3 = 0
    · rw [if_pos (show (⟨n + 1, hn⟩ : Fin cfg0.N).val % 3 = 0 from h3), zero_eq, zero_add, rowSum_eq,
        tile_sum0 m c ⟨n + 1, hn⟩ p ch 0 (by omega) h3]
      rw [show ((n + 1) % 3 + 1) * 1000 = (0 + 1) * 1000 by omega, part_succ _ 0 (by omega), show 0 * 1000 = 0 from rfl, part_zero, zero_add]
    · rw [if_neg (show ¬(⟨n + 1, hn⟩ : Fin cfg0.N).val % 3 = 0 from h3), inv0 n (Nat.lt_of_succ_lt hn) p ch, rowSum_eq,
        tile_sum0 m c ⟨n + 1, hn⟩ p ch ((n + 1) % 3) (by omega) rfl, f0_succ m c n hn h3 p ch]
      rw [show (n % 3 + 1) * 1000 = ((n + 1) % 3) * 1000 by omega, ← part_succ _ ((n + 1) % 3) (by omega)]

theorem inv1 : ∀ (n : ℕ) (hn : n < cfg0.N) (r : Fin 3000) (ch : Fin 2),
    (outsAt0 m c n hn).2.2.2 (ix2 r ch) = part (f1 m c ⟨n, hn⟩ r ch) (cnt n r.val)
  | 0, hn, r, ch => by
    rw [show outsAt0 m c 0 hn = stepAt m c ⟨0, hn⟩ _ _ from rfl, H.s1]
    by_cases hr : r.val / 1000 = (⟨0, hn⟩ : Fin cfg0.N).val % 3
    · rw [if_pos hr, if_pos (show (⟨0, hn⟩ : Fin cfg0.N).val % 9 = 0 from rfl), zero_eq, zero_add, colSum_eq,
        tile_sum1 m c ⟨0, hn⟩ r ch 0 (by omega) (show (0 : ℕ) / 3 % 3 = 0 from rfl) hr, cnt_first_hit 0 r.val rfl hr, part_succ _ 0 (by omega),
        show 0 * 1000 = 0 from rfl, part_zero, zero_add]
    · rw [if_neg hr, if_pos (show (⟨0, hn⟩ : Fin cfg0.N).val % 9 = 0 from rfl), zero_eq, cnt_first_miss 0 r.val rfl hr, part_zero]
  | n + 1, hn, r, ch => by
    have hN : n + 1 < 36 := lt_of_lt_of_eq hn N_0
    rw [outsAt0_succ, H.s1]
    by_cases h9 : (n + 1) % 9 = 0
    · by_cases hr : r.val / 1000 = (⟨n + 1, hn⟩ : Fin cfg0.N).val % 3
      · rw [if_pos hr, if_pos (show (⟨n + 1, hn⟩ : Fin cfg0.N).val % 9 = 0 from h9), zero_eq, zero_add, colSum_eq,
          tile_sum1 m c ⟨n + 1, hn⟩ r ch 0 (by omega) (by show (n + 1) / 3 % 3 = 0; omega) hr, cnt_first_hit (n + 1) r.val h9 hr,
          part_succ _ 0 (by omega), show 0 * 1000 = 0 from rfl, part_zero, zero_add]
      · rw [if_neg hr, if_pos (show (⟨n + 1, hn⟩ : Fin cfg0.N).val % 9 = 0 from h9), zero_eq, cnt_first_miss (n + 1) r.val h9 hr, part_zero]
    · by_cases hr : r.val / 1000 = (⟨n + 1, hn⟩ : Fin cfg0.N).val % 3
      · obtain ⟨e1, e2⟩ := cnt_hit n r.val r.isLt h9 hr
        rw [if_pos hr, if_neg (show ¬(⟨n + 1, hn⟩ : Fin cfg0.N).val % 9 = 0 from h9), inv1 n (Nat.lt_of_succ_lt hn) r ch, colSum_eq,
          tile_sum1 m c ⟨n + 1, hn⟩ r ch ((n + 1) / 3 % 3) (by omega) rfl hr, f1_succ m c n hn h9 r ch, e1, e2,
          ← part_succ _ ((n + 1) / 3 % 3) (by omega)]
      · rw [if_neg hr, if_neg (show ¬(⟨n + 1, hn⟩ : Fin cfg0.N).val % 9 = 0 from h9), inv1 n (Nat.lt_of_succ_lt hn) r ch,
          f1_succ m c n hn h9 r ch, cnt_miss n r.val r.isLt h9 hr]

/-! ## The written blocks are the specification's -/

theorem out3_eq (t : Fin cfg0.N) (h2 : t.val % 3 = 2) (p : Fin 1000) (ch : Fin 2) :
    (outsAt0 m c t.val t.isLt).1 (ix3 0 p ch) = emb0 (p0 m c) (p1 m c) (ix3 (bOf t) (rowOf t p) ch) := by
  have hz : t.val ≠ 0 := by omega
  have hpos := outsAt0_pos m c t hz
  rw [hpos, H.o3 t _ _ h2, ← hpos, inv0 m c H t.val t.isLt p ch, iblk0_apply]
  rw [show (t.val % 3 + 1) * 1000 = 3000 by omega, part_full]
  unfold emb0 f0; rw [zero_add_sum]

theorem out4_eq (t : Fin cfg0.N) (h8 : t.val % 9 = 8) (r : Fin 3000) (ch : Fin 2) :
    (outsAt0 m c t.val t.isLt).2.1 (ix3 0 r ch) = emb1 (p0 m c) (p1 m c) (ix3 (bOf t) r ch) := by
  have hz : t.val ≠ 0 := by omega
  have hpos := outsAt0_pos m c t hz
  rw [hpos, H.o4 t _ _ h8, ← hpos, inv1 m c H t.val t.isLt r ch, iblk2_apply]
  have hr := r.isLt
  rw [show cnt t.val r.val = 3000 by unfold cnt; split_ifs <;> omega, part_full]
  unfold emb1 f1; rw [zero_add_sum]

end Cert.KernelIdeal.Inv

end
-- ==== Proof.KI.StepEq0.lean ====
/-
  The row-sum scratch after one point's step, entry by entry.

  The body writes the [1000, 2] row-sum scratch one column at a time: column 0 receives what it held plus the row
  sums of the sine table, column 1 what it held plus the row sums of the cosine table; when nb = 0 the whole scratch
  is first filled with the zero word, so "what it held" is then zero.  Reading the stores back newest first, entry
  (p, ch) lies under exactly the store of column ch, whose payload at (p, 0) is the accumulator's entry (p, ch) plus
  channel ch's row sum at p.  The accumulator's entry is read through the stores made before the load: none touches
  the loaded column except the zero fill.
-/
import proofs.«125605_j47287589929003_2_alg».proof.Proof.KI.StepSpec
import Idealize.ShloMosaic.Lib.WritesUnit
import Idealize.ShloMosaic.Lib.WholeRead
import Idealize.ShloMosaic.Lib.ValueIdx

set_option maxRecDepth 16384

noncomputable section

open scoped BigOperators

namespace Cert.KernelIdeal.StepSpec

open Idealize.ShloMosaic Idealize.ShloMosaic.TcCoe Idealize.ShloMosaic.ValueIdx Idealize.SL.Sem Idealize.ShloMosaic.Tactic
open Cert.KernelIdeal Cert.KernelIdeal.Gen Cert.KernelIdeal.Frm
open Cert.KernelIdeal.PayValue

/-! ## Loads and stores read at an index -/

section Helpers
variable {sg : RefSig} {κ : Kind} {sp : Space} {Val : EltTy → Type}

/-- The zero offsets of a rank-3 and of a rank-2 rectangle, however spelt. -/
theorem row_off3_zero : (![0, 0, 0] : Fin 3 → ℕ) = fun _ => 0 := by
  funext a; match a with | ⟨0, _⟩ => rfl | ⟨1, _⟩ => rfl | ⟨2, _⟩ => rfl
theorem row_off2_zero : (![0, 0] : Fin 2 → ℕ) = fun _ => 0 := by
  funext a; match a with | ⟨0, _⟩ => rfl | ⟨1, _⟩ => rfl

/-- A whole-buffer load through a whole memref held at the contents that read X reads X. -/
theorem row_readAt_whole {S : Shape} {e : EltTy} {M : Memref sg κ sp S e} (h : M.IsWhole) (X : S.Idx → Val e)
    {off : Fin S.rank → ℕ} (hz : off = fun _ => 0) (inb : ∀ a, off a + S.size a ≤ S.size a) :
    View.readAt Val M.view (Rect.unit off S.size inb).toLoadRect (h.unread X) = X := by
  rw [View.readAt_eq_ld, h.read_unread, View.ld_unit_zero hz]

/-- A load of column j of a [1000, 2] buffer held at the contents that read X reads X down that column. -/
theorem row_readAt_col {M : Memref sg κ sp S1000x2 .f32} (h : M.IsWhole) (X : S1000x2.Idx → Val .f32) (j : Fin 2)
    {off : Fin 2 → ℕ} (ho : off = ![0, j.val]) (inb : ∀ a, off a + (![1000, 1] : Fin 2 → ℕ) a ≤ S1000x2.size a)
    (p : Fin 1000) :
    View.readAt Val M.view (Rect.unit (s := S1000x2) off ![1000, 1] inb).toLoadRect (h.unread X) (ix2 p (0 : Fin 1)) = X (ix2 p j) := by
  subst ho
  refine (h.readAt_unread X _ _).trans (congrArg X ?_)
  funext a
  refine Fin.ext ?_
  match a with
  | ⟨0, _⟩ => show 0 + 1 * p.val = p.val; omega
  | ⟨1, _⟩ => show j.val + 1 * 0 = j.val; omega

/-- Two column stores into a [1000, 2] buffer, column 1 after column 0, over anything: entry (p, ch) is the column's
    payload at (p, 0). -/
theorem row_read_two_cols {e : EltTy} (v : View sg κ sp S1000x2 e) (f : v.ty.Contents Val)
    (inb1 : ∀ a, (![0, 1] : Fin 2 → ℕ) a + (![1000, 1] : Fin 2 → ℕ) a ≤ S1000x2.size a)
    (inb0 : ∀ a, (![0, 0] : Fin 2 → ℕ) a + (![1000, 1] : Fin 2 → ℕ) a ≤ S1000x2.size a)
    (w1 : (Rect.unit (s := S1000x2) ![0, 1] ![1000, 1] inb1).shape.Idx → Val e)
    (w0 : (Rect.unit (s := S1000x2) ![0, 0] ![1000, 1] inb0).shape.Idx → Val e)
    (L : List (View.Piece Val S1000x2 e)) (p : Fin 1000) (ch : Fin 2) :
    v.read Val (v.writes Val f ((⟨Rect.unit (s := S1000x2) ![0, 1] ![1000, 1] inb1, w1⟩ : View.Piece Val S1000x2 e)
        :: (⟨Rect.unit (s := S1000x2) ![0, 0] ![1000, 1] inb0, w0⟩ : View.Piece Val S1000x2 e) :: L)) (ix2 p ch)
      = if ch.val = 0 then w0 (ix2 p (0 : Fin 1)) else w1 (ix2 p (0 : Fin 1)) := by
  by_cases hc : ch.val = 0
  · rw [if_pos hc, View.read_writes_cons_unit_of_not_mem v f inb1 w1 _ (ix2 p ch) rfl (1 : Fin 2) (Or.inl (by show ch.val < 1; omega))]
    exact View.read_writes_cons_unit_of_mem v f inb0 w0 L (ix2 p ch) (ix2 p (0 : Fin 1)) rfl (fun a => by
      match a with
      | ⟨0, _⟩ => show p.val = 0 + p.val; omega
      | ⟨1, _⟩ => show ch.val = 0 + 0; omega)
  · rw [if_neg hc]
    exact View.read_writes_cons_unit_of_mem v f inb1 w1 _ (ix2 p ch) (ix2 p (0 : Fin 1)) rfl (fun a => by
      match a with
      | ⟨0, _⟩ => show p.val = 0 + p.val; omega
      | ⟨1, _⟩ => show ch.val = 1 + 0; omega)

/-- Position (p, 0) of the load box of column j of a [1000, 2] buffer is entry (p, j). -/
theorem row_col_idx (j : Fin 2) {off : Fin 2 → ℕ} (ho : off = ![0, j.val])
    (inb : ∀ a, off a + (![1000, 1] : Fin 2 → ℕ) a ≤ S1000x2.size a) (p : Fin 1000) :
    (Rect.unit (s := S1000x2) off ![1000, 1] inb).toLoadRect.idx (ix2 p (0 : Fin 1)) = ix2 p j := by
  subst ho
  funext a
  refine Fin.ext ?_
  match a with
  | ⟨0, _⟩ => show 0 + 1 * p.val = p.val; omega
  | ⟨1, _⟩ => show j.val + 1 * 0 = j.val; omega

/-- A load of a column of a [1000, 2] buffer after one store of the whole buffer reads the stored payload down the column. -/
theorem row_readCov_fill_col {e : EltTy} [∀ e, Nonempty (Val e)] (v : View sg κ sp S1000x2 e) (j : Fin 2)
    (inbz : ∀ a, (![0, 0] : Fin 2 → ℕ) a + S1000x2.size a ≤ S1000x2.size a) (z : S1000x2.Idx → Val e)
    {off : Fin 2 → ℕ} (ho : off = ![0, j.val]) (inb : ∀ a, off a + (![1000, 1] : Fin 2 → ℕ) a ≤ S1000x2.size a) (p : Fin 1000) :
    v.readCov [(⟨Rect.unit (s := S1000x2) ![0, 0] S1000x2.size inbz, z⟩ : View.Piece Val S1000x2 e)]
        (Rect.unit (s := S1000x2) off ![1000, 1] inb).toLoadRect (ix2 p (0 : Fin 1)) = z (ix2 p j) := by
  rw [View.readCov_eq_canon', View.canon_unit_zero row_off2_zero]
  exact congrArg z (row_col_idx j ho inb p)

/-- A load of column 1 after a store of the whole buffer and then a store of column 0 still reads the first payload. -/
theorem row_readCov_fill_col0_col1 {e : EltTy} [∀ e, Nonempty (Val e)] (v : View sg κ sp S1000x2 e)
    (inb0 : ∀ a, (![0, 0] : Fin 2 → ℕ) a + (![1000, 1] : Fin 2 → ℕ) a ≤ S1000x2.size a)
    (w0 : (Rect.unit (s := S1000x2) ![0, 0] ![1000, 1] inb0).shape.Idx → Val e)
    (inbz : ∀ a, (![0, 0] : Fin 2 → ℕ) a + S1000x2.size a ≤ S1000x2.size a) (z : S1000x2.Idx → Val e)
    (inb : ∀ a, (![0, 1] : Fin 2 → ℕ) a + (![1000, 1] : Fin 2 → ℕ) a ≤ S1000x2.size a) (p : Fin 1000) :
    v.readCov [(⟨Rect.unit (s := S1000x2) ![0, 0] ![1000, 1] inb0, w0⟩ : View.Piece Val S1000x2 e),
        (⟨Rect.unit (s := S1000x2) ![0, 0] S1000x2.size inbz, z⟩ : View.Piece Val S1000x2 e)]
        (Rect.unit (s := S1000x2) ![0, 1] ![1000, 1] inb).toLoadRect (ix2 p (0 : Fin 1)) = z (ix2 p (1 : Fin 2)) := by
  show v.read Val (v.writes Val v.junk _) ((Rect.unit (s := S1000x2) ![0, 1] ![1000, 1] inb).toLoadRect.idx (ix2 p (0 : Fin 1))) = _
  rw [row_col_idx (1 : Fin 2) (off := ![0, 1]) rfl inb p,
    View.read_writes_cons_unit_of_not_mem v v.junk inb0 w0 _ (ix2 p (1 : Fin 2)) rfl (1 : Fin 2) (Or.inr (by show 0 + 1 ≤ 1; omega))]
  exact View.read_writes_cons_unit_of_mem v v.junk inbz z [] (ix2 p (1 : Fin 2)) (ix2 p (1 : Fin 2)) rfl (fun a => by
    match a with
    | ⟨0, _⟩ => show p.val = 0 + p.val; omega
    | ⟨1, _⟩ => show 1 = 0 + 1; omega)

end Helpers

/-! ## The two column payloads -/

/-- The two column payloads at (p, 0), given what the two accumulator loads read there. -/
theorem row_payloads (x0 x1 : Vec Ideal S1x1000x2 .f32) (v26 v31 : Vec Ideal S1000x1 .f32) (p : Fin 1000) (ch : Fin 2)
    (a : Fin 2 → EReal) (h0 : v26 (ix2 p (0 : Fin 1)) = a 0) (h1 : v31 (ix2 p (0 : Fin 1)) = a 1) :
    (if ch.val = 0 then k0_pay13 (F := Ideal) x0 x1 v26 (ix2 p (0 : Fin 1))
      else k0_pay1 (F := Ideal) (k0_pay12 x0 x1) v31 (ix2 p (0 : Fin 1)))
      = a ch + rowSum x0 x1 ch p := by
  by_cases hc : ch.val = 0
  · rw [if_pos hc]
    obtain rfl : ch = (0 : Fin 2) := Fin.ext hc
    rw [pay13_apply, h0]; rfl
  · rw [if_neg hc]
    obtain rfl : ch = (1 : Fin 2) := Fin.ext (by show ch.val = 1; omega)
    rw [pay1_12_apply, h1]; rfl

/-! ## The five cases -/

/-- Case A: the row-sum scratch after the body, entry (p, ch). -/
theorem sout0_A_0_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : cond0_0 i) (hc1 : cond0_1 i) (hc2 : ¬cond0_2 i) (hc3 : ¬cond0_3 i) (x0 : Vec Ideal S1x1000x2 .f32) (x1 : Vec Ideal S1x1000x2 .f32) (x2 : Vec Ideal S1x3000x2 .f32) (p : Fin 1000) (ch : Fin 2) :
    sout0_A_0 (F := Ideal) c i arg3 harg3 arg4 harg4 arg5 harg5 arg6 harg6 arg7 harg7 arg8 harg8 arg9 harg9 hc0 hc1 hc2 hc3 x0 x1 x2 (ix2 p ch) = Cert.GeoSpec.zero + rowSum x0 x1 ch p := by
  unfold sout0_A_0 kernelRun0_A
  dsimp only
  sl_unfold_words
  refine (row_read_two_cols _ _ _ _ _ _ [_] p ch).trans ?_
  simp only [row_readAt_whole harg3 x0 row_off3_zero, row_readAt_whole harg4 x1 row_off3_zero]
  exact row_payloads x0 x1 _ _ p ch (fun _ => Cert.GeoSpec.zero)
    ((row_readCov_fill_col _ (0 : Fin 2) _ _ rfl _ p).trans (pay7_apply _))
    ((row_readCov_fill_col0_col1 _ _ _ _ _ _ p).trans (pay7_apply _))

/-- Case B: the row-sum scratch after the body, entry (p, ch). -/
theorem sout0_B_0_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 : Vec Ideal S1x1000x2 .f32) (x1 : Vec Ideal S1x1000x2 .f32) (x2 : Vec Ideal S1x3000x2 .f32) (xs1 : Vec Ideal S3000x2 .f32) (p : Fin 1000) (ch : Fin 2) :
    sout0_B_0 (F := Ideal) c i arg3 harg3 arg4 harg4 arg5 harg5 arg6 harg6 arg7 harg7 arg8 harg8 arg9 harg9 hc0 hc1 hc2 hc3 x0 x1 x2 xs1 (ix2 p ch) = Cert.GeoSpec.zero + rowSum x0 x1 ch p := by
  unfold sout0_B_0 kernelRun0_B
  dsimp only
  sl_unfold_words
  refine (row_read_two_cols _ _ _ _ _ _ [_] p ch).trans ?_
  simp only [row_readAt_whole harg3 x0 row_off3_zero, row_readAt_whole harg4 x1 row_off3_zero]
  exact row_payloads x0 x1 _ _ p ch (fun _ => Cert.GeoSpec.zero)
    ((row_readCov_fill_col _ (0 : Fin 2) _ _ rfl _ p).trans (pay7_apply _))
    ((row_readCov_fill_col0_col1 _ _ _ _ _ _ p).trans (pay7_apply _))

/-- Case C: the row-sum scratch after the body, entry (p, ch). -/
theorem sout0_C_0_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 : Vec Ideal S1x1000x2 .f32) (x1 : Vec Ideal S1x1000x2 .f32) (x2 : Vec Ideal S1x3000x2 .f32) (xs0 : Vec Ideal S1000x2 .f32) (xs1 : Vec Ideal S3000x2 .f32) (p : Fin 1000) (ch : Fin 2) :
    sout0_C_0 (F := Ideal) c i arg3 harg3 arg4 harg4 arg5 harg5 arg6 harg6 arg7 harg7 arg8 harg8 arg9 harg9 hc0 hc1 hc2 hc3 x0 x1 x2 xs0 xs1 (ix2 p ch) = (xs0 (ix2 p ch) : EReal) + rowSum x0 x1 ch p := by
  unfold sout0_C_0 kernelRun0_C
  dsimp only
  sl_unfold_words
  refine (row_read_two_cols _ _ _ _ _ _ [] p ch).trans ?_
  simp only [row_readAt_whole harg3 x0 row_off3_zero, row_readAt_whole harg4 x1 row_off3_zero]
  exact row_payloads x0 x1 _ _ p ch (fun ch => xs0 (ix2 p ch))
    (row_readAt_col harg8 xs0 (0 : Fin 2) rfl _ p) (row_readAt_col harg8 xs0 (1 : Fin 2) rfl _ p)

/-- Case D: the row-sum scratch after the body, entry (p, ch). -/
theorem sout0_D_0_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec Ideal S1x1000x2 .f32) (x1 : Vec Ideal S1x1000x2 .f32) (x2 : Vec Ideal S1x3000x2 .f32) (xs0 : Vec Ideal S1000x2 .f32) (xs1 : Vec Ideal S3000x2 .f32) (p : Fin 1000) (ch : Fin 2) :
    sout0_D_0 (F := Ideal) c i arg3 harg3 arg4 harg4 arg5 harg5 arg6 harg6 arg7 harg7 arg8 harg8 arg9 harg9 hc0 hc1 hc2 hc3 x0 x1 x2 xs0 xs1 (ix2 p ch) = (xs0 (ix2 p ch) : EReal) + rowSum x0 x1 ch p := by
  unfold sout0_D_0 kernelRun0_D
  dsimp only
  sl_unfold_words
  refine (row_read_two_cols _ _ _ _ _ _ [] p ch).trans ?_
  simp only [row_readAt_whole harg3 x0 row_off3_zero, row_readAt_whole harg4 x1 row_off3_zero]
  exact row_payloads x0 x1 _ _ p ch (fun ch => xs0 (ix2 p ch))
    (row_readAt_col harg8 xs0 (0 : Fin 2) rfl _ p) (row_readAt_col harg8 xs0 (1 : Fin 2) rfl _ p)

/-- Case E: the row-sum scratch after the body, entry (p, ch). -/
theorem sout0_E_0_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec Ideal S1x1000x2 .f32) (x1 : Vec Ideal S1x1000x2 .f32) (x2 : Vec Ideal S1x3000x2 .f32) (xs0 : Vec Ideal S1000x2 .f32) (xs1 : Vec Ideal S3000x2 .f32) (p : Fin 1000) (ch : Fin 2) :
    sout0_E_0 (F := Ideal) c i arg3 harg3 arg4 harg4 arg5 harg5 arg6 harg6 arg7 harg7 arg8 harg8 arg9 harg9 hc0 hc1 hc2 hc3 x0 x1 x2 xs0 xs1 (ix2 p ch) = (xs0 (ix2 p ch) : EReal) + rowSum x0 x1 ch p := by
  unfold sout0_E_0 kernelRun0_E
  dsimp only
  sl_unfold_words
  refine (row_read_two_cols _ _ _ _ _ _ [] p ch).trans ?_
  simp only [row_readAt_whole harg3 x0 row_off3_zero, row_readAt_whole harg4 x1 row_off3_zero]
  exact row_payloads x0 x1 _ _ p ch (fun ch => xs0 (ix2 p ch))
    (row_readAt_col harg8 xs0 (0 : Fin 2) rfl _ p) (row_readAt_col harg8 xs0 (1 : Fin 2) rfl _ p)

/-! ## The step equation of the row-sum scratch -/

set_option backward.isDefEq.respectTransparency.types false in
/-- After the step at point t the row-sum scratch holds, at (p, ch), what it held before (zero when nb = 0) plus
    channel ch's row sum at p of the point's two blocks. -/
theorem s0_eq (m : (ℓ : Loc nD τ sig) → Buf (Elt Ideal) ℓ) (c : Dev nD) (t : Fin cfg0.N) (xs0 : Vec Ideal S1000x2 .f32)
    (xs1 : Vec Ideal S3000x2 .f32) (p : Fin 1000) (ch : Fin 2) :
    (stepAt m c t xs0 xs1).2.2.1 (ix2 p ch)
      = (if t.val % 3 = 0 then Cert.GeoSpec.zero else xs0 (ix2 p ch)) + rowSum (iblk m c 0 t) (iblk m c 1 t) ch p := by
  by_cases hA : t.val % 9 = 0
  · rw [stepAt_A m c t xs0 xs1 hA, if_pos (show t.val % 3 = 0 by omega)]
    dsimp only
    exact sout0_A_0_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) p ch
  · by_cases hB : t.val % 3 = 0
    · rw [stepAt_B m c t xs0 xs1 hA hB, if_pos hB]
      dsimp only
      exact sout0_B_0_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs1 p ch
    · by_cases hC : t.val % 3 = 1
      · rw [stepAt_C m c t xs0 xs1 hA hB hC, if_neg hB]
        dsimp only
        exact sout0_C_0_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 p ch
      · by_cases hE : t.val % 9 = 8
        · rw [stepAt_E m c t xs0 xs1 hA hB hC hE, if_neg hB]
          dsimp only
          exact sout0_E_0_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 p ch
        · rw [stepAt_D m c t xs0 xs1 hA hB hC hE, if_neg hB]
          dsimp only
          exact sout0_D_0_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 p ch

end Cert.KernelIdeal.StepSpec

end
-- ==== Proof.KI.StepEq1.lean ====
/-
  The column-sum scratch after one point's step, read at an index.

  The body adds the point's column sums into rows [1000 nb, 1000 nb + 1000) of the column-sum scratch [3000, 2], one
  column store per channel: channel 0 (sine) first, channel 1 (cosine) after it, each payload the column already there
  plus the sum, over the first block's rows, of the channel's wave of the distance. Where na = nb = 0 a whole zero store
  comes first, and the two columns are loaded from what that store left. So an entry whose row lies in the point's
  column tile ends at what was there (the zero word where the scratch restarts) plus the channel's column sum, and
  every other entry ends at what was there.

  A load of a [1000, 1] column at offsets (o, j) read at (q, 0) is the buffer read at (o + q, j); of two column stores
  at row offset o, channel 1 over channel 0, an entry (o + q, ch) reads channel ch's payload at (q, 0), and an entry
  whose row is outside [o, o + 1000) reads what was stored before.
-/
import proofs.«125605_j47287589929003_2_alg».proof.Proof.KI.StepSpec
import Idealize.ShloMosaic.Lib.WritesUnit
import Idealize.ShloMosaic.Lib.WholeRead
import Idealize.ShloMosaic.Lib.Pipeline.Value
import Idealize.ShloMosaic.Lib.ValueIdx

set_option maxRecDepth 16384

noncomputable section

open scoped BigOperators

namespace Cert.KernelIdeal.StepSpec

open Idealize.ShloMosaic Idealize.ShloMosaic.TcCoe Idealize.ShloMosaic.ValueIdx Idealize.SL.Sem Idealize.ShloMosaic.Tactic
open Cert.KernelIdeal Cert.KernelIdeal.Gen Cert.KernelIdeal.Frm
open Cert.KernelIdeal.PayValue (Dloc)

/-! ## Column loads and column stores at a row offset -/

section ColHelpers

variable {sg : RefSig} {κ : Kind} {sp : Space} {Val : EltTy → Type}

/-- The zero offsets of a rank-3 and of a rank-2 rectangle. -/
theorem col_off3_zero : (![0, 0, 0] : Fin 3 → ℕ) = fun _ => 0 := by
  funext a; match a with | ⟨0, _⟩ => rfl | ⟨1, _⟩ => rfl | ⟨2, _⟩ => rfl

/-- A whole-buffer load through a whole memref held at the contents that read `X` reads `X`. -/
theorem col_readAt_whole {S : Shape} {e : EltTy} {M : Memref sg κ sp S e} (h : M.IsWhole) (X : S.Idx → Val e)
    {off : Fin S.rank → ℕ} (hz : off = fun _ => 0) (inb : ∀ a, off a + S.size a ≤ S.size a) :
    View.readAt Val M.view (Rect.unit off S.size inb).toLoadRect (h.unread X) = X := by
  rw [View.readAt_eq_ld, h.read_unread, View.ld_unit_zero hz]

/-- A load of the [1000, 1] column at offsets (o, j) of a [3000, 2] buffer, read at (q, 0), is the buffer read at
    (o + q, j). -/
theorem col_readAt_eq_read {e : EltTy} (v : View sg κ sp S3000x2 e) (g : v.ty.Contents Val) (o : ℕ) (j : Fin 2)
    {off : Fin 2 → ℕ} (inb : ∀ a, off a + (![1000, 1] : Fin 2 → ℕ) a ≤ S3000x2.size a) (ho : off = ![o, j.val])
    (q : Fin 1000) (hr : o + q.val < 3000) :
    View.readAt Val v (Rect.unit (s := S3000x2) off ![1000, 1] inb).toLoadRect g (ix2 q (0 : Fin 1))
      = v.read Val g (ix2 (⟨o + q.val, hr⟩ : Fin 3000) j) := by
  subst ho
  rw [View.readAt_apply]
  refine congrArg (v.read Val g) ?_
  funext a
  refine Fin.ext ?_
  match a with
  | ⟨0, _⟩ => show o + 1 * q.val = o + q.val; omega
  | ⟨1, _⟩ => show j.val + 1 * 0 = j.val; omega

/-- Two column stores at row offset `o`, channel 1 over channel 0: entry (o + q, ch) reads channel ch's payload at (q, 0). -/
theorem col_read_two_in {e : EltTy} (v : View sg κ sp S3000x2 e) (f : v.ty.Contents Val) (o : ℕ) {off1 off0 : Fin 2 → ℕ}
    (inb1 : ∀ a, off1 a + (![1000, 1] : Fin 2 → ℕ) a ≤ S3000x2.size a)
    (inb0 : ∀ a, off0 a + (![1000, 1] : Fin 2 → ℕ) a ≤ S3000x2.size a)
    (w1 : (Rect.unit (s := S3000x2) off1 ![1000, 1] inb1).shape.Idx → Val e)
    (w0 : (Rect.unit (s := S3000x2) off0 ![1000, 1] inb0).shape.Idx → Val e)
    (L : List (View.Piece Val S3000x2 e)) (ho1 : off1 = ![o, 1]) (ho0 : off0 = ![o, 0])
    (q : Fin 1000) (hr : o + q.val < 3000) (ch : Fin 2) :
    v.read Val (v.writes Val f ((⟨Rect.unit (s := S3000x2) off1 ![1000, 1] inb1, w1⟩ : View.Piece Val S3000x2 e)
        :: (⟨Rect.unit (s := S3000x2) off0 ![1000, 1] inb0, w0⟩ : View.Piece Val S3000x2 e) :: L)) (ix2 (⟨o + q.val, hr⟩ : Fin 3000) ch)
      = if ch.val = 0 then w0 (ix2 q (0 : Fin 1)) else w1 (ix2 q (0 : Fin 1)) := by
  by_cases hc : ch.val = 0
  · rw [if_pos hc, View.read_writes_cons_unit_of_not_mem v f inb1 w1 _ (ix2 (⟨o + q.val, hr⟩ : Fin 3000) ch) ho1 (1 : Fin 2)
      (Or.inl (by show ch.val < 1; omega))]
    exact View.read_writes_cons_unit_of_mem v f inb0 w0 L (ix2 (⟨o + q.val, hr⟩ : Fin 3000) ch) (ix2 q (0 : Fin 1)) ho0 (fun a => by
      match a with
      | ⟨0, _⟩ => show o + q.val = o + q.val; rfl
      | ⟨1, _⟩ => show ch.val = 0 + 0; omega)
  · rw [if_neg hc]
    exact View.read_writes_cons_unit_of_mem v f inb1 w1 _ (ix2 (⟨o + q.val, hr⟩ : Fin 3000) ch) (ix2 q (0 : Fin 1)) ho1 (fun a => by
      match a with
      | ⟨0, _⟩ => show o + q.val = o + q.val; rfl
      | ⟨1, _⟩ => show ch.val = 1 + 0; have := ch.isLt; omega)

/-- Two column stores at row offset `o`: an entry whose row is outside [o, o + 1000) reads what was stored before. -/
theorem col_read_two_out {e : EltTy} (v : View sg κ sp S3000x2 e) (f : v.ty.Contents Val) (o : ℕ) {off1 off0 : Fin 2 → ℕ}
    (inb1 : ∀ a, off1 a + (![1000, 1] : Fin 2 → ℕ) a ≤ S3000x2.size a)
    (inb0 : ∀ a, off0 a + (![1000, 1] : Fin 2 → ℕ) a ≤ S3000x2.size a)
    (w1 : (Rect.unit (s := S3000x2) off1 ![1000, 1] inb1).shape.Idx → Val e)
    (w0 : (Rect.unit (s := S3000x2) off0 ![1000, 1] inb0).shape.Idx → Val e)
    (L : List (View.Piece Val S3000x2 e)) (ho1 : off1 = ![o, 1]) (ho0 : off0 = ![o, 0])
    (r : Fin 3000) (hout : r.val < o ∨ o + 1000 ≤ r.val) (ch : Fin 2) :
    v.read Val (v.writes Val f ((⟨Rect.unit (s := S3000x2) off1 ![1000, 1] inb1, w1⟩ : View.Piece Val S3000x2 e)
        :: (⟨Rect.unit (s := S3000x2) off0 ![1000, 1] inb0, w0⟩ : View.Piece Val S3000x2 e) :: L)) (ix2 r ch)
      = v.read Val (v.writes Val f L) (ix2 r ch) := by
  rw [View.read_writes_cons_unit_of_not_mem v f inb1 w1 _ (ix2 r ch) ho1 (0 : Fin 2) (by show r.val < o ∨ o + 1000 ≤ r.val; exact hout),
    View.read_writes_cons_unit_of_not_mem v f inb0 w0 L (ix2 r ch) ho0 (0 : Fin 2) (by show r.val < o ∨ o + 1000 ≤ r.val; exact hout)]

/-- A store through the whole buffer, alone over anything, read at an index is its payload there. -/
theorem col_read_whole {e : EltTy} (v : View sg κ sp S3000x2 e) (f : v.ty.Contents Val)
    (inb : ∀ a, (![0, 0] : Fin 2 → ℕ) a + S3000x2.size a ≤ S3000x2.size a)
    (w : (Rect.unit (s := S3000x2) ![0, 0] S3000x2.size inb).shape.Idx → Val e) (y : S3000x2.Idx) :
    v.read Val (v.writes Val f [(⟨Rect.unit (s := S3000x2) ![0, 0] S3000x2.size inb, w⟩ : View.Piece Val S3000x2 e)]) y = w y :=
  View.read_writes_cons_unit_of_mem v f inb w [] y y rfl (fun a => by
    match a with
    | ⟨0, _⟩ => show (y 0).val = 0 + (y 0).val; omega
    | ⟨1, _⟩ => show (y 1).val = 0 + (y 1).val; omega)

end ColHelpers

/-- A channel's column sum with the wave spelt out. -/
theorem colSum_sin (x0 x1 : Vec Ideal S1x1000x2 .f32) (q : Fin 1000) :
    colSum x0 x1 (0 : Fin 2) q = Cert.GeoSpec.zero + ∑ p : Fin 1000, Ideal.sin (Dloc x0 x1 p q) := rfl
theorem colSum_cos (x0 x1 : Vec Ideal S1x1000x2 .f32) (q : Fin 1000) :
    colSum x0 x1 (1 : Fin 2) q = Cert.GeoSpec.zero + ∑ p : Fin 1000, Ideal.cos (Dloc x0 x1 p q) := rfl

/-- The row offset of the point's column tile is inside the buffer. -/
theorem col_row_lt (i : grid0.Coords) (q : Fin 1000) : 1000 * (i 2).val + q.val < 3000 := by
  have h2 : (i 2).val < 3 := (i 2).isLt
  have := q.isLt
  omega

/-! ## Case A -/

/-- Case A (the scratch restarts), inside the point's column tile: the zero word plus the channel's column sum. The
    scratch is read back through its own view, so the memref the body is called with is the scratch itself. -/
theorem sout0_A_1_in (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (hc0 : cond0_0 i) (hc1 : cond0_1 i) (hc2 : ¬cond0_2 i) (hc3 : ¬cond0_3 i) (x0 x1 : Vec Ideal S1x1000x2 .f32) (x2 : Vec Ideal S1x3000x2 .f32) (r : Fin 3000) (q : Fin 1000)
    (hq : r.val = 1000 * (i 2).val + q.val) (ch : Fin 2) :
    sout0_A_1 (F := Ideal) c i arg3 harg3 arg4 harg4 arg5 harg5 arg6 harg6 arg7 harg7 arg8 harg8 scM0_1 hsc0_1 hc0 hc1 hc2 hc3 x0 x1 x2 (ix2 r ch) = Cert.GeoSpec.zero + colSum x0 x1 ch q := by
  obtain rfl : r = (⟨1000 * (i 2).val + q.val, col_row_lt i q⟩ : Fin 3000) := Fin.ext hq
  unfold sout0_A_1 kernelRun0_A
  dsimp only
  sl_unfold_words
  refine (col_read_two_in _ _ (1000 * (i 2).val) _ _ _ _ _ (k0_off2_eq i) (k0_off1_eq i) q (col_row_lt i q) ch).trans ?_
  rw [col_readAt_whole harg3 x0 col_off3_zero, col_readAt_whole harg4 x1 col_off3_zero]
  match ch with
  | ⟨0, _⟩ =>
    rw [if_pos rfl]
    refine (PayValue.pay2_apply x0 x1 _ q).trans ?_
    exact congrArg (fun z : EReal => z + (Cert.GeoSpec.zero + ∑ p : Fin 1000, Ideal.sin (Dloc x0 x1 p q)))
      ((col_readAt_eq_read scM0_1.view _ (1000 * (i 2).val) (0 : Fin 2) _ (k0_off1_eq i) q (col_row_lt i q)).trans
        ((col_read_whole scM0_1.view _ _ _ _).trans (PayValue.pay6_apply _)))
  | ⟨1, _⟩ =>
    refine (if_neg (by show ¬ (1 : ℕ) = 0; omega)).trans ?_
    refine (PayValue.pay3_apply x0 x1 _ q).trans ?_
    exact congrArg (fun z : EReal => z + (Cert.GeoSpec.zero + ∑ p : Fin 1000, Ideal.cos (Dloc x0 x1 p q)))
      ((col_readAt_eq_read scM0_1.view _ (1000 * (i 2).val) (1 : Fin 2) _ (k0_off2_eq i) q (col_row_lt i q)).trans
        ((View.read_writes_cons_unit_of_not_mem scM0_1.view _ _ _ _
            (ix2 (⟨1000 * (i 2).val + q.val, col_row_lt i q⟩ : Fin 3000) (1 : Fin 2)) (k0_off1_eq i) (1 : Fin 2)
            (Or.inr (by show 0 + 1 ≤ 1; omega))).trans
          ((col_read_whole scM0_1.view _ _ _ _).trans (PayValue.pay6_apply _))))

/-- Case A, outside the point's column tile: the zero word. -/
theorem sout0_A_1_out (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (hc0 : cond0_0 i) (hc1 : cond0_1 i) (hc2 : ¬cond0_2 i) (hc3 : ¬cond0_3 i) (x0 x1 : Vec Ideal S1x1000x2 .f32) (x2 : Vec Ideal S1x3000x2 .f32) (r : Fin 3000)
    (hout : r.val < 1000 * (i 2).val ∨ 1000 * (i 2).val + 1000 ≤ r.val) (ch : Fin 2) :
    sout0_A_1 (F := Ideal) c i arg3 harg3 arg4 harg4 arg5 harg5 arg6 harg6 arg7 harg7 arg8 harg8 scM0_1 hsc0_1 hc0 hc1 hc2 hc3 x0 x1 x2 (ix2 r ch) = Cert.GeoSpec.zero := by
  unfold sout0_A_1 kernelRun0_A
  dsimp only
  sl_unfold_words
  refine (col_read_two_out _ _ (1000 * (i 2).val) _ _ _ _ _ (k0_off2_eq i) (k0_off1_eq i) r hout ch).trans ?_
  exact (col_read_whole scM0_1.view _ _ _ _).trans (PayValue.pay6_apply _)

/-! ## Case B -/

/-- Case B, inside the point's column tile (row `r` is row `q` of the tile): what was there plus the channel's column sum. -/
theorem sout0_B_1_in (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 x1 : Vec Ideal S1x1000x2 .f32) (x2 : Vec Ideal S1x3000x2 .f32) (xs1 : Vec Ideal S3000x2 .f32) (r : Fin 3000) (q : Fin 1000)
    (hq : r.val = 1000 * (i 2).val + q.val) (ch : Fin 2) :
    sout0_B_1 (F := Ideal) c i arg3 harg3 arg4 harg4 arg5 harg5 arg6 harg6 arg7 harg7 arg8 harg8 arg9 harg9 hc0 hc1 hc2 hc3 x0 x1 x2 xs1 (ix2 r ch) = xs1 (ix2 r ch) + colSum x0 x1 ch q := by
  obtain rfl : r = (⟨1000 * (i 2).val + q.val, col_row_lt i q⟩ : Fin 3000) := Fin.ext hq
  unfold sout0_B_1 kernelRun0_B
  dsimp only
  sl_unfold_words
  refine (col_read_two_in _ _ (1000 * (i 2).val) _ _ _ _ [] (k0_off2_eq i) (k0_off1_eq i) q (col_row_lt i q) ch).trans ?_
  rw [col_readAt_whole harg3 x0 col_off3_zero, col_readAt_whole harg4 x1 col_off3_zero]
  match ch with
  | ⟨0, _⟩ =>
    rw [if_pos rfl]
    refine (PayValue.pay2_apply x0 x1 _ q).trans ?_
    exact congrArg (fun z : EReal => z + (Cert.GeoSpec.zero + ∑ p : Fin 1000, Ideal.sin (Dloc x0 x1 p q)))
      ((col_readAt_eq_read arg9.view (harg9.unread xs1) (1000 * (i 2).val) (0 : Fin 2) _ (k0_off1_eq i) q (col_row_lt i q)).trans
        (congrFun (harg9.read_unread xs1) _))
  | ⟨1, _⟩ =>
    refine (if_neg (by show ¬ (1 : ℕ) = 0; omega)).trans ?_
    refine (PayValue.pay3_apply x0 x1 _ q).trans ?_
    exact congrArg (fun z : EReal => z + (Cert.GeoSpec.zero + ∑ p : Fin 1000, Ideal.cos (Dloc x0 x1 p q)))
      ((col_readAt_eq_read arg9.view (harg9.unread xs1) (1000 * (i 2).val) (1 : Fin 2) _ (k0_off2_eq i) q (col_row_lt i q)).trans
        (congrFun (harg9.read_unread xs1) _))

/-- Case B, outside the point's column tile: what was there. -/
theorem sout0_B_1_out (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : cond0_1 i) (hc2 : ¬cond0_2 i) (hc3 : ¬cond0_3 i) (x0 x1 : Vec Ideal S1x1000x2 .f32) (x2 : Vec Ideal S1x3000x2 .f32) (xs1 : Vec Ideal S3000x2 .f32) (r : Fin 3000)
    (hout : r.val < 1000 * (i 2).val ∨ 1000 * (i 2).val + 1000 ≤ r.val) (ch : Fin 2) :
    sout0_B_1 (F := Ideal) c i arg3 harg3 arg4 harg4 arg5 harg5 arg6 harg6 arg7 harg7 arg8 harg8 arg9 harg9 hc0 hc1 hc2 hc3 x0 x1 x2 xs1 (ix2 r ch) = xs1 (ix2 r ch) := by
  unfold sout0_B_1 kernelRun0_B
  dsimp only
  sl_unfold_words
  refine (col_read_two_out _ _ (1000 * (i 2).val) _ _ _ _ [] (k0_off2_eq i) (k0_off1_eq i) r hout ch).trans ?_
  rw [View.writes_nil, harg9.read_unread]

/-! ## Case C -/

/-- Case C, inside the point's column tile (row `r` is row `q` of the tile): what was there plus the channel's column sum. -/
theorem sout0_C_1_in (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 x1 : Vec Ideal S1x1000x2 .f32) (x2 : Vec Ideal S1x3000x2 .f32) (xs0 : Vec Ideal S1000x2 .f32) (xs1 : Vec Ideal S3000x2 .f32) (r : Fin 3000) (q : Fin 1000)
    (hq : r.val = 1000 * (i 2).val + q.val) (ch : Fin 2) :
    sout0_C_1 (F := Ideal) c i arg3 harg3 arg4 harg4 arg5 harg5 arg6 harg6 arg7 harg7 arg8 harg8 arg9 harg9 hc0 hc1 hc2 hc3 x0 x1 x2 xs0 xs1 (ix2 r ch) = xs1 (ix2 r ch) + colSum x0 x1 ch q := by
  obtain rfl : r = (⟨1000 * (i 2).val + q.val, col_row_lt i q⟩ : Fin 3000) := Fin.ext hq
  unfold sout0_C_1 kernelRun0_C
  dsimp only
  sl_unfold_words
  refine (col_read_two_in _ _ (1000 * (i 2).val) _ _ _ _ [] (k0_off2_eq i) (k0_off1_eq i) q (col_row_lt i q) ch).trans ?_
  rw [col_readAt_whole harg3 x0 col_off3_zero, col_readAt_whole harg4 x1 col_off3_zero]
  match ch with
  | ⟨0, _⟩ =>
    rw [if_pos rfl]
    refine (PayValue.pay2_apply x0 x1 _ q).trans ?_
    exact congrArg (fun z : EReal => z + (Cert.GeoSpec.zero + ∑ p : Fin 1000, Ideal.sin (Dloc x0 x1 p q)))
      ((col_readAt_eq_read arg9.view (harg9.unread xs1) (1000 * (i 2).val) (0 : Fin 2) _ (k0_off1_eq i) q (col_row_lt i q)).trans
        (congrFun (harg9.read_unread xs1) _))
  | ⟨1, _⟩ =>
    refine (if_neg (by show ¬ (1 : ℕ) = 0; omega)).trans ?_
    refine (PayValue.pay3_apply x0 x1 _ q).trans ?_
    exact congrArg (fun z : EReal => z + (Cert.GeoSpec.zero + ∑ p : Fin 1000, Ideal.cos (Dloc x0 x1 p q)))
      ((col_readAt_eq_read arg9.view (harg9.unread xs1) (1000 * (i 2).val) (1 : Fin 2) _ (k0_off2_eq i) q (col_row_lt i q)).trans
        (congrFun (harg9.read_unread xs1) _))

/-- Case C, outside the point's column tile: what was there. -/
theorem sout0_C_1_out (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : ¬cond0_2 i) (hc3 : ¬cond0_3 i) (x0 x1 : Vec Ideal S1x1000x2 .f32) (x2 : Vec Ideal S1x3000x2 .f32) (xs0 : Vec Ideal S1000x2 .f32) (xs1 : Vec Ideal S3000x2 .f32) (r : Fin 3000)
    (hout : r.val < 1000 * (i 2).val ∨ 1000 * (i 2).val + 1000 ≤ r.val) (ch : Fin 2) :
    sout0_C_1 (F := Ideal) c i arg3 harg3 arg4 harg4 arg5 harg5 arg6 harg6 arg7 harg7 arg8 harg8 arg9 harg9 hc0 hc1 hc2 hc3 x0 x1 x2 xs0 xs1 (ix2 r ch) = xs1 (ix2 r ch) := by
  unfold sout0_C_1 kernelRun0_C
  dsimp only
  sl_unfold_words
  refine (col_read_two_out _ _ (1000 * (i 2).val) _ _ _ _ [] (k0_off2_eq i) (k0_off1_eq i) r hout ch).trans ?_
  rw [View.writes_nil, harg9.read_unread]

/-! ## Case D -/

/-- Case D, inside the point's column tile (row `r` is row `q` of the tile): what was there plus the channel's column sum. -/
theorem sout0_D_1_in (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 x1 : Vec Ideal S1x1000x2 .f32) (x2 : Vec Ideal S1x3000x2 .f32) (xs0 : Vec Ideal S1000x2 .f32) (xs1 : Vec Ideal S3000x2 .f32) (r : Fin 3000) (q : Fin 1000)
    (hq : r.val = 1000 * (i 2).val + q.val) (ch : Fin 2) :
    sout0_D_1 (F := Ideal) c i arg3 harg3 arg4 harg4 arg5 harg5 arg6 harg6 arg7 harg7 arg8 harg8 arg9 harg9 hc0 hc1 hc2 hc3 x0 x1 x2 xs0 xs1 (ix2 r ch) = xs1 (ix2 r ch) + colSum x0 x1 ch q := by
  obtain rfl : r = (⟨1000 * (i 2).val + q.val, col_row_lt i q⟩ : Fin 3000) := Fin.ext hq
  unfold sout0_D_1 kernelRun0_D
  dsimp only
  sl_unfold_words
  refine (col_read_two_in _ _ (1000 * (i 2).val) _ _ _ _ [] (k0_off2_eq i) (k0_off1_eq i) q (col_row_lt i q) ch).trans ?_
  rw [col_readAt_whole harg3 x0 col_off3_zero, col_readAt_whole harg4 x1 col_off3_zero]
  match ch with
  | ⟨0, _⟩ =>
    rw [if_pos rfl]
    refine (PayValue.pay2_apply x0 x1 _ q).trans ?_
    exact congrArg (fun z : EReal => z + (Cert.GeoSpec.zero + ∑ p : Fin 1000, Ideal.sin (Dloc x0 x1 p q)))
      ((col_readAt_eq_read arg9.view (harg9.unread xs1) (1000 * (i 2).val) (0 : Fin 2) _ (k0_off1_eq i) q (col_row_lt i q)).trans
        (congrFun (harg9.read_unread xs1) _))
  | ⟨1, _⟩ =>
    refine (if_neg (by show ¬ (1 : ℕ) = 0; omega)).trans ?_
    refine (PayValue.pay3_apply x0 x1 _ q).trans ?_
    exact congrArg (fun z : EReal => z + (Cert.GeoSpec.zero + ∑ p : Fin 1000, Ideal.cos (Dloc x0 x1 p q)))
      ((col_readAt_eq_read arg9.view (harg9.unread xs1) (1000 * (i 2).val) (1 : Fin 2) _ (k0_off2_eq i) q (col_row_lt i q)).trans
        (congrFun (harg9.read_unread xs1) _))

/-- Case D, outside the point's column tile: what was there. -/
theorem sout0_D_1_out (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 x1 : Vec Ideal S1x1000x2 .f32) (x2 : Vec Ideal S1x3000x2 .f32) (xs0 : Vec Ideal S1000x2 .f32) (xs1 : Vec Ideal S3000x2 .f32) (r : Fin 3000)
    (hout : r.val < 1000 * (i 2).val ∨ 1000 * (i 2).val + 1000 ≤ r.val) (ch : Fin 2) :
    sout0_D_1 (F := Ideal) c i arg3 harg3 arg4 harg4 arg5 harg5 arg6 harg6 arg7 harg7 arg8 harg8 arg9 harg9 hc0 hc1 hc2 hc3 x0 x1 x2 xs0 xs1 (ix2 r ch) = xs1 (ix2 r ch) := by
  unfold sout0_D_1 kernelRun0_D
  dsimp only
  sl_unfold_words
  refine (col_read_two_out _ _ (1000 * (i 2).val) _ _ _ _ [] (k0_off2_eq i) (k0_off1_eq i) r hout ch).trans ?_
  rw [View.writes_nil, harg9.read_unread]

/-! ## Case E -/

/-- Case E, inside the point's column tile (row `r` is row `q` of the tile): what was there plus the channel's column sum. -/
theorem sout0_E_1_in (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 x1 : Vec Ideal S1x1000x2 .f32) (x2 : Vec Ideal S1x3000x2 .f32) (xs0 : Vec Ideal S1000x2 .f32) (xs1 : Vec Ideal S3000x2 .f32) (r : Fin 3000) (q : Fin 1000)
    (hq : r.val = 1000 * (i 2).val + q.val) (ch : Fin 2) :
    sout0_E_1 (F := Ideal) c i arg3 harg3 arg4 harg4 arg5 harg5 arg6 harg6 arg7 harg7 arg8 harg8 arg9 harg9 hc0 hc1 hc2 hc3 x0 x1 x2 xs0 xs1 (ix2 r ch) = xs1 (ix2 r ch) + colSum x0 x1 ch q := by
  obtain rfl : r = (⟨1000 * (i 2).val + q.val, col_row_lt i q⟩ : Fin 3000) := Fin.ext hq
  unfold sout0_E_1 kernelRun0_E
  dsimp only
  sl_unfold_words
  refine (col_read_two_in _ _ (1000 * (i 2).val) _ _ _ _ [] (k0_off2_eq i) (k0_off1_eq i) q (col_row_lt i q) ch).trans ?_
  rw [col_readAt_whole harg3 x0 col_off3_zero, col_readAt_whole harg4 x1 col_off3_zero]
  match ch with
  | ⟨0, _⟩ =>
    rw [if_pos rfl]
    refine (PayValue.pay2_apply x0 x1 _ q).trans ?_
    exact congrArg (fun z : EReal => z + (Cert.GeoSpec.zero + ∑ p : Fin 1000, Ideal.sin (Dloc x0 x1 p q)))
      ((col_readAt_eq_read arg9.view (harg9.unread xs1) (1000 * (i 2).val) (0 : Fin 2) _ (k0_off1_eq i) q (col_row_lt i q)).trans
        (congrFun (harg9.read_unread xs1) _))
  | ⟨1, _⟩ =>
    refine (if_neg (by show ¬ (1 : ℕ) = 0; omega)).trans ?_
    refine (PayValue.pay3_apply x0 x1 _ q).trans ?_
    exact congrArg (fun z : EReal => z + (Cert.GeoSpec.zero + ∑ p : Fin 1000, Ideal.cos (Dloc x0 x1 p q)))
      ((col_readAt_eq_read arg9.view (harg9.unread xs1) (1000 * (i 2).val) (1 : Fin 2) _ (k0_off2_eq i) q (col_row_lt i q)).trans
        (congrFun (harg9.read_unread xs1) _))

/-- Case E, outside the point's column tile: what was there. -/
theorem sout0_E_1_out (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 x1 : Vec Ideal S1x1000x2 .f32) (x2 : Vec Ideal S1x3000x2 .f32) (xs0 : Vec Ideal S1000x2 .f32) (xs1 : Vec Ideal S3000x2 .f32) (r : Fin 3000)
    (hout : r.val < 1000 * (i 2).val ∨ 1000 * (i 2).val + 1000 ≤ r.val) (ch : Fin 2) :
    sout0_E_1 (F := Ideal) c i arg3 harg3 arg4 harg4 arg5 harg5 arg6 harg6 arg7 harg7 arg8 harg8 arg9 harg9 hc0 hc1 hc2 hc3 x0 x1 x2 xs0 xs1 (ix2 r ch) = xs1 (ix2 r ch) := by
  unfold sout0_E_1 kernelRun0_E
  dsimp only
  sl_unfold_words
  refine (col_read_two_out _ _ (1000 * (i 2).val) _ _ _ _ [] (k0_off2_eq i) (k0_off1_eq i) r hout ch).trans ?_
  rw [View.writes_nil, harg9.read_unread]

/-! ## The step equation of the column-sum scratch -/

/-- Point `t`'s column tile is its number mod 3. -/
theorem coords_col : ∀ t : Fin cfg0.N, ((grid0.coords t) 2).val = t.val % 3 :=
  (by decide +kernel : ∀ t : Fin grid0.N, ((grid0.coords t) 2).val = t.val % 3)

/-- THE COLUMN-SUM SCRATCH after point `t`'s step, at row `r` and channel `ch`: on the rows of the point's column tile,
    what was there (the zero word where the scratch restarts, na = nb = 0) plus the channel's column sum of the point's
    two blocks at the row's place in the tile; elsewhere what was there. -/
theorem s1_eq (m : (ℓ : Loc nD τ sig) → Buf (Elt Ideal) ℓ) (c : Dev nD)
    (t : Fin cfg0.N) (xs0 : Vec Ideal S1000x2 .f32) (xs1 : Vec Ideal S3000x2 .f32) (r : Fin 3000) (ch : Fin 2) :
    (stepAt m c t xs0 xs1).2.2.2 (ix2 r ch)
      = if r.val / 1000 = t.val % 3
        then (if t.val % 9 = 0 then Cert.GeoSpec.zero else xs1 (ix2 r ch))
              + colSum (iblk m c 0 t) (iblk m c 1 t) ch ⟨r.val % 1000, Nat.mod_lt _ (by norm_num)⟩
        else (if t.val % 9 = 0 then Cert.GeoSpec.zero else xs1 (ix2 r ch)) := by
  have h2 : ((grid0.coords t) 2).val = t.val % 3 := coords_col t
  have hr : r.val < 3000 := r.isLt
  by_cases hin : r.val / 1000 = t.val % 3
  · rw [if_pos hin]
    have hq : r.val = 1000 * ((grid0.coords t) 2).val + (⟨r.val % 1000, Nat.mod_lt _ (by norm_num)⟩ : Fin 1000).val := by
      show r.val = 1000 * ((grid0.coords t) 2).val + r.val % 1000
      omega
    by_cases hA : t.val % 9 = 0
    · rw [if_pos hA, stepAt_A m c t xs0 xs1 hA]
      dsimp only
      exact sout0_A_1_in c (grid0.coords t) (ms0_0 t) (hs0_0 t) (ms0_1 t) (hs0_1 t) (ms0_2 t) (hs0_2 t) (ms0_3 t) (hs0_3 t) (ms0_4 t) (hs0_4 t) scM0_0 hsc0_0 _ _ _ _ (iblk m c 0 t) (iblk m c 1 t) (iblk m c 2 t) r ⟨r.val % 1000, Nat.mod_lt _ (by norm_num)⟩ hq ch
    · rw [if_neg hA]
      by_cases hB : t.val % 3 = 0
      · rw [stepAt_B m c t xs0 xs1 hA hB]
        dsimp only
        exact sout0_B_1_in c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs1 r ⟨r.val % 1000, Nat.mod_lt _ (by norm_num)⟩ hq ch
      · by_cases hC : t.val % 3 = 1
        · rw [stepAt_C m c t xs0 xs1 hA hB hC]
          dsimp only
          exact sout0_C_1_in c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 r ⟨r.val % 1000, Nat.mod_lt _ (by norm_num)⟩ hq ch
        · by_cases hE : t.val % 9 = 8
          · rw [stepAt_E m c t xs0 xs1 hA hB hC hE]
            dsimp only
            exact sout0_E_1_in c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 r ⟨r.val % 1000, Nat.mod_lt _ (by norm_num)⟩ hq ch
          · rw [stepAt_D m c t xs0 xs1 hA hB hC hE]
            dsimp only
            exact sout0_D_1_in c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 r ⟨r.val % 1000, Nat.mod_lt _ (by norm_num)⟩ hq ch
  · rw [if_neg hin]
    have hout : r.val < 1000 * ((grid0.coords t) 2).val ∨ 1000 * ((grid0.coords t) 2).val + 1000 ≤ r.val := by omega
    by_cases hA : t.val % 9 = 0
    · rw [if_pos hA, stepAt_A m c t xs0 xs1 hA]
      dsimp only
      exact sout0_A_1_out c (grid0.coords t) (ms0_0 t) (hs0_0 t) (ms0_1 t) (hs0_1 t) (ms0_2 t) (hs0_2 t) (ms0_3 t) (hs0_3 t) (ms0_4 t) (hs0_4 t) scM0_0 hsc0_0 _ _ _ _ (iblk m c 0 t) (iblk m c 1 t) (iblk m c 2 t) r hout ch
    · rw [if_neg hA]
      by_cases hB : t.val % 3 = 0
      · rw [stepAt_B m c t xs0 xs1 hA hB]
        dsimp only
        exact sout0_B_1_out c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs1 r hout ch
      · by_cases hC : t.val % 3 = 1
        · rw [stepAt_C m c t xs0 xs1 hA hB hC]
          dsimp only
          exact sout0_C_1_out c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 r hout ch
        · by_cases hE : t.val % 9 = 8
          · rw [stepAt_E m c t xs0 xs1 hA hB hC hE]
            dsimp only
            exact sout0_E_1_out c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 r hout ch
          · rw [stepAt_D m c t xs0 xs1 hA hB hC hE]
            dsimp only
            exact sout0_D_1_out c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 r hout ch

end Cert.KernelIdeal.StepSpec

end
-- ==== Proof.KI.StepEqOut.lean ====
/-
  The two outputs' blocks after one point's step, entry by entry.

  When nb = 2 the body loads the whole row-sum scratch, as the stores of this same step have just left it, multiplies
  it entry by entry with the first cloud's block and stores the product as the first output's block.  When also
  na = 2 it does the same with the whole column-sum scratch and the second cloud's batch for the second output.  So an
  entry of an output block is the cloud's entry times the scratch's entry after the step: the load reads the very
  list of stores that the scratch's contents after the step are read from.
-/
import proofs.«125605_j47287589929003_2_alg».proof.Proof.KI.StepSpec
import Idealize.ShloMosaic.Lib.WritesUnit
import Idealize.ShloMosaic.Lib.WholeRead
import Idealize.ShloMosaic.Lib.ValueIdx

set_option maxRecDepth 16384

noncomputable section

open scoped BigOperators

namespace Cert.KernelIdeal.StepSpec

open Idealize.ShloMosaic Idealize.ShloMosaic.TcCoe Idealize.ShloMosaic.ValueIdx Idealize.SL.Sem Idealize.ShloMosaic.Tactic
open Cert.KernelIdeal Cert.KernelIdeal.Gen Cert.KernelIdeal.Frm
open Cert.KernelIdeal.PayValue

/-! ## Loads and stores read at an index -/

section Helpers
variable {sg : RefSig} {κ : Kind} {sp : Space} {Val : EltTy → Type}

/-- The zero offsets of a rank-3 rectangle, however spelt. -/
theorem out_off3_zero : (![0, 0, 0] : Fin 3 → ℕ) = fun _ => 0 := by
  funext a; match a with | ⟨0, _⟩ => rfl | ⟨1, _⟩ => rfl | ⟨2, _⟩ => rfl

/-- A whole-buffer load through a whole memref held at the contents that read X reads X. -/
theorem out_readAt_whole {S : Shape} {e : EltTy} {M : Memref sg κ sp S e} (h : M.IsWhole) (X : S.Idx → Val e)
    {off : Fin S.rank → ℕ} (hz : off = fun _ => 0) (inb : ∀ a, off a + S.size a ≤ S.size a) :
    View.readAt Val M.view (Rect.unit off S.size inb).toLoadRect (h.unread X) = X := by
  rw [View.readAt_eq_ld, h.read_unread, View.ld_unit_zero hz]

/-- Position (p, k) of the load box of a whole [n0, n1] buffer is entry (p, k). -/
theorem out_idx_whole2 {n0 n1 : ℕ}
    (inb : ∀ a, (![0, 0] : Fin 2 → ℕ) a + (![n0, n1] : Fin 2 → ℕ) a ≤ (⟨2, ![n0, n1]⟩ : Shape).size a) (p : Fin n0) (k : Fin n1) :
    (Rect.unit (s := ⟨2, ![n0, n1]⟩) ![0, 0] ![n0, n1] inb).toLoadRect.idx (ix2 p k) = ix2 p k := by
  funext a
  refine Fin.ext ?_
  match a with
  | ⟨0, _⟩ => show 0 + 1 * p.val = p.val; omega
  | ⟨1, _⟩ => show 0 + 1 * k.val = k.val; omega

/-- One store of a whole [1, n, 2] buffer, over anything, reads back as its payload. -/
theorem out_read_whole3 {n : ℕ} {e : EltTy} (v : View sg κ sp (⟨3, ![1, n, 2]⟩ : Shape) e) (f : v.ty.Contents Val)
    (inb : ∀ a, (![0, 0, 0] : Fin 3 → ℕ) a + (![1, n, 2] : Fin 3 → ℕ) a ≤ (⟨3, ![1, n, 2]⟩ : Shape).size a)
    (w : (Rect.unit (s := ⟨3, ![1, n, 2]⟩) ![0, 0, 0] ![1, n, 2] inb).shape.Idx → Val e) (p : Fin n) (k : Fin 2) :
    v.read Val (v.writes Val f [(⟨Rect.unit (s := ⟨3, ![1, n, 2]⟩) ![0, 0, 0] ![1, n, 2] inb, w⟩ : View.Piece Val (⟨3, ![1, n, 2]⟩ : Shape) e)])
        (ix3 (0 : Fin 1) p k) = w (ix3 (0 : Fin 1) p k) :=
  View.read_writes_cons_unit_of_mem v f inb w [] (ix3 (0 : Fin 1) p k) (ix3 (0 : Fin 1) p k) out_off3_zero
    (fun a => (Nat.zero_add _).symm)

end Helpers

/-! ## The cases that write an output -/

/-- Case D: the first output's block is the first cloud's block times the row-sum scratch as this step leaves it. -/
theorem out0_D_3_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : ¬cond0_3 i) (x0 : Vec Ideal S1x1000x2 .f32) (x1 : Vec Ideal S1x1000x2 .f32) (x2 : Vec Ideal S1x3000x2 .f32) (xs0 : Vec Ideal S1000x2 .f32) (xs1 : Vec Ideal S3000x2 .f32) (p : Fin 1000) (ch : Fin 2) :
    out0_D_3 (F := Ideal) c i arg3 harg3 arg4 harg4 arg5 harg5 arg6 harg6 arg7 harg7 arg8 harg8 arg9 harg9 hc0 hc1 hc2 hc3 x0 x1 x2 xs0 xs1 (ix3 (0 : Fin 1) p ch)
      = HMul.hMul (α := EReal) (β := EReal) (γ := EReal) (x0 (ix3 0 p ch)) (sout0_D_0 (F := Ideal) c i arg3 harg3 arg4 harg4 arg5 harg5 arg6 harg6 arg7 harg7 arg8 harg8 arg9 harg9 hc0 hc1 hc2 hc3 x0 x1 x2 xs0 xs1 (ix2 p ch)) := by
  unfold out0_D_3 sout0_D_0 kernelRun0_D
  dsimp only
  sl_unfold_words
  refine (out_read_whole3 _ _ _ _ p ch).trans ?_
  simp only [out_readAt_whole harg3 x0 out_off3_zero]
  refine (pay4_apply x0 _ p ch).trans ?_
  refine congrArg (fun z : EReal => HMul.hMul (α := EReal) (β := EReal) (γ := EReal) (x0 (ix3 0 p ch)) z) ?_
  refine (congrFun (View.readCov_eq_canon' _ _ _) _).trans ?_
  refine Eq.trans ?_ (congrFun (View.read_writes_junk_eq_canon _ _) _).symm
  exact congrArg (View.canon _) (out_idx_whole2 _ p ch)

/-- Case E: the first output's block is the first cloud's block times the row-sum scratch as this step leaves it. -/
theorem out0_E_3_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec Ideal S1x1000x2 .f32) (x1 : Vec Ideal S1x1000x2 .f32) (x2 : Vec Ideal S1x3000x2 .f32) (xs0 : Vec Ideal S1000x2 .f32) (xs1 : Vec Ideal S3000x2 .f32) (p : Fin 1000) (ch : Fin 2) :
    out0_E_3 (F := Ideal) c i arg3 harg3 arg4 harg4 arg5 harg5 arg6 harg6 arg7 harg7 arg8 harg8 arg9 harg9 hc0 hc1 hc2 hc3 x0 x1 x2 xs0 xs1 (ix3 (0 : Fin 1) p ch)
      = HMul.hMul (α := EReal) (β := EReal) (γ := EReal) (x0 (ix3 0 p ch)) (sout0_E_0 (F := Ideal) c i arg3 harg3 arg4 harg4 arg5 harg5 arg6 harg6 arg7 harg7 arg8 harg8 arg9 harg9 hc0 hc1 hc2 hc3 x0 x1 x2 xs0 xs1 (ix2 p ch)) := by
  unfold out0_E_3 sout0_E_0 kernelRun0_E
  dsimp only
  sl_unfold_words
  refine (out_read_whole3 _ _ _ _ p ch).trans ?_
  simp only [out_readAt_whole harg3 x0 out_off3_zero]
  refine (pay4_apply x0 _ p ch).trans ?_
  refine congrArg (fun z : EReal => HMul.hMul (α := EReal) (β := EReal) (γ := EReal) (x0 (ix3 0 p ch)) z) ?_
  refine (congrFun (View.readCov_eq_canon' _ _ _) _).trans ?_
  refine Eq.trans ?_ (congrFun (View.read_writes_junk_eq_canon _ _) _).symm
  exact congrArg (View.canon _) (out_idx_whole2 _ p ch)

/-- Case E: the second output's block is the second cloud's batch times the column-sum scratch as this step leaves it. -/
theorem out0_E_4_apply (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x3000x2 .f32) (harg5 : arg5.IsWhole) (arg6 : Memref sig .tc .vmem S1x1000x2 .f32) (harg6 : arg6.IsWhole) (arg7 : Memref sig .tc .vmem S1x3000x2 .f32) (harg7 : arg7.IsWhole) (arg8 : Memref sig .tc .vmem S1000x2 .f32) (harg8 : arg8.IsWhole) (arg9 : Memref sig .tc .vmem S3000x2 .f32) (harg9 : arg9.IsWhole) (hc0 : ¬cond0_0 i) (hc1 : ¬cond0_1 i) (hc2 : cond0_2 i) (hc3 : cond0_3 i) (x0 : Vec Ideal S1x1000x2 .f32) (x1 : Vec Ideal S1x1000x2 .f32) (x2 : Vec Ideal S1x3000x2 .f32) (xs0 : Vec Ideal S1000x2 .f32) (xs1 : Vec Ideal S3000x2 .f32) (r : Fin 3000) (ch : Fin 2) :
    out0_E_4 (F := Ideal) c i arg3 harg3 arg4 harg4 arg5 harg5 arg6 harg6 arg7 harg7 arg8 harg8 arg9 harg9 hc0 hc1 hc2 hc3 x0 x1 x2 xs0 xs1 (ix3 (0 : Fin 1) r ch)
      = HMul.hMul (α := EReal) (β := EReal) (γ := EReal) (x2 (ix3 0 r ch)) (sout0_E_1 (F := Ideal) c i arg3 harg3 arg4 harg4 arg5 harg5 arg6 harg6 arg7 harg7 arg8 harg8 arg9 harg9 hc0 hc1 hc2 hc3 x0 x1 x2 xs0 xs1 (ix2 r ch)) := by
  unfold out0_E_4 sout0_E_1 kernelRun0_E
  dsimp only
  sl_unfold_words
  refine (out_read_whole3 _ _ _ _ r ch).trans ?_
  simp only [out_readAt_whole harg5 x2 out_off3_zero]
  refine (pay5_apply x2 _ r ch).trans ?_
  refine congrArg (fun z : EReal => HMul.hMul (α := EReal) (β := EReal) (γ := EReal) (x2 (ix3 0 r ch)) z) ?_
  exact congrArg (arg9.view.read (Elt Ideal) _) (out_idx_whole2 _ r ch)

/-! ## The step equations of the two outputs -/

set_option backward.isDefEq.respectTransparency.types false in
/-- Where the first output's block is written (nb = 2) it is the first cloud's block times the row-sum scratch after
    the same step. -/
theorem o3_eq (m : (ℓ : Loc nD τ sig) → Buf (Elt Ideal) ℓ) (c : Dev nD) (t : Fin cfg0.N) (xs0 : Vec Ideal S1000x2 .f32)
    (xs1 : Vec Ideal S3000x2 .f32) (h : t.val % 3 = 2) (p : Fin 1000) (ch : Fin 2) :
    (stepAt m c t xs0 xs1).1 (ix3 0 p ch) = HMul.hMul (α := EReal) (β := EReal) (γ := EReal) ((iblk m c 0 t : Vec Ideal S1x1000x2 .f32) (ix3 0 p ch)) ((stepAt m c t xs0 xs1).2.2.1 (ix2 p ch)) := by
  have hA : ¬t.val % 9 = 0 := by omega
  have hB : ¬t.val % 3 = 0 := by omega
  have hC : ¬t.val % 3 = 1 := by omega
  by_cases hE : t.val % 9 = 8
  · rw [stepAt_E m c t xs0 xs1 hA hB hC hE]
    dsimp only
    exact out0_E_3_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 p ch
  · rw [stepAt_D m c t xs0 xs1 hA hB hC hE]
    dsimp only
    exact out0_D_3_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 p ch

set_option backward.isDefEq.respectTransparency.types false in
/-- Where the second output's block is written (na = nb = 2) it is the second cloud's batch times the column-sum
    scratch after the same step. -/
theorem o4_eq (m : (ℓ : Loc nD τ sig) → Buf (Elt Ideal) ℓ) (c : Dev nD) (t : Fin cfg0.N) (xs0 : Vec Ideal S1000x2 .f32)
    (xs1 : Vec Ideal S3000x2 .f32) (h : t.val % 9 = 8) (r : Fin 3000) (ch : Fin 2) :
    (stepAt m c t xs0 xs1).2.1 (ix3 0 r ch) = HMul.hMul (α := EReal) (β := EReal) (γ := EReal) ((iblk m c 2 t : Vec Ideal S1x3000x2 .f32) (ix3 0 r ch)) ((stepAt m c t xs0 xs1).2.2.2 (ix2 r ch)) := by
  have hA : ¬t.val % 9 = 0 := by omega
  have hB : ¬t.val % 3 = 0 := by omega
  have hC : ¬t.val % 3 = 1 := by omega
  rw [stepAt_E m c t xs0 xs1 hA hB hC h]
  dsimp only
  exact out0_E_4_apply c (grid0.coords t) (ms0_0 t) (hs0_0 t) (ms0_1 t) (hs0_1 t) (ms0_2 t) (hs0_2 t) (ms0_3 t) (hs0_3 t) (ms0_4 t) (hs0_4 t) scM0_0 hsc0_0 scM0_1 hsc0_1 _ _ _ _ (iblk m c 0 t) (iblk m c 1 t) (iblk m c 2 t) xs0 xs1 r ch

end Cert.KernelIdeal.StepSpec

end
-- ==== Proof.KI.StepEq.lean ====
/-
  The four step equations together.
-/
import proofs.«125605_j47287589929003_2_alg».proof.Proof.KI.StepEq0
import proofs.«125605_j47287589929003_2_alg».proof.Proof.KI.StepEq1
import proofs.«125605_j47287589929003_2_alg».proof.Proof.KI.StepEqOut

noncomputable section

namespace Cert.KernelIdeal.StepSpec

open Idealize.ShloMosaic Idealize.ShloMosaic.TcCoe Idealize.SL.Sem
open Cert.KernelIdeal Cert.KernelIdeal.Gen Cert.KernelIdeal.Frm

theorem stepEqs (m : (ℓ : Loc nD τ sig) → Buf (Elt Ideal) ℓ) (c : Dev nD) : StepEqs m c :=
  ⟨s0_eq m c, s1_eq m c, o3_eq m c, o4_eq m c⟩

end Cert.KernelIdeal.StepSpec

end
-- ==== Proof.KI.Final.lean ====
/-
  The idealized kernel's run with both results named: every weakly fair execution ends with the first result at the
  first embedding of the two clouds and the second at the second, the clouds unchanged.  Each output array ends as the
  blocks written back into it, which tile it (the first output's at the points nb = 2, the second's at na = nb = 2), and
  each written block is the specification's by the closed forms of the two scratches.
-/
import proofs.«125605_j47287589929003_2_alg».proof.Proof.KI.Inv
import proofs.«125605_j47287589929003_2_alg».proof.Proof.KI.StepEq

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Frm Cert.KernelIdeal.StepSpec Cert.KernelIdeal.Inv
open Cert.GeoSpec (Cloud emb0 emb1)

variable (m : (ℓ : Loc nD τ sig) → Buf (Elt Ideal) ℓ) (ρ : Dev nD → PrngReg)

theorem final3 (c : Dev nD) : (dats m 0 c).arrAt 3 cfg0.N = emb0 (p0 m c) (p1 m c) :=
  arrAt3_of (dats m 0 c) (emb0 (p0 m c) (p1 m c)) fun t h2 p k => by
    rw [after0_3]; exact out3_eq m c (stepEqs m c) t h2 p k

theorem final4 (c : Dev nD) : (dats m 0 c).arrAt 4 cfg0.N = emb1 (p0 m c) (p1 m c) :=
  arrAt4_of (dats m 0 c) (emb1 (p0 m c) (p1 m c)) fun t h8 r k => by
    rw [after0_4]; exact out4_eq m c (stepEqs m c) t h8 r k

theorem run_spec : θ_run defs (onTc (τ := τ) (main (F := Ideal))) ⟨m, fun _ => 0, ρ⟩ (fun r => ∀ c : Dev nD,
      r.2.mem ((c.tc : Thread nD τ).loc main_v0_0) = emb0 (m ((c.tc : Thread nD τ).loc main_arg0)) (m ((c.tc : Thread nD τ).loc main_arg1))
      ∧ r.2.mem ((c.tc : Thread nD τ).loc main_v0_1) = emb1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 3).trans (final3 m c), ((h c).1 4).trans (final4 m c),
      ((h c).1 0).trans ((dats m 0 c).arrAt_in 0 rfl _), ((h c).1 1).trans ((dats m 0 c).arrAt_in 1 rfl _)⟩)
    (run_main m ρ)

end Cert.KernelIdeal.Final

end
-- ==== Proof.RefDist.lean ====
/-
  The reference's distance array, entry by entry.

  Entry (b, n, m) of the reference's eighth intermediate is sqrt (max 0 (2 - 2 * <p0[b,n,:], p1[b,m,:]>)) divided
  by the float word 1.0.  That word is the real number one, and dividing an extended real by one changes nothing
  (at the infinities too: x / 1 is x times the inverse of one), so the entry is the specification's clamped chord
  distance; the two arguments of the maximum stand in the other order there, and max is commutative.
-/
import proofs.«125605_j47287589929003_2_alg».proof.Proof.Gen.ReferenceIdeal.Read
import proofs.«125605_j47287589929003_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The float word 1.0 denotes the real number one. -/
theorem ofBits_one : Ideal.ofBits .f32 0x3F800000#32 = 1 := by
  simp [Ideal.ofBits, Ideal.ieee, -EReal.coe_mul]; norm_num

/-- Dividing by one changes no extended real, finite or not. -/
theorem div_one (x : EReal) : Ideal.div x 1 = x := by
  rw [← EReal.coe_one, Ideal.div_coe one_ne_zero, one_div, inv_one, EReal.coe_one, mul_one]

/-- Term k of entry (b, n, m) of the batched product reads coordinate k of point n of the first cloud. -/
theorem lidx_eq (b : Fin 4) (n m : Fin 3000) (k : Fin 2) : lidx_main_v0 (ix3 b n m) k = ix3 b n k :=
  funext fun a => Fin.ext (by match a with | ⟨0, _⟩ => rfl | ⟨1, _⟩ => rfl | ⟨2, _⟩ => rfl)

/-- Term k of entry (b, n, m) of the batched product reads coordinate k of point m of the second cloud. -/
theorem ridx_eq (b : Fin 4) (n m : Fin 3000) (k : Fin 2) : ridx_main_v0 (ix3 b n m) k = ix3 b m k :=
  funext fun a => Fin.ext (by match a with | ⟨0, _⟩ => rfl | ⟨1, _⟩ => rfl | ⟨2, _⟩ => rfl)

/-- The reference's distance entry is the specification's clamped chord distance. -/
theorem dist_apply (x0 x1 : (⟨S4x3000x2, .f32⟩ : BufTy).Contents (Elt Ideal)) (b : Fin 4) (n m : Fin 3000) :
    val_main_v8 (F := Ideal) x0 x1 (ix3 b n m) = Cert.GeoSpec.dist x0 x1 b n m := by
  rw [val_main_v8_apply, val_main_v7_apply, val_main_cst_2_apply, val_main_v6_apply, val_main_v5_apply,
    val_main_call0_v1_apply, val_main_call0_v0_apply, val_main_cst_1_apply, val_main_v4_apply, val_main_v3_apply,
    val_main_cst_0_apply, val_main_v2_apply, val_main_v1_apply, val_main_cst_apply, val_main_v0_apply]
  simp only [Ideal.hostDivf_def, Ideal.hostUnary_sqrt_def, Ideal.maximumf_def, Ideal.subf_def, Ideal.mulf_def,
    Ideal.ofBits_def, ofBits_one, div_one, lidx_eq, ridx_eq]
  rw [max_comm]
  rfl

end Cert.ReferenceIdeal.RefValue

end
-- ==== Proof.RefConcat.lean ====
/-
  The reference's joined wave array, entry by entry.

  The reference takes the sine and the cosine of the distance array, gives each a trailing axis of extent one and
  lays the two end to end along that axis.  Entry (b, n, m, c) of the result is therefore read from the sine piece
  when c = 0 and from the cosine piece when c = 1, in both cases at (b, n, m, 0), which is entry (b, n, m) of the
  piece before its unit axis was added: the specification's wave of channel c at the distance.
-/
import proofs.«125605_j47287589929003_2_alg».proof.Proof.Gen.ReferenceIdeal.Read
import proofs.«125605_j47287589929003_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- Adding the trailing unit axis keeps the three leading coordinates (sine piece). -/
theorem idx11_eq (b : Fin 4) (n m : Fin 3000) (z : Fin 1) : idx_main_v11 (ix4 b n m z) = ix3 b n m :=
  funext fun a => Fin.ext (by match a with | ⟨0, _⟩ => rfl | ⟨1, _⟩ => rfl | ⟨2, _⟩ => rfl)

/-- Adding the trailing unit axis keeps the three leading coordinates (cosine piece). -/
theorem idx12_eq (b : Fin 4) (n m : Fin 3000) (z : Fin 1) : idx_main_v12 (ix4 b n m z) = ix3 b n m :=
  funext fun a => Fin.ext (by match a with | ⟨0, _⟩ => rfl | ⟨1, _⟩ => rfl | ⟨2, _⟩ => rfl)

/-- Entry (b, n, m, c) of the joined array is channel c's wave of the distance entry (b, n, m). -/
theorem wave_apply (x0 x1 : (⟨S4x3000x2, .f32⟩ : BufTy).Contents (Elt Ideal)) (b : Fin 4) (n m : Fin 3000) (c : Fin 2) :
    val_main_v13 (F := Ideal) x0 x1 (ix4 b n m c)
      = Cert.GeoSpec.wave c (val_main_v8 (F := Ideal) x0 x1 (ix3 b n m)) := by
  unfold val_main_v13 Cert.GeoSpec.wave
  by_cases hc : c.val = 0
  · rw [if_pos hc]
    refine (concatenate_pair_apply_left 3 _ _ concatenates_S4x3000x3000x1_S4x3000x3000x1_S4x3000x3000x2_d3
      (ix4 b n m c) rfl (ix4 b n m (0 : Fin 1)) (fun a => by
        match a with
        | ⟨0, _⟩ => rfl
        | ⟨1, _⟩ => rfl
        | ⟨2, _⟩ => rfl
        | ⟨3, _⟩ => exact hc.symm)).trans ?_
    rw [val_main_v11_apply, idx11_eq, val_main_v9_apply, Ideal.hostUnary_sin_def]
  · have hc1 : c.val = 1 := by omega
    rw [if_neg hc]
    refine (concatenate_pair_apply_right 3 _ _ concatenates_S4x3000x3000x1_S4x3000x3000x1_S4x3000x3000x2_d3
      (ix4 b n m c) rfl rfl (ix4 b n m (0 : Fin 1)) (fun a ha => by
        match a with
        | ⟨0, _⟩ => rfl
        | ⟨1, _⟩ => rfl
        | ⟨2, _⟩ => rfl
        | ⟨3, _⟩ => exact absurd rfl ha) (by show 0 + 1 = c.val; omega)).trans ?_
    rw [val_main_v12_apply, idx12_eq, val_main_v10_apply, Ideal.hostUnary_cos_def]

end Cert.ReferenceIdeal.RefValue

end
-- ==== Proof.RefValue.lean ====
/-
  The reference's two results are the specification's two embeddings.

  The reference sums its joined wave array over the second cloud's points (axis 2) and multiplies by the first
  cloud, and sums it over the first cloud's points (axis 1) and multiplies by the second cloud.  With the wave
  array read entry by entry and the distance entry identified with the specification's, each result is, index by
  index, the coordinate times the zero word plus the sum of the channel's wave of the distance: the
  specification's embedding.  No finiteness of the clouds is used: every step is a reading of an entry or a law
  that holds on all extended reals.
-/
import proofs.«125605_j47287589929003_2_alg».proof.Proof.RefDist
import proofs.«125605_j47287589929003_2_alg».proof.Proof.RefConcat

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- Summing over the second cloud's points: term k of entry (b, n, c) is entry (b, n, k, c) of the wave array. -/
theorem idx14_eq (b : Fin 4) (n : Fin 3000) (c : Fin 2) (k : Fin 3000) :
    idx_main_v14 (ix3 b n c) k = ix4 b n k c :=
  funext fun a => Fin.ext (by match a with | ⟨0, _⟩ => rfl | ⟨1, _⟩ => rfl | ⟨2, _⟩ => rfl | ⟨3, _⟩ => rfl)

/-- Summing over the first cloud's points: term k of entry (b, m, c) is entry (b, k, m, c) of the wave array. -/
theorem idx16_eq (b : Fin 4) (m : Fin 3000) (c : Fin 2) (k : Fin 3000) :
    idx_main_v16 (ix3 b m c) k = ix4 b k m c :=
  funext fun a => Fin.ext (by match a with | ⟨0, _⟩ => rfl | ⟨1, _⟩ => rfl | ⟨2, _⟩ => rfl | ⟨3, _⟩ => rfl)

/-- The reference's first result is the specification's first embedding. -/
theorem result0_eq (x0 x1 : (⟨S4x3000x2, .f32⟩ : BufTy).Contents (Elt Ideal)) :
    val_main_v15 (F := Ideal) x0 x1 = Cert.GeoSpec.emb0 x0 x1 := by
  funext i
  obtain ⟨b, n, c, rfl⟩ : ∃ (b : Fin 4) (n : Fin 3000) (c : Fin 2), i = ix3 b n c := ⟨i 0, i 1, i 2, eq_ix3 i⟩
  rw [val_main_v15_apply, val_main_v14_apply, val_main_cst_3_apply]
  simp only [idx14_eq, wave_apply, dist_apply, Ideal.mulf_def, Ideal.ofBits_def]
  rfl

/-- The reference's second result is the specification's second embedding. -/
theorem result1_eq (x0 x1 : (⟨S4x3000x2, .f32⟩ : BufTy).Contents (Elt Ideal)) :
    val_main_v17 (F := Ideal) x0 x1 = Cert.GeoSpec.emb1 x0 x1 := by
  funext i
  obtain ⟨b, m, c, rfl⟩ : ∃ (b : Fin 4) (m : Fin 3000) (c : Fin 2), i = ix3 b m c := ⟨i 0, i 1, i 2, eq_ix3 i⟩
  rw [val_main_v17_apply, val_main_v16_apply, val_main_cst_4_apply]
  simp only [idx16_eq, wave_apply, dist_apply, Ideal.mulf_def, Ideal.ofBits_def]
  rfl

/-- Every weakly fair execution of the reference ends with its two results at the specification's embeddings of
    the two clouds it was started with, and the clouds unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v15)
          = Cert.GeoSpec.emb0 (m' ((c.tc : Thread nD τ).loc main_arg0)) (m' ((c.tc : Thread nD τ).loc main_arg1))
      ∧ r.2.mem ((c.tc : Thread nD τ).loc main_v17)
          = Cert.GeoSpec.emb1 (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c =>
      ⟨(h c).1.trans ((val_main_v15_eq _ _).trans (result0_eq _ _)),
       (h c).2.1.trans ((val_main_v17_eq _ _).trans (result1_eq _ _)),
       (h c).2.2⟩)
    (Cert.ReferenceIdeal.Value.run (F := Ideal) m' ρ')

end Cert.ReferenceIdeal.RefValue

end
-- ==== Proof.lean ====
/-
  The certificate.  The kernel computes, for two clouds of points on the unit circle's chord metric, the sine and cosine
  of every pairwise distance once per tile pair and sums them along both axes in one pass — row sums into a scratch that
  restarts with each row tile, column sums into a scratch that restarts with each batch — and multiplies each cloud by
  its sums; the reference forms the whole [4, 3000, 3000, 2] table and reduces it twice.  On the extended reals the two
  are the same sums regrouped by tiles.
  Frames: the kernel's run is proved once for any float instance (the body run case by case of its four branch
  conditions, the two scratches tracked from point to point, the second cloud's array shared by two input windows each
  holding half of it) and read at the word level and at the ideal level; the reference's frame is its run with the
  results dropped.  The idealization rewrote nothing, so that conjunct is trivial.  The value claim pairs the kernel's
  run, both results named at the specification, with the reference's, named at the same.
-/
import proofs.«125605_j47287589929003_2_alg».proof.Defs
import proofs.«125605_j47287589929003_2_alg».proof.Proof.Gen.Kernel
import proofs.«125605_j47287589929003_2_alg».proof.Proof.Gen.KernelIdeal
import proofs.«125605_j47287589929003_2_alg».proof.Proof.Gen.ReferenceIdeal
import proofs.«125605_j47287589929003_2_alg».proof.Proof.Gen.Pre_finite_inputs
import proofs.«125605_j47287589929003_2_alg».proof.Proof.K.FrameClaim
import proofs.«125605_j47287589929003_2_alg».proof.Proof.KI.FrameClaim
import proofs.«125605_j47287589929003_2_alg».proof.Proof.KI.Final
import proofs.«125605_j47287589929003_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.RefValue.run_spec m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Final.run_spec m ρ, ?_⟩
  refine (θ_run Cert.ReferenceIdeal.defs _ _).mono (fun _ h c => ?_) (Cert.ReferenceIdeal.RefValue.run_spec m' ρ')
  have h' := h c
  rw [(hagree c).1, (hagree c).2] at h'
  exact ⟨h'.1, h'.2.1, by rw [(hagree c).1]; exact h'.2.2.1, by rw [(hagree c).2]; exact h'.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
